-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S512x512 : Shape := ⟨2, ![512, 512]⟩
abbrev S512x128 : Shape := ⟨2, ![512, 128]⟩
abbrev S128 : Shape := ⟨1, ![128]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S512x128 1) : IVec S_ 1 :=
  let main_c_5 : IVec S_ 1 := constantI S_ 1 1#1
  let main_v17 : IVec S_ 1 := (fun x v => Host.reduce IntOp.andi x v reducesTo_S512x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S8192x512 .f32) (main_arg1 : FVec F S512x512 .f32) (main_arg2 : FVec F S512x128 .f32) (main_arg3 : FVec F S512x128 .f32) (main_arg4 : FVec F S128 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512x128 .f32 := Host.absf main_arg2
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  let main_v14 : FVec F S512x128 .f32 := Host.absf main_arg3
  let main_cst_4 : FVec F S_ .f32 := constant S_ .f32 0x7F800000#32
  let main_v15 : FVec F S512x128 .f32 := broadcastInDim S512x128 ![] bcast_S_S512x128 main_cst_4
  let main_v16 : IVec S512x128 1 := cmpf .olt main_v14 main_v15
  fn_part1 (F := F) main_arg4 main_v13 main_v16
-- ==== Kernel.lean ====
abbrev S8192x512 : Shape := ⟨2, ![8192, 512]⟩
abbrev S512x512 : Shape := ⟨2, ![512, 512]⟩
abbrev S512x128 : Shape := ⟨2, ![512, 128]⟩
abbrev S128 : Shape := ⟨1, ![128]⟩
abbrev S8192x128 : Shape := ⟨2, ![8192, 128]⟩
abbrev S8192x1 : Shape := ⟨2, ![8192, 1]⟩
abbrev S1024x512 : Shape := ⟨2, ![1024, 512]⟩
abbrev S1024x128 : Shape := ⟨2, ![1024, 128]⟩
abbrev S1024x1 : Shape := ⟨2, ![1024, 1]⟩
abbrev S1024 : Shape := ⟨1, ![1024]⟩
abbrev S1x8192 : Shape := ⟨2, ![1, 8192]⟩
abbrev S1x128 : Shape := ⟨2, ![1, 128]⟩
abbrev S1x1024 : Shape := ⟨2, ![1, 1024]⟩
abbrev S128x1024 : Shape := ⟨2, ![128, 1024]⟩
abbrev S1024x1024 : Shape := ⟨2, ![1024, 1024]⟩

abbrev nBuf : Space → Nat
  | .hbm => 11
  | .vmem => 25
  | .smem => 0
  | _ => 0

abbrev bufTy : (tb : Table) → Fin (tcTables nBuf tb) → BufTy
  | .hbm, ⟨0, _⟩ => ⟨S8192x512, .f32⟩
  | .hbm, ⟨1, _⟩ => ⟨S512x512, .f32⟩
  | .hbm, ⟨2, _⟩ => ⟨S512x128, .f32⟩
  | .hbm, ⟨3, _⟩ => ⟨S512x128, .f32⟩
  | .hbm, ⟨4, _⟩ => ⟨S128, .f32⟩
  | .hbm, ⟨5, _⟩ => ⟨S8192x128, .bf16⟩
  | .hbm, ⟨6, _⟩ => ⟨S8192x128, .bf16⟩
  | .hbm, ⟨7, _⟩ => ⟨S8192x1, .f32⟩
  | .hbm, ⟨8, _⟩ => ⟨S1x8192, .f32⟩
  | .hbm, ⟨9, _⟩ => ⟨S1x128, .f32⟩
  | .hbm, ⟨10, _⟩ => ⟨S8192x128, .f32⟩
  | .local _ .vmem, ⟨0, _⟩ => ⟨S1024x512, .f32⟩
  | .local _ .vmem, ⟨1, _⟩ => ⟨S1024x512, .f32⟩
  | .local _ .vmem, ⟨2, _⟩ => ⟨S512x512, .f32⟩
  | .local _ .vmem, ⟨3, _⟩ => ⟨S512x128, .f32⟩
  | .local _ .vmem, ⟨4, _⟩ => ⟨S512x128, .f32⟩
  | .local _ .vmem, ⟨5, _⟩ => ⟨S1024x128, .bf16⟩
  | .local _ .vmem, ⟨6, _⟩ => ⟨S1024x128, .bf16⟩
  | .local _ .vmem, ⟨7, _⟩ => ⟨S1024x128, .bf16⟩
  | .local _ .vmem, ⟨8, _⟩ => ⟨S1024x128, .bf16⟩
  | .local _ .vmem, ⟨9, _⟩ => ⟨S1024x1, .f32⟩
  | .local _ .vmem, ⟨10, _⟩ => ⟨S1024x1, .f32⟩
  | .local _ .vmem, ⟨11, _⟩ => ⟨S1024x128, .bf16⟩
  | .local _ .vmem, ⟨12, _⟩ => ⟨S1024x128, .bf16⟩
  | .local _ .vmem, ⟨13, _⟩ => ⟨S1024x1, .f32⟩
  | .local _ .vmem, ⟨14, _⟩ => ⟨S1024x1, .f32⟩
  | .local _ .vmem, ⟨15, _⟩ => ⟨S1024x128, .bf16⟩
  | .local _ .vmem, ⟨16, _⟩ => ⟨S1024x128, .bf16⟩
  | .local _ .vmem, ⟨17, _⟩ => ⟨S1x1024, .f32⟩
  | .local _ .vmem, ⟨18, _⟩ => ⟨S1x1024, .f32⟩
  | .local _ .vmem, ⟨19, _⟩ => ⟨S1024x128, .bf16⟩
  | .local _ .vmem, ⟨20, _⟩ => ⟨S1024x128, .bf16⟩
  | .local _ .vmem, ⟨21, _⟩ => ⟨S1x128, .f32⟩
  | .local _ .vmem, ⟨22, _⟩ => ⟨S1024x128, .f32⟩
  | .local _ .vmem, ⟨23, _⟩ => ⟨S1024x128, .f32⟩
  | .local _ .vmem, ⟨24, _⟩ => ⟨S1024x128, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg6_1 : Ref sig .tc := ⟨.vmem, 23, rfl⟩
abbrev cc1_scratch0 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem4_1 : DmaSem sig := 20
abbrev cc1_sem5_0 : DmaSem sig := 21
abbrev cc1_sem6_0 : DmaSem sig := 22
abbrev cc1_sem6_1 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v28 : BitVec 1 := Scalar.cmpi .eq arg1 c7_i32
  let v29 : BitVec 32 := Scalar.extui v28
  let c0_i32_16 : BitVec 32 := 0#32
  let v30 : BitVec 1 := Scalar.cmpi .ne v29 c0_i32_16
  v30

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1024x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1024x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1024x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

class Facts₀ : Prop where
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  inb_S512x128_S512x128_0_0 : ∀ a, (![0, 0] : Fin 2 → Nat) a + S512x128.size a ≤ S512x128.size a
  h_S512x128 : 0 < S512x128.numel
  reduces_S1024x128_S1024 : S1024x128.Reduces [1] S1024
  shapeCasts_S1024_S1024x1 : S1024.ShapeCasts S1024x1
  inb_S1024x128_S1024x128_0_0 : ∀ a, (![0, 0] : Fin 2 → Nat) a + S1024x128.size a ≤ S1024x128.size a
  h_S1024x128 : 0 < S1024x128.numel
  packedbf16_S1024x128_S1024x128_0_0 : (Rect.unit (s := S1024x128) ![0, 0] S1024x128.size inb_S1024x128_S1024x128_0_0).PackedRows (EltTy.packing .bf16)
  inb_S1024x1_S1024x1_0_0 : ∀ a, (![0, 0] : Fin 2 → Nat) a + S1024x1.size a ≤ S1024x1.size a
  h_S1024x1 : 0 < S1024x1.numel
  shapeCasts_S8192x1_S1x8192 : S8192x1.ShapeCasts S1x8192
  shapeCasts_S128_S1x128 : S128.ShapeCasts S1x128
  shapeCasts_S1024x128_S1024x128 : S1024x128.ShapeCasts S1024x128
  transposes_S1024x128_p1_0_S128x1024 : S1024x128.Transposes [1, 0] S128x1024
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  dot_S1024x512_S512x512_S1024x512_1_0_0_1_n_n_wf : DotDims.WF S1024x512 S512x512 S1024x512 [1] [0] [0] [1] [] []
  dot_S1024x512_S512x128_S1024x128_1_0_0_1_n_n_wf : DotDims.WF S1024x512 S512x128 S1024x128 [1] [0] [0] [1] [] []
  dot_S1024x128_S128x1024_S1024x1024_1_0_0_1_n_n_wf : DotDims.WF S1024x128 S128x1024 S1024x1024 [1] [0] [0] [1] [] []
  dot_S1024x1024_S1024x128_S1024x128_1_0_0_1_n_n_wf : DotDims.WF S1024x1024 S1024x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S512x128.size a
  hwx0_2 : ∀ i : grid0.Coords, EltTy.bits .f32 = 32 ∨ (Rect.block (s := S512x128) S512x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S512x128.size a
  hwx0_3 : ∀ i : grid0.Coords, EltTy.bits .f32 = 32 ∨ (Rect.block (s := S512x128) S512x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x128.size a ≤ S8192x128.size a
  hwx0_4 : ∀ i : grid0.Coords, EltTy.bits .bf16 = 32 ∨ (Rect.block (s := S8192x128) S1024x128.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x128.size a ≤ S8192x128.size a
  hwx0_5 : ∀ i : grid0.Coords, EltTy.bits .bf16 = 32 ∨ (Rect.block (s := S8192x128) S1024x128.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1.size a ≤ S8192x1.size a
  hwx0_6 : ∀ i : grid0.Coords, EltTy.bits .f32 = 32 ∨ (Rect.block (s := S8192x1) S1024x1.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S8192x128.size a
  hwx1_0 : ∀ i : grid1.Coords, EltTy.bits .bf16 = 32 ∨ (Rect.block (s := S8192x128) S1024x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1.size a ≤ S8192x1.size a
  hwx1_1 : ∀ i : grid1.Coords, EltTy.bits .f32 = 32 ∨ (Rect.block (s := S8192x1) S1024x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x128.size a ≤ S8192x128.size a
  hwx1_2 : ∀ i : grid1.Coords, EltTy.bits .bf16 = 32 ∨ (Rect.block (s := S8192x128) S1024x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x8192.size a
  hwx1_3 : ∀ i : grid1.Coords, EltTy.bits .f32 = 32 ∨ (Rect.block (s := S1x8192) S1x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x128.size a ≤ S8192x128.size a
  hwx1_4 : ∀ i : grid1.Coords, EltTy.bits .bf16 = 32 ∨ (Rect.block (s := S8192x128) S1024x128.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1024x128.size a ≤ S8192x128.size a
  hwx1_6 : ∀ i : grid1.Coords, EltTy.bits .f32 = 32 ∨ (Rect.block (s := S8192x128) S1024x128.size (cc1_transform_6 i) (hinb1_6 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf
def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1024x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1024x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_2) S1024x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v0_0) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_2) S1024x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_0) S1024x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v0_1) S1024x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v2) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v3) S1024x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

class Facts : Prop extends Facts₀ where

variable [Facts]
-- ==== ReferenceIdeal.lean ====
abbrev S8192x512 : Shape := ⟨2, ![8192, 512]⟩
abbrev S512x512 : Shape := ⟨2, ![512, 512]⟩
abbrev S512x128 : Shape := ⟨2, ![512, 128]⟩
abbrev S128 : Shape := ⟨1, ![128]⟩
abbrev S_ : Shape := ⟨0, ![]⟩
abbrev S8192x128 : Shape := ⟨2, ![8192, 128]⟩
abbrev S8192 : Shape := ⟨1, ![8192]⟩
abbrev S8192x1 : Shape := ⟨2, ![8192, 1]⟩
abbrev S128x8192 : Shape := ⟨2, ![128, 8192]⟩
abbrev S8192x8192 : Shape := ⟨2, ![8192, 8192]⟩
abbrev S1x8192 : Shape := ⟨2, ![1, 8192]⟩
abbrev S1x128 : Shape := ⟨2, ![1, 128]⟩

abbrev nBuf : Space → Nat
  | .hbm => 33
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x512, .f32⟩
  | .hbm, ⟨2, _⟩ => ⟨S512x128, .f32⟩
  | .hbm, ⟨3, _⟩ => ⟨S512x128, .f32⟩
  | .hbm, ⟨4, _⟩ => ⟨S128, .f32⟩
  | .hbm, ⟨5, _⟩ => ⟨S8192x512, .f32⟩
  | .hbm, ⟨6, _⟩ => ⟨S_, .f32⟩
  | .hbm, ⟨7, _⟩ => ⟨S8192x512, .f32⟩
  | .hbm, ⟨8, _⟩ => ⟨S8192x512, .f32⟩
  | .hbm, ⟨9, _⟩ => ⟨S8192x128, .f32⟩
  | .hbm, ⟨10, _⟩ => ⟨S8192x128, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S8192x1, .f32⟩
  | .hbm, ⟨15, _⟩ => ⟨S128x8192, .f32⟩
  | .hbm, ⟨16, _⟩ => ⟨S8192x8192, .f32⟩
  | .hbm, ⟨17, _⟩ => ⟨S1x8192, .f32⟩
  | .hbm, ⟨18, _⟩ => ⟨S8192x8192, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S8192x8192, .f32⟩
  | .hbm, ⟨25, _⟩ => ⟨S8192x128, .f32⟩
  | .hbm, ⟨26, _⟩ => ⟨S8192x128, .f32⟩
  | .hbm, ⟨27, _⟩ => ⟨S_, .f32⟩
  | .hbm, ⟨28, _⟩ => ⟨S8192x128, .f32⟩
  | .hbm, ⟨29, _⟩ => ⟨S8192x128, .f32⟩
  | .hbm, ⟨30, _⟩ => ⟨S1x128, .f32⟩
  | .hbm, ⟨31, _⟩ => ⟨S8192x128, .f32⟩
  | .hbm, ⟨32, _⟩ => ⟨S8192x128, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_cst : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]

class Facts₀ : Prop where
  bcast_S_S8192x512 : S_.BroadcastsInDim S8192x512 (![] : Fin 0 → Fin S8192x512.rank)
  reducesTo_S8192x128_S8192_d1 : S8192x128.ReducesTo [1] S8192
  h_S_ : 0 < S_.numel
  bcast_S8192_S8192x1_0 : S8192.BroadcastsInDim S8192x1 (![0] : Fin 1 → Fin S8192x1.rank)
  transposes_S8192x128_S128x8192_1_0 : S8192x128.Transposes [1, 0] S128x8192
  transposes_S8192x1_S1x8192_1_0 : S8192x1.Transposes [1, 0] S1x8192
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  bcast_S_S8192x128 : S_.BroadcastsInDim S8192x128 (![] : Fin 0 → Fin S8192x128.rank)
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  dot_S8192x512_S512x512_S8192x512_1_0_0_1_n_n_wf : DotDims.WF S8192x512 S512x512 S8192x512 [1] [0] [0] [1] [] []
  dot_S8192x512_S512x128_S8192x128_1_0_0_1_n_n_wf : DotDims.WF S8192x512 S512x128 S8192x128 [1] [0] [0] [1] [] []
  dot_S8192x128_S128x8192_S8192x8192_1_0_0_1_n_n_wf : DotDims.WF S8192x128 S128x8192 S8192x8192 [1] [0] [0] [1] [] []
  dot_S8192x8192_S8192x128_S8192x128_1_0_0_1_n_n_wf : DotDims.WF S8192x8192 S8192x128 S8192x128 [1] [0] [0] [1] [] []

variable [Facts₀]

def dot_S8192x512_S512x512_S8192x512_1_0_0_1_n_n : DotDims S8192x512 S512x512 S8192x512 where
  lhsContracting := [1]
  rhsContracting := [0]
  lhsNonContracting := [0]
  rhsNonContracting := [1]
  lhsBatch := []
  rhsBatch := []
  wf := dot_S8192x512_S512x512_S8192x512_1_0_0_1_n_n_wf
def dot_S8192x512_S512x128_S8192x128_1_0_0_1_n_n : DotDims S8192x512 S512x128 S8192x128 where
  lhsContracting := [1]
  rhsContracting := [0]
  lhsNonContracting := [0]
  rhsNonContracting := [1]
  lhsBatch := []
  rhsBatch := []
  wf := dot_S8192x512_S512x128_S8192x128_1_0_0_1_n_n_wf
def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf

class Facts : Prop extends Facts₀ where

variable [Facts]
-- ==== Proof.KbRegion0.lean ====
/-
  The first kernel region (the projector): a grid of eight row blocks. At block t the body reads rows
  1024·t … 1024·t+1023 of x and the three weight matrices whole, and stores three blocks: the projected features
  (two matrix products with max(·, 0) between them), the graph-convolution features (one product), and the
  column of row norms. Each store covers its whole block, so what a block holds afterwards is the stored payload.
  Stated at an arbitrary valuation V of the buffers at the region's entry and for any float instance.
-/
import proofs.«130529_j59725815218593_1_alg».proof.Proof.Gen.Kernel.Launch
import proofs.«130529_j59725815218593_1_alg».proof.Proof.Gen.Kernel.Skeleton
import proofs.«130529_j59725815218593_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window w's block at grid point t, read off the array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, whether the point fetches it or not. -/
theorem before0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = blk0 V c 3 t) (t : Fin cfg0.N) (d) : dat.before 3 t d = blk0 V c 3 t :=
  (dat.before_in_eq_fetched 3 rfl (fun _ => rfl) (fun _ _ _ => rfl) (fun t => by rw [hafter]; unfold Dat.blockOf blk0; rw [hA]; try rfl) t d).trans
    (by unfold Dat.fetched Dat.blockOf blk0; rw [hA]; try rfl)

/-- The whole-buffer rectangles the body loads and stores through. -/
abbrev rX : Rect S1024x512 := Rect.unit (s := S1024x512) ![0, 0] S1024x512.size inb_S1024x512_S1024x512_0_0
abbrev rW1 : Rect S512x512 := Rect.unit (s := S512x512) ![0, 0] S512x512.size inb_S512x512_S512x512_0_0
abbrev rW2 : Rect S512x128 := Rect.unit (s := S512x128) ![0, 0] S512x128.size inb_S512x128_S512x128_0_0
abbrev rP : Rect S1024x128 := Rect.unit (s := S1024x128) ![0, 0] S1024x128.size inb_S1024x128_S1024x128_0_0
abbrev rN : Rect S1024x1 := Rect.unit (s := S1024x1) ![0, 0] S1024x1.size inb_S1024x1_S1024x1_0_0

/-- What the body leaves in the three output blocks, from the input blocks: one whole-block store each. -/
def xpOut (x0 : Vec F S1024x512 .f32) (w1 : Vec F S512x512 .f32) (w2 : Vec F S512x128 .f32) : Vec F S1024x128 .bf16 :=
  View.canon [⟨rP, k0_pay4 (View.ld x0 rX) (View.ld w1 rW1) (View.ld w2 rW2)⟩]
def hOut (x0 : Vec F S1024x512 .f32) (gw : Vec F S512x128 .f32) : Vec F S1024x128 .bf16 :=
  View.canon [⟨rP, k0_pay5 (View.ld x0 rX) (View.ld gw rW2)⟩]
def nrmOut (x0 : Vec F S1024x512 .f32) (w1 : Vec F S512x512 .f32) (w2 : Vec F S512x128 .f32) : Vec F S1024x1 .f32 :=
  View.canon [⟨rN, k0_pay3 (View.ld x0 rX) (View.ld w1 rW1) (View.ld w2 rW2)⟩]

theorem coverP_bf (p0 : Vec F S1024x128 .bf16) (y : S1024x128.Idx) :
    ∃ pc ∈ ([⟨rP, p0⟩] : List (View.Piece (Elt F) S1024x128 .bf16)), y ∈ pc.1.set :=
  View.cover_of_tiled [⟨rP, p0⟩] S1024x128.size (by rfl) y
theorem coverN (p0 : Vec F S1024x1 .f32) (y : S1024x1.Idx) :
    ∃ pc ∈ ([⟨rN, p0⟩] : List (View.Piece (Elt F) S1024x1 .f32)), y ∈ pc.1.set :=
  View.cover_of_tiled [⟨rN, p0⟩] S1024x1.size (by rfl) y

set_option maxHeartbeats 4000000 in
/-- The body on whole staging memrefs: the inputs are kept, each output holds its stored payload. -/
theorem sound_kernel0 (c : Dev nD) (E : Set ℕ) (i : grid0.Coords)
    (a1 : Memref sig .tc .vmem S1024x512 .f32) (h1 : a1.IsWhole) (a2 : Memref sig .tc .vmem S512x512 .f32) (h2 : a2.IsWhole)
    (a3 : Memref sig .tc .vmem S512x128 .f32) (h3 : a3.IsWhole) (a4 : Memref sig .tc .vmem S512x128 .f32) (h4 : a4.IsWhole)
    (a5 : Memref sig .tc .vmem S1024x128 .bf16) (h5 : a5.IsWhole) (a6 : Memref sig .tc .vmem S1024x128 .bf16) (h6 : a6.IsWhole)
    (a7 : Memref sig .tc .vmem S1024x1 .f32) (h7 : a7.IsWhole)
    (x0 : Vec F S1024x512 .f32) (w1 : Vec F S512x512 .f32) (w2 gw : Vec F S512x128 .f32) (K : PUnit → sProp 𝕄) :
    iprop(owns (c : Thread nD τ) a1 fullShare x0 ∗ owns (c : Thread nD τ) a2 fullShare w1 ∗ owns (c : Thread nD τ) a3 fullShare w2
        ∗ owns (c : Thread nD τ) a4 fullShare gw
        ∗ (∃ d, owns (c : Thread nD τ) a5 fullShare d) ∗ (∃ d, owns (c : Thread nD τ) a6 fullShare d) ∗ (∃ d, owns (c : Thread nD τ) a7 fullShare d)
        ∗ (iprop(owns (c : Thread nD τ) a1 fullShare x0 ∗ owns (c : Thread nD τ) a2 fullShare w1 ∗ owns (c : Thread nD τ) a3 fullShare w2
            ∗ owns (c : Thread nD τ) a4 fullShare gw
            ∗ owns (c : Thread nD τ) a5 fullShare (xpOut x0 w1 w2) ∗ owns (c : Thread nD τ) a6 fullShare (hOut x0 gw)
            ∗ owns (c : Thread nD τ) a7 fullShare (nrmOut x0 w1 w2)) -∗ K ⟨⟩))
      ⊢ wp frame (wpE (defs₀ (F := F)) Variants.none c none) E (cc0_proj_kernel i a1 h1 a2 h2 a3 h3 a4 h4 a5 h5 a6 h6 a7 h7) K := by
  simp only [cc0_proj_kernel_eq_skeleton]; unfold cc0_proj_kernel_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf1; subst hf2; subst hf3; subst hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (coverP_bf _)
  isplitl [H6]
  · iexists _; isplitr
    swap; · iexact H6
    ipureintro
    exact View.read_writes_eq_canon _ _ _ (coverP_bf _)
  iexists _; isplitr
  swap; · iexact H7
  ipureintro
  exact View.read_writes_eq_canon _ _ _ (coverN _)

/-- The proof data of the first region on core c, at the entry contents V. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => xpOut (blk0 V c 0 t) (blk0 V c 1 t) (blk0 V c 2 t)
    | ⟨5, _⟩ => hOut (blk0 V c 0 t) (blk0 V c 3 t)
    | ⟨6, _⟩ => nrmOut (blk0 V c 0 t) (blk0 V c 1 t) (blk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = blk0 V c 3 t := by dsimp only [dat0]
theorem after0_4 (c : Dev nD) (t : Fin cfg0.N) : (dat0 V c).after 4 t = xpOut (blk0 V c 0 t) (blk0 V c 1 t) (blk0 V c 2 t) := by dsimp only [dat0]
theorem after0_5 (c : Dev nD) (t : Fin cfg0.N) : (dat0 V c).after 5 t = hOut (blk0 V c 0 t) (blk0 V c 3 t) := by dsimp only [dat0]
theorem after0_6 (c : Dev nD) (t : Fin cfg0.N) : (dat0 V c).after 6 t = nrmOut (blk0 V c 0 t) (blk0 V c 1 t) (blk0 V c 2 t) := by dsimp only [dat0]

theorem before0_0 (c : Dev nD) (t : Fin cfg0.N) (d) : (dat0 V c).before 0 t d = blk0 V c 0 t :=
  before0_0_of V (dat0 V c) (A_eq0 V c 0) (after0_0 V c) t d
theorem before0_1 (c : Dev nD) (t : Fin cfg0.N) (d) : (dat0 V c).before 1 t d = blk0 V c 1 t :=
  before0_1_of V (dat0 V c) (A_eq0 V c 1) (after0_1 V c) t d
theorem before0_2 (c : Dev nD) (t : Fin cfg0.N) (d) : (dat0 V c).before 2 t d = blk0 V c 2 t :=
  before0_2_of V (dat0 V c) (A_eq0 V c 2) (after0_2 V c) t d
theorem before0_3 (c : Dev nD) (t : Fin cfg0.N) (d) : (dat0 V c).before 3 t d = blk0 V c 3 t :=
  before0_3_of V (dat0 V c) (A_eq0 V c 3) (after0_3 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (blk0 V c 0 t) (blk0 V c 1 t) (blk0 V c 2 t) (blk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.KbRuns1.lean ====
/-
  The second kernel region (the aggregation), part one: what its runs share, and the body's run in each of its
  three cases. The grid is 8 × 8: point (i, j) reads row block i and row block j of the projected features, their
  norms, row block j of the graph-convolution features and the bias. At j = 0 the accumulator is cleared
  (case A); at every point the block product (similarity block) · (feature block) is added to it (cases A, B, C);
  at j = 7 the output block is stored as accumulator · 2⁻¹³ + bias (case C). For any float instance.
-/
import proofs.«130529_j59725815218593_1_alg».proof.Proof.Gen.Kernel.Launch
import proofs.«130529_j59725815218593_1_alg».proof.Proof.Gen.Kernel.Skeleton
import proofs.«130529_j59725815218593_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The first conditional (the column coordinate is 0), from the grid coordinates. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- The second conditional (the column coordinate is 7). -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-- The input windows are never idle; the output window is idle, and not written back, off column 7. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem idleAt1_6 : ∀ t : Fin cfg1.N, ¬cond1_1 (grid1.coords t) → cfg1.idle 6 (grid1.coords t) = true := by decide +kernel
theorem noFlush1_6 : ∀ t : Fin cfg1.N, ¬cond1_1 (grid1.coords t) → (cfg1.win 6).flush t = false := by decide +kernel
theorem liveAt1_6 : ∀ t : Fin cfg1.N, cond1_1 (grid1.coords t) → cfg1.idle 6 (grid1.coords t) = false := by decide +kernel

/-- One staging buffer of the output window and the accumulator, as views through which contents are stated. -/
abbrev VO1 : View sig .tc .vmem S1024x128 .f32 := (Memref.whole cc1_stg6_0 : Memref sig .tc .vmem S1024x128 .f32).view
abbrev scM1 : Memref sig .tc .vmem S1024x128 .f32 := Memref.whole cc1_scratch0
abbrev VS1 : View sig .tc .vmem S1024x128 .f32 := scM1.view
/-- Each window's current staging memref at a point, as the pipeline passes it, and its wholeness. -/
abbrev ms1_0 (t : Fin cfg1.N) : Memref sig .tc .vmem S1024x128 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x128 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x128 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024x128 .f32 := win1_6.stage (cfg1.slots t 6)
abbrev hs1_6 (t : Fin cfg1.N) : (ms1_6 t).IsWhole := hstage1_6 ((cfg1.slots t 6).cast nbuf1_6)

set_option maxHeartbeats 4000000 in
/-- The body in case A, on whole staging memrefs: the pieces its stores leave in the output block and in the
    accumulator (last store first), with the proof that it runs to a continuation holding exactly them. -/
noncomputable def kernelRun1_A (c : Dev nD) (i : grid1.Coords) (arg2 : Memref sig .tc .vmem S1024x128 .bf16) (harg2 : arg2.IsWhole) (arg3 : Memref sig .tc .vmem S1024x1 .f32) (harg3 : arg3.IsWhole) (arg4 : Memref sig .tc .vmem S1024x128 .bf16) (harg4 : arg4.IsWhole) (arg5 : Memref sig .tc .vmem S1x1024 .f32) (harg5 : arg5.IsWhole) (arg6 : Memref sig .tc .vmem S1024x128 .bf16) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : cond1_0 i) (hc1 : ¬cond1_1 i)
    (x0 : Vec F S1024x128 .bf16) (x1 : Vec F S1024x1 .f32) (x2 : Vec F S1024x128 .bf16) (x3 : Vec F S1x1024 .f32) (x4 : Vec F S1024x128 .bf16) (x5 : Vec F S1x128 .f32) :
    Σ' (L6 : List (View.Piece (Elt F) S1024x128 .f32)), { LS : List (View.Piece (Elt F) S1024x128 .f32) //
      ∀ (xi6 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS)) -∗ K ⟨⟩))
          ⊢ wp frame (wpE (defs₀ (F := F)) Variants.none c none) E (cc1_agg_kernel i arg2 harg2 arg3 harg3 arg4 harg4 arg5 harg5 arg6 harg6 arg7 harg7 arg8 harg8 arg9 harg9) K } := by
  refine ⟨[], ?_, fun xi6 E K => ?run⟩
  case run =>
    simp only [cc1_agg_kernel_eq_skeleton]; unfold cc1_agg_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS

set_option maxHeartbeats 4000000 in
/-- The body in case B, on whole staging memrefs: the pieces its stores leave in the output block and in the
    accumulator (last store first), with the proof that it runs to a continuation holding exactly them. -/
noncomputable def kernelRun1_B (c : Dev nD) (i : grid1.Coords) (arg2 : Memref sig .tc .vmem S1024x128 .bf16) (harg2 : arg2.IsWhole) (arg3 : Memref sig .tc .vmem S1024x1 .f32) (harg3 : arg3.IsWhole) (arg4 : Memref sig .tc .vmem S1024x128 .bf16) (harg4 : arg4.IsWhole) (arg5 : Memref sig .tc .vmem S1x1024 .f32) (harg5 : arg5.IsWhole) (arg6 : Memref sig .tc .vmem S1024x128 .bf16) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : ¬cond1_1 i)
    (x0 : Vec F S1024x128 .bf16) (x1 : Vec F S1024x1 .f32) (x2 : Vec F S1024x128 .bf16) (x3 : Vec F S1x1024 .f32) (x4 : Vec F S1024x128 .bf16) (x5 : Vec F S1x128 .f32) (xs : Vec F S1024x128 .f32) :
    Σ' (L6 : List (View.Piece (Elt F) S1024x128 .f32)), { LS : List (View.Piece (Elt F) S1024x128 .f32) //
      ∀ (xi6 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS)) -∗ K ⟨⟩))
          ⊢ wp frame (wpE (defs₀ (F := F)) Variants.none c none) E (cc1_agg_kernel i arg2 harg2 arg3 harg3 arg4 harg4 arg5 harg5 arg6 harg6 arg7 harg7 arg8 harg8 arg9 harg9) K } := by
  refine ⟨[], ?_, fun xi6 E K => ?run⟩
  case run =>
    simp only [cc1_agg_kernel_eq_skeleton]; unfold cc1_agg_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS

set_option maxHeartbeats 4000000 in
/-- The body in case C, on whole staging memrefs: the pieces its stores leave in the output block and in the
    accumulator (last store first), with the proof that it runs to a continuation holding exactly them. -/
noncomputable def kernelRun1_C (c : Dev nD) (i : grid1.Coords) (arg2 : Memref sig .tc .vmem S1024x128 .bf16) (harg2 : arg2.IsWhole) (arg3 : Memref sig .tc .vmem S1024x1 .f32) (harg3 : arg3.IsWhole) (arg4 : Memref sig .tc .vmem S1024x128 .bf16) (harg4 : arg4.IsWhole) (arg5 : Memref sig .tc .vmem S1x1024 .f32) (harg5 : arg5.IsWhole) (arg6 : Memref sig .tc .vmem S1024x128 .bf16) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : cond1_1 i)
    (x0 : Vec F S1024x128 .bf16) (x1 : Vec F S1024x1 .f32) (x2 : Vec F S1024x128 .bf16) (x3 : Vec F S1x1024 .f32) (x4 : Vec F S1024x128 .bf16) (x5 : Vec F S1x128 .f32) (xs : Vec F S1024x128 .f32) :
    Σ' (L6 : List (View.Piece (Elt F) S1024x128 .f32)), { LS : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS)) -∗ K ⟨⟩))
          ⊢ wp frame (wpE (defs₀ (F := F)) Variants.none c none) E (cc1_agg_kernel i arg2 harg2 arg3 harg3 arg4 harg4 arg5 harg5 arg6 harg6 arg7 harg7 arg8 harg8 arg9 harg9) K } := by
  refine ⟨?_, ?_, fun E K => ?run⟩
  case run =>
    simp only [cc1_agg_kernel_eq_skeleton]; unfold cc1_agg_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS

end Cert.Kernel.Hand

end
-- ==== Proof.KbRegion1.lean ====
/-
  The second kernel region (the aggregation), part two: what the accumulator and the output block hold after each
  grid point, by recursion on the point; the region's invariant (the accumulator at what the point before left);
  the proof data; and the body obligation at every point, by cases on the column coordinate.
-/
import proofs.«130529_j59725815218593_1_alg».proof.Proof.Gen.Kernel.Launch
import proofs.«130529_j59725815218593_1_alg».proof.Proof.Gen.Kernel.Skeleton
import proofs.«130529_j59725815218593_1_alg».proof.Proof.Gen.Kernel.Points
import proofs.«130529_j59725815218593_1_alg».proof.Proof.KbRuns1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- What case A leaves in the accumulator: its pieces read back (they cover the buffer). -/
theorem scover1_A (c : Dev nD) (i : grid1.Coords) (arg2 : Memref sig .tc .vmem S1024x128 .bf16) (harg2 : arg2.IsWhole) (arg3 : Memref sig .tc .vmem S1024x1 .f32) (harg3 : arg3.IsWhole) (arg4 : Memref sig .tc .vmem S1024x128 .bf16) (harg4 : arg4.IsWhole) (arg5 : Memref sig .tc .vmem S1x1024 .f32) (harg5 : arg5.IsWhole) (arg6 : Memref sig .tc .vmem S1024x128 .bf16) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : cond1_0 i) (hc1 : ¬cond1_1 i)
    (x0 : Vec F S1024x128 .bf16) (x1 : Vec F S1024x1 .f32) (x2 : Vec F S1024x128 .bf16) (x3 : Vec F S1x1024 .f32) (x4 : Vec F S1024x128 .bf16) (x5 : Vec F S1x128 .f32) (y : S1024x128.Idx) :
    ∃ pc ∈ (kernelRun1_A c i arg2 harg2 arg3 harg3 arg4 harg4 arg5 harg5 arg6 harg6 arg7 harg7 arg8 harg8 arg9 harg9 hc0 hc1 x0 x1 x2 x3 x4 x5).2.1, y ∈ pc.1.set :=
  View.cover_of_tiledL (kernelRun1_A c i arg2 harg2 arg3 harg3 arg4 harg4 arg5 harg5 arg6 harg6 arg7 harg7 arg8 harg8 arg9 harg9 hc0 hc1 x0 x1 x2 x3 x4 x5).2.1 S1024x128.size (by sl_kernel_rfl) y
def sout1_A (c : Dev nD) (i : grid1.Coords) (arg2 : Memref sig .tc .vmem S1024x128 .bf16) (harg2 : arg2.IsWhole) (arg3 : Memref sig .tc .vmem S1024x1 .f32) (harg3 : arg3.IsWhole) (arg4 : Memref sig .tc .vmem S1024x128 .bf16) (harg4 : arg4.IsWhole) (arg5 : Memref sig .tc .vmem S1x1024 .f32) (harg5 : arg5.IsWhole) (arg6 : Memref sig .tc .vmem S1024x128 .bf16) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : cond1_0 i) (hc1 : ¬cond1_1 i)
    (x0 : Vec F S1024x128 .bf16) (x1 : Vec F S1024x1 .f32) (x2 : Vec F S1024x128 .bf16) (x3 : Vec F S1x1024 .f32) (x4 : Vec F S1024x128 .bf16) (x5 : Vec F S1x128 .f32) : Vec F S1024x128 .f32 :=
  VS1.read (Elt F) (VS1.writes (Elt F) VS1.junk (kernelRun1_A c i arg2 harg2 arg3 harg3 arg4 harg4 arg5 harg5 arg6 harg6 arg7 harg7 arg8 harg8 arg9 harg9 hc0 hc1 x0 x1 x2 x3 x4 x5).2.1)
/-- What case B leaves in the accumulator: its pieces read back (they cover the buffer). -/
theorem scover1_B (c : Dev nD) (i : grid1.Coords) (arg2 : Memref sig .tc .vmem S1024x128 .bf16) (harg2 : arg2.IsWhole) (arg3 : Memref sig .tc .vmem S1024x1 .f32) (harg3 : arg3.IsWhole) (arg4 : Memref sig .tc .vmem S1024x128 .bf16) (harg4 : arg4.IsWhole) (arg5 : Memref sig .tc .vmem S1x1024 .f32) (harg5 : arg5.IsWhole) (arg6 : Memref sig .tc .vmem S1024x128 .bf16) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : ¬cond1_1 i)
    (x0 : Vec F S1024x128 .bf16) (x1 : Vec F S1024x1 .f32) (x2 : Vec F S1024x128 .bf16) (x3 : Vec F S1x1024 .f32) (x4 : Vec F S1024x128 .bf16) (x5 : Vec F S1x128 .f32) (xs : Vec F S1024x128 .f32) (y : S1024x128.Idx) :
    ∃ pc ∈ (kernelRun1_B c i arg2 harg2 arg3 harg3 arg4 harg4 arg5 harg5 arg6 harg6 arg7 harg7 arg8 harg8 arg9 harg9 hc0 hc1 x0 x1 x2 x3 x4 x5 xs).2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 x4 x5 xs).2.1 S1024x128.size (by sl_kernel_rfl) y
def sout1_B (c : Dev nD) (i : grid1.Coords) (arg2 : Memref sig .tc .vmem S1024x128 .bf16) (harg2 : arg2.IsWhole) (arg3 : Memref sig .tc .vmem S1024x1 .f32) (harg3 : arg3.IsWhole) (arg4 : Memref sig .tc .vmem S1024x128 .bf16) (harg4 : arg4.IsWhole) (arg5 : Memref sig .tc .vmem S1x1024 .f32) (harg5 : arg5.IsWhole) (arg6 : Memref sig .tc .vmem S1024x128 .bf16) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : ¬cond1_1 i)
    (x0 : Vec F S1024x128 .bf16) (x1 : Vec F S1024x1 .f32) (x2 : Vec F S1024x128 .bf16) (x3 : Vec F S1x1024 .f32) (x4 : Vec F S1024x128 .bf16) (x5 : Vec F S1x128 .f32) (xs : Vec F S1024x128 .f32) : Vec F S1024x128 .f32 :=
  VS1.read (Elt F) (VS1.writes (Elt F) VS1.junk (kernelRun1_B c i arg2 harg2 arg3 harg3 arg4 harg4 arg5 harg5 arg6 harg6 arg7 harg7 arg8 harg8 arg9 harg9 hc0 hc1 x0 x1 x2 x3 x4 x5 xs).2.1)
/-- What case C leaves in the accumulator: its pieces read back (they cover the buffer). -/
theorem scover1_C (c : Dev nD) (i : grid1.Coords) (arg2 : Memref sig .tc .vmem S1024x128 .bf16) (harg2 : arg2.IsWhole) (arg3 : Memref sig .tc .vmem S1024x1 .f32) (harg3 : arg3.IsWhole) (arg4 : Memref sig .tc .vmem S1024x128 .bf16) (harg4 : arg4.IsWhole) (arg5 : Memref sig .tc .vmem S1x1024 .f32) (harg5 : arg5.IsWhole) (arg6 : Memref sig .tc .vmem S1024x128 .bf16) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : cond1_1 i)
    (x0 : Vec F S1024x128 .bf16) (x1 : Vec F S1024x1 .f32) (x2 : Vec F S1024x128 .bf16) (x3 : Vec F S1x1024 .f32) (x4 : Vec F S1024x128 .bf16) (x5 : Vec F S1x128 .f32) (xs : Vec F S1024x128 .f32) (y : S1024x128.Idx) :
    ∃ pc ∈ (kernelRun1_C c i arg2 harg2 arg3 harg3 arg4 harg4 arg5 harg5 arg6 harg6 arg7 harg7 arg8 harg8 arg9 harg9 hc0 hc1 x0 x1 x2 x3 x4 x5 xs).2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 x4 x5 xs).2.1 S1024x128.size (by sl_kernel_rfl) y
def sout1_C (c : Dev nD) (i : grid1.Coords) (arg2 : Memref sig .tc .vmem S1024x128 .bf16) (harg2 : arg2.IsWhole) (arg3 : Memref sig .tc .vmem S1024x1 .f32) (harg3 : arg3.IsWhole) (arg4 : Memref sig .tc .vmem S1024x128 .bf16) (harg4 : arg4.IsWhole) (arg5 : Memref sig .tc .vmem S1x1024 .f32) (harg5 : arg5.IsWhole) (arg6 : Memref sig .tc .vmem S1024x128 .bf16) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : cond1_1 i)
    (x0 : Vec F S1024x128 .bf16) (x1 : Vec F S1024x1 .f32) (x2 : Vec F S1024x128 .bf16) (x3 : Vec F S1x1024 .f32) (x4 : Vec F S1024x128 .bf16) (x5 : Vec F S1x128 .f32) (xs : Vec F S1024x128 .f32) : Vec F S1024x128 .f32 :=
  VS1.read (Elt F) (VS1.writes (Elt F) VS1.junk (kernelRun1_C c i arg2 harg2 arg3 harg3 arg4 harg4 arg5 harg5 arg6 harg6 arg7 harg7 arg8 harg8 arg9 harg9 hc0 hc1 x0 x1 x2 x3 x4 x5 xs).2.1)
/-- Case C's pieces for the output block cover it, and what they leave there. -/
theorem cover1_C (c : Dev nD) (i : grid1.Coords) (arg2 : Memref sig .tc .vmem S1024x128 .bf16) (harg2 : arg2.IsWhole) (arg3 : Memref sig .tc .vmem S1024x1 .f32) (harg3 : arg3.IsWhole) (arg4 : Memref sig .tc .vmem S1024x128 .bf16) (harg4 : arg4.IsWhole) (arg5 : Memref sig .tc .vmem S1x1024 .f32) (harg5 : arg5.IsWhole) (arg6 : Memref sig .tc .vmem S1024x128 .bf16) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : cond1_1 i)
    (x0 : Vec F S1024x128 .bf16) (x1 : Vec F S1024x1 .f32) (x2 : Vec F S1024x128 .bf16) (x3 : Vec F S1x1024 .f32) (x4 : Vec F S1024x128 .bf16) (x5 : Vec F S1x128 .f32) (xs : Vec F S1024x128 .f32) (y : S1024x128.Idx) :
    ∃ pc ∈ (kernelRun1_C c i arg2 harg2 arg3 harg3 arg4 harg4 arg5 harg5 arg6 harg6 arg7 harg7 arg8 harg8 arg9 harg9 hc0 hc1 x0 x1 x2 x3 x4 x5 xs).1, y ∈ pc.1.set :=
  View.cover_of_tiledL (kernelRun1_C c i arg2 harg2 arg3 harg3 arg4 harg4 arg5 harg5 arg6 harg6 arg7 harg7 arg8 harg8 arg9 harg9 hc0 hc1 x0 x1 x2 x3 x4 x5 xs).1 S1024x128.size (by sl_kernel_rfl) y
def out1_C (c : Dev nD) (i : grid1.Coords) (arg2 : Memref sig .tc .vmem S1024x128 .bf16) (harg2 : arg2.IsWhole) (arg3 : Memref sig .tc .vmem S1024x1 .f32) (harg3 : arg3.IsWhole) (arg4 : Memref sig .tc .vmem S1024x128 .bf16) (harg4 : arg4.IsWhole) (arg5 : Memref sig .tc .vmem S1x1024 .f32) (harg5 : arg5.IsWhole) (arg6 : Memref sig .tc .vmem S1024x128 .bf16) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : cond1_1 i)
    (x0 : Vec F S1024x128 .bf16) (x1 : Vec F S1024x1 .f32) (x2 : Vec F S1024x128 .bf16) (x3 : Vec F S1x1024 .f32) (x4 : Vec F S1024x128 .bf16) (x5 : Vec F S1x128 .f32) (xs : Vec F S1024x128 .f32) : Vec F S1024x128 .f32 :=
  VO1.read (Elt F) (VO1.writes (Elt F) VO1.junk (kernelRun1_C c i arg2 harg2 arg3 harg3 arg4 harg4 arg5 harg5 arg6 harg6 arg7 harg7 arg8 harg8 arg9 harg9 hc0 hc1 x0 x1 x2 x3 x4 x5 xs).1)

section Region1

variable (V : (c : Dev nD) → (b : Ref sig .tc) → Buf (Elt F) ((c : Thread nD τ).loc b))

/-- Window w's block at grid point t, read off the array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = blk1 V c 4 t) (t : Fin cfg1.N) (d) : dat.before 4 t d = blk1 V c 4 t :=
  (dat.before_in_eq_fetched 4 rfl (fun _ => rfl) (fun _ _ _ => rfl) (fun t => by rw [hafter]; unfold Dat.blockOf blk1; rw [hA]; try rfl) t d).trans
    (by unfold Dat.fetched Dat.blockOf blk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = blk1 V c 5 t) (t : Fin cfg1.N) (d) : dat.before 5 t d = blk1 V c 5 t :=
  (dat.before_in_eq_fetched 5 rfl (fun _ => rfl) (fun _ _ _ => rfl) (fun t => by rw [hafter]; unfold Dat.blockOf blk1; rw [hA]; try rfl) t d).trans
    (by unfold Dat.fetched Dat.blockOf blk1; rw [hA]; try rfl)

/-- The three cases at a grid point, on the point's staging memrefs and input blocks. -/
def accA (c : Dev nD) (t : Fin cfg1.N) (h0 : t.val % 8 = 0) (h1 : ¬t.val % 8 = 7) : Vec F S1024x128 .f32 :=
  sout1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) ((hcond1_0 t).mpr h0) (fun h => h1 ((hcond1_1 t).mp h)) (blk1 V c 0 t) (blk1 V c 1 t) (blk1 V c 2 t) (blk1 V c 3 t) (blk1 V c 4 t) (blk1 V c 5 t)
def accB (c : Dev nD) (t : Fin cfg1.N) (h0 : ¬t.val % 8 = 0) (h1 : ¬t.val % 8 = 7) (xs : Vec F S1024x128 .f32) : Vec F S1024x128 .f32 :=
  sout1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) (fun h => h0 ((hcond1_0 t).mp h)) (fun h => h1 ((hcond1_1 t).mp h)) (blk1 V c 0 t) (blk1 V c 1 t) (blk1 V c 2 t) (blk1 V c 3 t) (blk1 V c 4 t) (blk1 V c 5 t) xs
def accC (c : Dev nD) (t : Fin cfg1.N) (h0 : ¬t.val % 8 = 0) (h1 : t.val % 8 = 7) (xs : Vec F S1024x128 .f32) : Vec F S1024x128 .f32 :=
  sout1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) (fun h => h0 ((hcond1_0 t).mp h)) ((hcond1_1 t).mpr h1) (blk1 V c 0 t) (blk1 V c 1 t) (blk1 V c 2 t) (blk1 V c 3 t) (blk1 V c 4 t) (blk1 V c 5 t) xs
def outC (c : Dev nD) (t : Fin cfg1.N) (h0 : ¬t.val % 8 = 0) (h1 : t.val % 8 = 7) (xs : Vec F S1024x128 .f32) : Vec F S1024x128 .f32 :=
  out1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) (fun h => h0 ((hcond1_0 t).mp h)) ((hcond1_1 t).mpr h1) (blk1 V c 0 t) (blk1 V c 1 t) (blk1 V c 2 t) (blk1 V c 3 t) (blk1 V c 4 t) (blk1 V c 5 t) xs

/-- THE ACCUMULATION: what the accumulator holds after the body at position n — cleared and refilled at column 0,
    otherwise what the point before left plus this point's block product. -/
def accAt (c : Dev nD) : (n : ℕ) → n < cfg1.N → Vec F S1024x128 .f32
  | 0, hn => accA V c ⟨0, hn⟩ (Nat.zero_mod _) (by show ¬(0 % 8 = 7); decide)
  | n + 1, hn =>
    if h0 : (n + 1) % 8 = 0 then accA V c ⟨n + 1, hn⟩ h0 (by show ¬((n + 1) % 8 = 7); omega)
    else if h1 : (n + 1) % 8 = 7 then accC V c ⟨n + 1, hn⟩ h0 h1 (accAt c n (Nat.lt_of_succ_lt hn))
    else accB V c ⟨n + 1, hn⟩ h0 h1 (accAt c n (Nat.lt_of_succ_lt hn))

theorem accAt_A (c : Dev nD) (t : Fin cfg1.N) (h0 : t.val % 8 = 0) (h1 : ¬t.val % 8 = 7) :
    accAt V c t.val t.isLt = accA V c t h0 h1 := by
  obtain ⟨n, hn⟩ := t
  cases n with
  | zero => exact rfl
  | succ n => exact (dif_pos h0).trans rfl
theorem accAt_B (c : Dev nD) (t : Fin cfg1.N) (h0 : ¬t.val % 8 = 0) (h1 : ¬t.val % 8 = 7) :
    accAt V c t.val t.isLt = accB V c t h0 h1 (accAt V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)
theorem accAt_C (c : Dev nD) (t : Fin cfg1.N) (h0 : ¬t.val % 8 = 0) (h1 : t.val % 8 = 7) :
    accAt V c t.val t.isLt = accC V c t h0 h1 (accAt V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-- What the output block holds after the body at point t: at column 7 the stored block; elsewhere the window is
    idle and not written back, and nothing consults this value. -/
def outAt (c : Dev nD) (t : Fin cfg1.N) : Vec F S1024x128 .f32 :=
  if h1 : t.val % 8 = 7 then outC V c t (by omega) h1 (accAt V c (t.val - 1) (Nat.lt_of_le_of_lt (Nat.sub_le _ _) t.isLt))
  else VO1.read (Elt F) VO1.junk

/-- The scoped buffers of the core that belong to the other region, each at some contents, and the generator register. -/
def restI (c : Dev nD) : sProp 𝕄 :=
  iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f)) ∗ (∃ r, prngReg c r))

theorem PhiA1_open (c : Dev nD) : (Pipeline.ΦA spec1 c : sProp 𝕄) ⊢ iprop((∃ d, owns (c : Thread nD τ) scM1 fullShare d) ∗ restI c) := by
  unfold Pipeline.ΦA restI; rw [scopedRest1_eq]; simp only [scM1, owns_whole]
  iintro ⟨⟨H1, H2, H3, H4, H5, H6, H7, H8, H9, H10, H11, HS⟩, Hg⟩
  isplitl [HS]; · iexact HS
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  iexact Hg
theorem PhiA1_close (c : Dev nD) : iprop((∃ d, owns (c : Thread nD τ) scM1 fullShare d) ∗ restI c) ⊢ (Pipeline.ΦA spec1 c : sProp 𝕄) := by
  unfold Pipeline.ΦA restI; rw [scopedRest1_eq]; simp only [scM1, owns_whole]
  iintro ⟨HS, ⟨H1, H2, H3, H4, H5, H6, H7, H8, H9, H10, H11⟩, Hg⟩
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact HS
  iexact Hg

/-- The region invariant before position n: before the first point the launch's (the accumulator at anything);
    afterwards the accumulator at what the point before left, beside the untouched rest. -/
def PhiS (c : Dev nD) : (n : ℕ) → n ≤ cfg1.N → sProp 𝕄
  | 0, _ => Pipeline.ΦA spec1 c
  | n + 1, hn => iprop(owns (c : Thread nD τ) scM1 fullShare (accAt V c n hn) ∗ restI c)

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(owns (c : Thread nD τ) scM1 fullShare (accAt V c n hn) ∗ restI c) := rfl
theorem PhiS_pos (c : Dev nD) (n : ℕ) (h : n ≤ cfg1.N) (hz : n ≠ 0) :
    PhiS V c n h = iprop(owns (c : Thread nD τ) scM1 fullShare (accAt V c (n - 1) (by omega)) ∗ restI c) := by
  cases n with
  | zero => exact absurd rfl hz
  | succ n => rfl

/-- Before any point the invariant yields the accumulator at SOME contents beside the rest. -/
theorem PhiS_some (c : Dev nD) (n : ℕ) (h : n ≤ cfg1.N) :
    PhiS V c n h ⊢ iprop((∃ d, owns (c : Thread nD τ) scM1 fullShare d) ∗ restI c) := by
  cases n with
  | zero => exact PhiA1_open c
  | succ n =>
    rw [PhiS_succ]
    iintro ⟨HS, HR⟩
    isplitl [HS]; · iexists _; iexact HS
    iexact HR

/-- The proof data of the second region on core c, at the entry contents V. The two windows that read the
    projected features hold half a share of that array each. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => outAt V c t
  Φ t := PhiS V c t.val (Nat.le_of_lt_succ t.isLt)
  q w := match w with
    | ⟨0, _⟩ => fullShare.left
    | ⟨1, _⟩ => fullShare
    | ⟨2, _⟩ => fullShare.right
    | ⟨3, _⟩ => fullShare
    | ⟨4, _⟩ => fullShare
    | ⟨5, _⟩ => fullShare
    | ⟨6, _⟩ => fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = blk1 V c 4 t := by dsimp only [dat1]
theorem after1_5 (c : Dev nD) (t : Fin cfg1.N) : (dat1 V c).after 5 t = blk1 V c 5 t := by dsimp only [dat1]
theorem after1_6 (c : Dev nD) (t : Fin cfg1.N) : (dat1 V c).after 6 t = outAt V c t := by dsimp only [dat1]
theorem before1_0 (c : Dev nD) (t : Fin cfg1.N) (d) : (dat1 V c).before 0 t d = blk1 V c 0 t :=
  before1_0_of V (dat1 V c) (A_eq1 V c 0) (after1_0 V c) t d
theorem before1_1 (c : Dev nD) (t : Fin cfg1.N) (d) : (dat1 V c).before 1 t d = blk1 V c 1 t :=
  before1_1_of V (dat1 V c) (A_eq1 V c 1) (after1_1 V c) t d
theorem before1_2 (c : Dev nD) (t : Fin cfg1.N) (d) : (dat1 V c).before 2 t d = blk1 V c 2 t :=
  before1_2_of V (dat1 V c) (A_eq1 V c 2) (after1_2 V c) t d
theorem before1_3 (c : Dev nD) (t : Fin cfg1.N) (d) : (dat1 V c).before 3 t d = blk1 V c 3 t :=
  before1_3_of V (dat1 V c) (A_eq1 V c 3) (after1_3 V c) t d
theorem before1_4 (c : Dev nD) (t : Fin cfg1.N) (d) : (dat1 V c).before 4 t d = blk1 V c 4 t :=
  before1_4_of V (dat1 V c) (A_eq1 V c 4) (after1_4 V c) t d
theorem before1_5 (c : Dev nD) (t : Fin cfg1.N) (d) : (dat1 V c).before 5 t d = blk1 V c 5 t :=
  before1_5_of V (dat1 V c) (A_eq1 V c 5) (after1_5 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 8000000 in
/-- The body at any point: the inputs' memrefs hold their blocks; the column coordinate says which case the point is
    in; the invariant hands the body the accumulator at what the point before left (at anything at column 0, where the
    body clears it) and takes it back at this point's contents; nothing is owed throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  by_cases h0 : t.val % 8 = 0
  · have h1 : ¬t.val % 8 = 7 := by omega
    rw [Dat.leavesExact_idle (dat1 V c) 6 t (idleAt1_6 t (fun h => h1 ((hcond1_1 t).mp h))) (noFlush1_6 t (fun h => h1 ((hcond1_1 t).mp h)))]
    rw [accAt_A V c t h0 h1]
    unfold accA sout1_A; (try dsimp only)
    rw [PhiS_castSucc V c t]
    iintro ⟨HΦ, Ho, ⟨%d0, H0⟩, ⟨%d1, H1⟩, ⟨%d2, H2⟩, ⟨%d3, H3⟩, ⟨%d4, H4⟩, ⟨%d5, H5⟩, ⟨%d6, H6⟩⟩
    ihave HΦ' := (PhiS_some V c _ _) $$ [HΦ]
    · iexact HΦ
    icases HΦ' with ⟨HS, HR⟩
    iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) ((hcond1_0 t).mpr h0) (fun h => h1 ((hcond1_1 t).mp h)) (blk1 V c 0 t) (blk1 V c 1 t) (blk1 V c 2 t) (blk1 V c 3 t) (blk1 V c 4 t) (blk1 V c 5 t)).2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexact HS
    iintro ⟨H0, H1, H2, H3, H4, H5, H6, ⟨%es, HS⟩⟩
    isplitl [HS HR]
    · isplitl [HS]
      · unfold owns; iexists _; isplitr
        swap; · iexact HS
        ipureintro; exact View.read_writes_of_cover _ _ _ _ _ (scover1_A c _ _ _ _ _ _ _ _ _ _ _ _ _ _ _ _ _ _ _ _ _ _ _ _ _)
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · have h0' : t.val ≠ 0 := fun e => h0 (by rw [e])
    by_cases h1 : t.val % 8 = 7
    ·
      rw [show (dat1 V c).leavesExact 6 t = owns (c : Thread nD τ) (ms1_6 t) fullShare ((dat1 V c).after 6 t) from by
        unfold Dat.leavesExact; rw [liveAt1_6 t ((hcond1_1 t).mpr h1)], after1_6]
      unfold outAt; rw [dif_pos h1]
      rw [accAt_C V c t h0 h1]
      unfold accC outC sout1_C out1_C; (try dsimp only)
      rw [PhiS_castSucc V c t, PhiS_pos V c _ _ h0']
      iintro ⟨⟨HS, HR⟩, Ho, ⟨%d0, H0⟩, ⟨%d1, H1⟩, ⟨%d2, H2⟩, ⟨%d3, H3⟩, ⟨%d4, H4⟩, ⟨%d5, H5⟩, ⟨%d6, H6⟩⟩
      iapply ((kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) (fun h => h0 ((hcond1_0 t).mp h)) ((hcond1_1 t).mpr h1) (blk1 V c 0 t) (blk1 V c 1 t) (blk1 V c 2 t) (blk1 V c 3 t) (blk1 V c 4 t) (blk1 V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, ⟨%e6, H6⟩, ⟨%es, HS⟩⟩
      isplitl [HS HR]
      · isplitl [HS]
        · unfold owns; iexists _; isplitr
          swap; · iexact HS
          ipureintro; exact View.read_writes_of_cover _ _ _ _ _ (scover1_C c _ _ _ _ _ _ _ _ _ _ _ _ _ _ _ _ _ _ _ _ _ _ _ _ _ _)
        iexact HR
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover1_C c _ _ _ _ _ _ _ _ _ _ _ _ _ _ _ _ _ _ _ _ _ _ _ _ _ _)
    ·
      rw [Dat.leavesExact_idle (dat1 V c) 6 t (idleAt1_6 t (fun h => h1 ((hcond1_1 t).mp h))) (noFlush1_6 t (fun h => h1 ((hcond1_1 t).mp h)))]
      rw [accAt_B V c t h0 h1]
      unfold accB sout1_B; (try dsimp only)
      rw [PhiS_castSucc V c t, PhiS_pos V c _ _ h0']
      iintro ⟨⟨HS, HR⟩, Ho, ⟨%d0, H0⟩, ⟨%d1, H1⟩, ⟨%d2, H2⟩, ⟨%d3, H3⟩, ⟨%d4, H4⟩, ⟨%d5, H5⟩, ⟨%d6, H6⟩⟩
      iapply ((kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) (fun h => h0 ((hcond1_0 t).mp h)) (fun h => h1 ((hcond1_1 t).mp h)) (blk1 V c 0 t) (blk1 V c 1 t) (blk1 V c 2 t) (blk1 V c 3 t) (blk1 V c 4 t) (blk1 V c 5 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, ⟨%es, HS⟩⟩
      isplitl [HS HR]
      · isplitl [HS]
        · unfold owns; iexists _; isplitr
          swap; · iexact HS
          ipureintro; exact View.read_writes_of_cover _ _ _ _ _ (scover1_B c _ _ _ _ _ _ _ _ _ _ _ _ _ _ _ _ _ _ _ _ _ _ _ _ _ _)
        iexact HR
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point; after the last point the invariant
    gives it back, the accumulator's contents forgotten. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl]
  exact (PhiS_some V c _ _).trans (PhiA1_close c)

end Region1

end Cert.Kernel.Hand

end
-- ==== Proof.KbShared1.lean ====
/-
  The second kernel region (the aggregation) reads the array of projected features through two of its seven
  windows, once for the rows of the similarity block and once for its columns. The pipeline's accounting holds
  every window's array at a share of its own, so at the region's entry the full ownership of that one buffer is
  dealt into the left and the right half of the full share, one half per window, and at the exit the two halves
  are put together again. The other five buffers (the column of norms, the row of norms, the graph-convolution
  features, the bias row and the result) stand behind one window each and pass at the full share; the result's
  window is the output and holds the full share by definition. Stated for any float instance, any core, any
  valuation of the buffers and any proof data whose input shares are the ones named.
-/
import proofs.«130529_j59725815218593_1_alg».proof.Proof.Gen.Kernel.Launch
import proofs.«130529_j59725815218593_1_alg».proof.Proof.Gen.Kernel.Skeleton
import proofs.«130529_j59725815218593_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Shared1

variable (c : Dev nD) (dat : Dat τ (Elt F) Unit ℕ (UR sig nD τ) ℕ cfg1 c)
  (V : (b : Ref sig .tc) → Buf (Elt F) ((c : Thread nD τ).loc b))
  (F' : (w : Fin cfg1.W) → Buf (Elt F) ((cfg1.win w).arr.view.loc (c : Thread nD τ)))

/-- The six distinct buffers behind the seven windows' arrays, one by one, each whole at the full share. -/
theorem arrBufs1_eq : (Pipeline.arrBufs spec1 c V : sProp 𝕄)
    = iprop((((c : Thread nD τ).loc main_v0_0) ↦{fullShare} V main_v0_0) ∗ (((c : Thread nD τ).loc main_v0_2) ↦{fullShare} V main_v0_2) ∗ (((c : Thread nD τ).loc main_v1) ↦{fullShare} V main_v1) ∗ (((c : Thread nD τ).loc main_v0_1) ↦{fullShare} V main_v0_1) ∗ (((c : Thread nD τ).loc main_v2) ↦{fullShare} V main_v2) ∗ (((c : Thread nD τ).loc main_v3) ↦{fullShare} V main_v3)) := by
  unfold Pipeline.arrBufs
  exact bigSep_eq_bigSepL_of_eq [main_v0_0, main_v0_2, main_v1, main_v0_1, main_v2, main_v3] (by decide) (by decide) _

/-- One window's array at the contents the valuation gives its buffer: the whole buffer's points-to at the window's share. -/
theorem arr1_pt (hF : ∀ w, F' w = V (Pipeline.arrRef spec1 w)) (w : Fin cfg1.W) :
    (((cfg1.win w).arr.view.loc (c : Thread nD τ)) ↦[(cfg1.win w).arr.view.set]{dat.share w} F' w : sProp 𝕄)
      = (((c : Thread nD τ).loc (Pipeline.arrRef spec1 w)) ↦{dat.share w} V (Pipeline.arrRef spec1 w)) := by
  rw [(arr_whole1 w).set_eq_univ, hF w]

/-- An input window's share is the proof data's. -/
theorem share1_in (w : Fin cfg1.W) (h : (cfg1.win w).isOut = false) : dat.share w = dat.q w := by
  unfold Pipeline.Dat.share
  rw [h]
  rfl

/-- The output window's share is the full one. -/
theorem share1_out : dat.share 6 = fullShare := by
  unfold Pipeline.Dat.share
  rw [show (cfg1.win 6).isOut = true from rfl]
  rfl

/-- The seven windows' arrays, one by one: the two windows on the projected features hold the two halves of that
    buffer's share, every other window its buffer at the full share. -/
theorem arrays1_eq (hq0 : dat.q 0 = fullShare.left) (hq2 : dat.q 2 = fullShare.right) (hq1 : dat.q 1 = fullShare)
    (hq3 : dat.q 3 = fullShare) (hq4 : dat.q 4 = fullShare) (hq5 : dat.q 5 = fullShare)
    (hF : ∀ w, F' w = V (Pipeline.arrRef spec1 w)) :
    dat.arrays F' = iprop((((c : Thread nD τ).loc main_v0_0) ↦{fullShare.left} V main_v0_0) ∗ (((c : Thread nD τ).loc main_v0_2) ↦{fullShare} V main_v0_2) ∗ (((c : Thread nD τ).loc main_v0_0) ↦{fullShare.right} V main_v0_0) ∗ (((c : Thread nD τ).loc main_v1) ↦{fullShare} V main_v1) ∗ (((c : Thread nD τ).loc main_v0_1) ↦{fullShare} V main_v0_1) ∗ (((c : Thread nD τ).loc main_v2) ↦{fullShare} V main_v2) ∗ (((c : Thread nD τ).loc main_v3) ↦{fullShare} V main_v3)) := by
  unfold Pipeline.Dat.arrays
  rw [bigSep_W1, arr1_pt c dat V F' hF 0, arr1_pt c dat V F' hF 1, arr1_pt c dat V F' hF 2, arr1_pt c dat V F' hF 3,
    arr1_pt c dat V F' hF 4, arr1_pt c dat V F' hF 5, arr1_pt c dat V F' hF 6,
    share1_in c dat 0 rfl, share1_in c dat 1 rfl, share1_in c dat 2 rfl, share1_in c dat 3 rfl, share1_in c dat 4 rfl,
    share1_in c dat 5 rfl, share1_out c dat, hq0, hq1, hq2, hq3, hq4, hq5]

/-- Entry: the full points-to of the projected features is dealt into its two halves, one per window that reads it. -/
theorem arrays_of_arrBufs1 (hq0 : dat.q 0 = fullShare.left) (hq2 : dat.q 2 = fullShare.right) (hq1 : dat.q 1 = fullShare)
    (hq3 : dat.q 3 = fullShare) (hq4 : dat.q 4 = fullShare) (hq5 : dat.q 5 = fullShare)
    (hF : ∀ w, F' w = V (Pipeline.arrRef spec1 w)) :
    (Pipeline.arrBufs spec1 c V : sProp 𝕄) ⊢ dat.arrays F' := by
  rw [arrBufs1_eq, arrays1_eq c dat V F' hq0 hq2 hq1 hq3 hq4 hq5 hF]
  iintro ⟨H00, H02, H1, H01, H2, H3⟩
  ihave H00 := (pointsTo_share (PosShare.mem_left_op_right fullShare)).1 $$ H00
  icases H00 with ⟨HL, HR⟩
  isplitl [HL]; · iexact HL
  isplitl [H02]; · iexact H02
  isplitl [HR]; · iexact HR
  isplitl [H1]; · iexact H1
  isplitl [H01]; · iexact H01
  isplitl [H2]; · iexact H2
  iexact H3

/-- Exit: the two halves are gathered into the full points-to again. -/
theorem arrBufs_of_arrays1 (hq0 : dat.q 0 = fullShare.left) (hq2 : dat.q 2 = fullShare.right) (hq1 : dat.q 1 = fullShare)
    (hq3 : dat.q 3 = fullShare) (hq4 : dat.q 4 = fullShare) (hq5 : dat.q 5 = fullShare)
    (hF : ∀ w, F' w = V (Pipeline.arrRef spec1 w)) :
    dat.arrays F' ⊢ (Pipeline.arrBufs spec1 c V : sProp 𝕄) := by
  rw [arrBufs1_eq, arrays1_eq c dat V F' hq0 hq2 hq1 hq3 hq4 hq5 hF]
  iintro ⟨HL, H02, HR, H1, H01, H2, H3⟩
  ihave H00 := (pointsTo_share (PosShare.mem_left_op_right fullShare)).2 $$ [HL HR]
  · isplitl [HL] <;> iassumption
  isplitl [H00]; · iexact H00
  isplitl [H02]; · iexact H02
  isplitl [H1]; · iexact H1
  isplitl [H01]; · iexact H01
  isplitl [H2]; · iexact H2
  iexact H3

end Shared1

end Cert.Kernel.Hand

end
-- ==== Proof.KbRun.lean ====
/-
  The whole run of the program: the projector region, the two host reshapes, the aggregation region. Between two
  items every unscoped buffer of the core is held at a named valuation: the launch memory; then the first region's
  three output arrays at what its write-backs leave; then the reshapes' results; then the second region's output
  array at what its write-backs leave. Every weakly fair execution terminates with every unscoped buffer at the
  last valuation; the argument arrays are never written, so they end as launched. The second region reads the
  projected features through two windows, which hold half a share of that array each. For any float instance.
-/
import proofs.«130529_j59725815218593_1_alg».proof.Proof.Gen.Kernel.Launch
import proofs.«130529_j59725815218593_1_alg».proof.Proof.Gen.Kernel.Skeleton
import proofs.«130529_j59725815218593_1_alg».proof.Proof.Gen.Kernel.Points
import proofs.«130529_j59725815218593_1_alg».proof.Proof.KbRegion0
import proofs.«130529_j59725815218593_1_alg».proof.Proof.KbRegion1
import proofs.«130529_j59725815218593_1_alg».proof.Proof.KbShared1
import proofs.«130529_j59725815218593_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Run

variable (m : (ℓ : Loc nD τ sig) → Buf (Elt F) ℓ) (ρ : Dev nD → PrngReg)

/-- Core c's buffers at launch. -/
abbrev W0 : Dev nD → Valuation τ sig (Elt F) := fun c b => (s₀ m ρ).mem ((c : Dev nD), b)
abbrev U0 : (c : Dev nD) → (b : Ref sig .tc) → Buf (Elt F) ((c : Thread nD τ).loc b) := fun c b => W0 m ρ c b
/-- After the first region: its arrays at what the pipeline leaves, every other buffer as entered. -/
def W1 (c : Dev nD) : Valuation τ sig (Elt F) :=
  Pipeline.withArrays spec0 c (W0 m ρ c) fun w => (dat0 (U0 m ρ) c).arrAt w cfg0.N
theorem W1_arr (c : Dev nD) (w : Fin cfg0.W) :
    W1 m ρ c (Proc.devRef .tc (Pipeline.arrRef spec0 w)) = (dat0 (U0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev U1 : (c : Dev nD) → (b : Ref sig .tc) → Buf (Elt F) ((c : Thread nD τ).loc b) := fun c b => W1 m ρ c b
theorem hF0 (c : Dev nD) (w : Fin cfg0.W) : (dat0 (U0 m ρ) c).arrAt w cfg0.N = U1 m ρ c (Pipeline.arrRef spec0 w) :=
  (W1_arr m ρ c w).symm
theorem hrest0 (c : Dev nD) : ∀ b, b ∉ Finset.univ.image (Pipeline.arrRef spec0) → U1 m ρ c b = U0 m ρ c b :=
  fun b hb => W1_of_ne m ρ c b fun w e => hb (Finset.mem_image.mpr ⟨w, Finset.mem_univ _, e⟩)
/-- After the two reshapes. -/
abbrev W2 : Dev nD → Valuation τ sig (Elt F) := fun c => StableHlo.after hostOps1 (W1 m ρ c)
abbrev U2 : (c : Dev nD) → (b : Ref sig .tc) → Buf (Elt F) ((c : Thread nD τ).loc b) := fun c b => W2 m ρ c b
/-- After the second region: its output array at what the pipeline leaves, every other buffer as entered. -/
def W3 (c : Dev nD) : Valuation τ sig (Elt F) :=
  Function.update (W2 m ρ c) (Proc.devRef .tc main_v3) ((dat1 (U2 m ρ) c).arrAt 6 cfg1.N)
abbrev U3 : (c : Dev nD) → (b : Ref sig .tc) → Buf (Elt F) ((c : Thread nD τ).loc b) := fun c b => W3 m ρ c b
theorem W3_v3 (c : Dev nD) : W3 m ρ c (Proc.devRef .tc main_v3) = (dat1 (U2 m ρ) c).arrAt 6 cfg1.N := by
  unfold W3; exact Function.update_self ..
theorem W3_of_ne (c : Dev nD) (b : Ref sig .tc) (hb : b ≠ main_v3) :
    W3 m ρ c (Proc.devRef .tc b) = W2 m ρ c (Proc.devRef .tc b) := by
  unfold W3; exact Function.update_of_ne (StableHlo.devRef_ne_of_ne hb) _ _
theorem hF1 (c : Dev nD) (w : Fin cfg1.W) : (dat1 (U2 m ρ) c).arrAt w cfg1.N = U3 m ρ c (Pipeline.arrRef spec1 w) := by
  match w with
  | ⟨0, _⟩ => exact (((dat1 (U2 m ρ) c).arrAt_in 0 rfl _).trans (A_eq1 (U2 m ρ) c 0)).trans (W3_of_ne m ρ c _ (by decide)).symm
  | ⟨1, _⟩ => exact (((dat1 (U2 m ρ) c).arrAt_in 1 rfl _).trans (A_eq1 (U2 m ρ) c 1)).trans (W3_of_ne m ρ c _ (by decide)).symm
  | ⟨2, _⟩ => exact (((dat1 (U2 m ρ) c).arrAt_in 2 rfl _).trans (A_eq1 (U2 m ρ) c 2)).trans (W3_of_ne m ρ c _ (by decide)).symm
  | ⟨3, _⟩ => exact (((dat1 (U2 m ρ) c).arrAt_in 3 rfl _).trans (A_eq1 (U2 m ρ) c 3)).trans (W3_of_ne m ρ c _ (by decide)).symm
  | ⟨4, _⟩ => exact (((dat1 (U2 m ρ) c).arrAt_in 4 rfl _).trans (A_eq1 (U2 m ρ) c 4)).trans (W3_of_ne m ρ c _ (by decide)).symm
  | ⟨5, _⟩ => exact (((dat1 (U2 m ρ) c).arrAt_in 5 rfl _).trans (A_eq1 (U2 m ρ) c 5)).trans (W3_of_ne m ρ c _ (by decide)).symm
  | ⟨6, _⟩ => exact (W3_v3 m ρ c).symm
theorem hrest1 (c : Dev nD) : ∀ b, b ∉ Finset.univ.image (Pipeline.arrRef spec1) → U3 m ρ c b = U2 m ρ c b :=
  fun b hb => W3_of_ne m ρ c b fun e => hb (Finset.mem_image.mpr ⟨6, Finset.mem_univ _, e.symm⟩)

/-- No item writes an argument array: the last valuation has it as launched. -/
theorem hostOps1_keeps (c : Dev nD) (b : Ref sig .tc) (h : b ∉ hostOps1_W) (Vv : Valuation τ sig (Elt F)) :
    StableHlo.after hostOps1 Vv (Proc.devRef .tc b) = Vv (Proc.devRef .tc b) :=
  StableHlo.after_of_writes_sub hostOps1 _ hostOps1_writes h
theorem W3_main_arg0 (c : Dev nD) : W3 m ρ c (Proc.devRef .tc main_arg0) = m ((c : Thread nD τ).loc main_arg0) :=
  (W3_of_ne m ρ c main_arg0 (by decide)).trans <| (hostOps1_keeps c main_arg0 (by decide) _).trans <|
    (W1_arr m ρ c 0).trans <| ((dat0 (U0 m ρ) c).arrAt_in 0 rfl _).trans (A_eq0 (U0 m ρ) c 0)
theorem W3_main_arg1 (c : Dev nD) : W3 m ρ c (Proc.devRef .tc main_arg1) = m ((c : Thread nD τ).loc main_arg1) :=
  (W3_of_ne m ρ c main_arg1 (by decide)).trans <| (hostOps1_keeps c main_arg1 (by decide) _).trans <|
    (W1_arr m ρ c 1).trans <| ((dat0 (U0 m ρ) c).arrAt_in 1 rfl _).trans (A_eq0 (U0 m ρ) c 1)
theorem W3_main_arg2 (c : Dev nD) : W3 m ρ c (Proc.devRef .tc main_arg2) = m ((c : Thread nD τ).loc main_arg2) :=
  (W3_of_ne m ρ c main_arg2 (by decide)).trans <| (hostOps1_keeps c main_arg2 (by decide) _).trans <|
    (W1_arr m ρ c 2).trans <| ((dat0 (U0 m ρ) c).arrAt_in 2 rfl _).trans (A_eq0 (U0 m ρ) c 2)
theorem W3_main_arg3 (c : Dev nD) : W3 m ρ c (Proc.devRef .tc main_arg3) = m ((c : Thread nD τ).loc main_arg3) :=
  (W3_of_ne m ρ c main_arg3 (by decide)).trans <| (hostOps1_keeps c main_arg3 (by decide) _).trans <|
    (W1_arr m ρ c 3).trans <| ((dat0 (U0 m ρ) c).arrAt_in 3 rfl _).trans (A_eq0 (U0 m ρ) c 3)
theorem W3_main_arg4 (c : Dev nD) : W3 m ρ c (Proc.devRef .tc main_arg4) = m ((c : Thread nD τ).loc main_arg4) :=
  (W3_of_ne m ρ c main_arg4 (by decide)).trans <| (hostOps1_keeps c main_arg4 (by decide) _).trans <|
    (W1_of_ne m ρ c main_arg4 (by decide))

/-- The prefetched tables' admissible contents: neither region has a table. -/
abbrev adm' : (p : Fin 2) → (pcfgs (F := F) p).Adm := fun p => (cfgs p).toPCfg_adm
/-- Both regions' proof data, each at its region's entry contents. -/
def pdats : (p : Fin 2) → (c : Dev nD) → Dat τ (Elt F) Unit ℕ (UR sig nD τ) ℕ (Pipeline.pin (pcfgs (F := F)) adm' p) c
  | ⟨0, _⟩ => fun c => dat0 (U0 m ρ) c
  | ⟨1, _⟩ => fun c => dat1 (U2 m ρ) c
abbrev 𝒱₀ : Variants := Variants.none
abbrev L : GSem nD τ sig → Finset Unit := fun _ => ∅
abbrev lv : GSem nD τ sig → Unit → ℕ := fun _ _ => 0
/-- What rides beside the buffers through every item: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

set_option backward.isDefEq.respectTransparency.types false in
/-- The first region as a segment: entered from the launch contents, left at W1. -/
def reg0 : Pipeline.RegionSeg (pcfgs (F := F)) adm' (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (U0 m ρ c)
  hentry c := by
    rw [Pipeline.ownSems0_none]
    have hsplit := Pipeline.arrays_of_unscopedBufs (p := 0) (pcfgs (F := F)) adm' (pdats m ρ) launch0.win launch0.arr_whole c
      ((pdats m ρ 0 c).share_full fun _ => rfl) (U0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m ρ) ((pdats m ρ 0 c).share_full fun _ => rfl)
      (U0 m ρ c) (U1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region as a segment: entered from W2, left at W3. At entry the projected features' full points-to is
    dealt between the two windows that read it; at exit it is gathered again. -/
def reg1 : Pipeline.RegionSeg (pcfgs (F := F)) adm' (pdats m ρ) () defs₀ 𝒱₀ L lv 1 where
  win := winFacts₀1
  block_pos := block_pos1
  stage_whole := stage_whole1
  K := PEmpty
  osem k := k.elim
  ho := Pipeline.OwnSemFacts.none _
  hbody c := (body_obligation1 (U2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U2 m ρ c)
  hentry c := by
    rw [Pipeline.ownSems0_none]
    have hsplit : (unscopedBufs c (U2 m ρ c) : sProp 𝕄)
        ⊢ iprop((pdats m ρ 1 c).arrays ((pdats m ρ 1 c).arrAt · 0) ∗ Pipeline.unscopedRest spec1 c (U2 m ρ c)) := by
      rw [Pipeline.unscopedBufs_split₀ cfgs 1 winFacts₀1.arr_unscoped c (U2 m ρ c)]
      exact sep_mono (arrays_of_arrBufs1 c (dat1 (U2 m ρ) c) (U2 m ρ c) _ rfl rfl rfl rfl rfl rfl (fun w => A_eq1 (U2 m ρ) c w)) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec1 c : sProp 𝕄) from ?_).trans (hin1 (U2 m ρ) c)
    unfold Pipeline.ΦA
    iintro ⟨Hp, -, Hr⟩
    isplitl [Hr]; · iexact Hr
    iexact Hp
  hout c := by
    rw [Pipeline.ownSems0_none]
    refine (hout1 (U2 m ρ) c).trans ?_
    unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N) ∗ Pipeline.unscopedRest spec1 c (U2 m ρ c))
        ⊢ (unscopedBufs c (U3 m ρ c) : sProp 𝕄) := by
      rw [Pipeline.unscopedBufs_split₀ cfgs 1 winFacts₀1.arr_unscoped c (U3 m ρ c)]
      refine sep_mono (arrBufs_of_arrays1 c (dat1 (U2 m ρ) c) (U3 m ρ c) _ rfl rfl rfl rfl rfl rfl (hF1 m ρ c)) (Entails.of_eq ?_)
      unfold Pipeline.unscopedRest
      exact bigSep_congr fun b hb => by rw [hrest1 m ρ c b (Finset.mem_sdiff.mp hb).2]
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program's three items in order. -/
abbrev segs : List (Pipeline.Seg (pcfgs (F := F)) adm' (pdats m ρ) () defs₀ 𝒱₀ L lv) :=
  [ .region (reg0 m ρ),
    .host (hseg hostOps1 hostOps1_sub hostOps1_fresh (W1 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution terminates, nothing faulting, and every
    unscoped buffer of every core ends at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm' (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The frame: every argument array ends as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c)⟩) (run_all m ρ)

/-- The run with the result named: the output array ends at what the second region's write-backs leave. -/
theorem run_result : θ_run defs (onTc (τ := τ) (main (F := F))) ⟨m, fun _ => 0, ρ⟩ (fun r => ∀ c : Dev nD,
      r.2.mem ((c.tc : Thread nD τ).loc main_v3) = (dat1 (U2 m ρ) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v3 (by decide))).trans (W3_v3 m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c)⟩) (run_all m ρ)

end Run

end Cert.Kernel.Hand

end
-- ==== Proof.KiRegion0.lean ====
/-
  The first kernel region (the projector): a grid of eight row blocks. At block t the body reads rows
  1024·t … 1024·t+1023 of x and the three weight matrices whole, and stores three blocks: the projected features
  (two matrix products with max(·, 0) between them), the graph-convolution features (one product), and the
  column of row norms. Each store covers its whole block, so what a block holds afterwards is the stored payload.
  Stated at an arbitrary valuation V of the buffers at the region's entry and for any float instance.
-/
import proofs.«130529_j59725815218593_1_alg».proof.Proof.Gen.KernelIdeal.Launch
import proofs.«130529_j59725815218593_1_alg».proof.Proof.Gen.KernelIdeal.Skeleton
import proofs.«130529_j59725815218593_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window w's block at grid point t, read off the array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, whether the point fetches it or not. -/
theorem before0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = blk0 V c 3 t) (t : Fin cfg0.N) (d) : dat.before 3 t d = blk0 V c 3 t :=
  (dat.before_in_eq_fetched 3 rfl (fun _ => rfl) (fun _ _ _ => rfl) (fun t => by rw [hafter]; unfold Dat.blockOf blk0; rw [hA]; try rfl) t d).trans
    (by unfold Dat.fetched Dat.blockOf blk0; rw [hA]; try rfl)

/-- The whole-buffer rectangles the body loads and stores through. -/
abbrev rX : Rect S1024x512 := Rect.unit (s := S1024x512) ![0, 0] S1024x512.size inb_S1024x512_S1024x512_0_0
abbrev rW1 : Rect S512x512 := Rect.unit (s := S512x512) ![0, 0] S512x512.size inb_S512x512_S512x512_0_0
abbrev rW2 : Rect S512x128 := Rect.unit (s := S512x128) ![0, 0] S512x128.size inb_S512x128_S512x128_0_0
abbrev rP : Rect S1024x128 := Rect.unit (s := S1024x128) ![0, 0] S1024x128.size inb_S1024x128_S1024x128_0_0
abbrev rN : Rect S1024x1 := Rect.unit (s := S1024x1) ![0, 0] S1024x1.size inb_S1024x1_S1024x1_0_0

/-- What the body leaves in the three output blocks, from the input blocks: one whole-block store each. -/
def xpOut (x0 : Vec F S1024x512 .f32) (w1 : Vec F S512x512 .f32) (w2 : Vec F S512x128 .f32) : Vec F S1024x128 .bf16 :=
  View.canon [⟨rP, k0_pay4 (View.ld x0 rX) (View.ld w1 rW1) (View.ld w2 rW2)⟩]
def hOut (x0 : Vec F S1024x512 .f32) (gw : Vec F S512x128 .f32) : Vec F S1024x128 .bf16 :=
  View.canon [⟨rP, k0_pay5 (View.ld x0 rX) (View.ld gw rW2)⟩]
def nrmOut (x0 : Vec F S1024x512 .f32) (w1 : Vec F S512x512 .f32) (w2 : Vec F S512x128 .f32) : Vec F S1024x1 .f32 :=
  View.canon [⟨rN, k0_pay3 (View.ld x0 rX) (View.ld w1 rW1) (View.ld w2 rW2)⟩]

theorem coverP_bf (p0 : Vec F S1024x128 .bf16) (y : S1024x128.Idx) :
    ∃ pc ∈ ([⟨rP, p0⟩] : List (View.Piece (Elt F) S1024x128 .bf16)), y ∈ pc.1.set :=
  View.cover_of_tiled [⟨rP, p0⟩] S1024x128.size (by rfl) y
theorem coverN (p0 : Vec F S1024x1 .f32) (y : S1024x1.Idx) :
    ∃ pc ∈ ([⟨rN, p0⟩] : List (View.Piece (Elt F) S1024x1 .f32)), y ∈ pc.1.set :=
  View.cover_of_tiled [⟨rN, p0⟩] S1024x1.size (by rfl) y

set_option maxHeartbeats 4000000 in
/-- The body on whole staging memrefs: the inputs are kept, each output holds its stored payload. -/
theorem sound_kernel0 (c : Dev nD) (E : Set ℕ) (i : grid0.Coords)
    (a1 : Memref sig .tc .vmem S1024x512 .f32) (h1 : a1.IsWhole) (a2 : Memref sig .tc .vmem S512x512 .f32) (h2 : a2.IsWhole)
    (a3 : Memref sig .tc .vmem S512x128 .f32) (h3 : a3.IsWhole) (a4 : Memref sig .tc .vmem S512x128 .f32) (h4 : a4.IsWhole)
    (a5 : Memref sig .tc .vmem S1024x128 .bf16) (h5 : a5.IsWhole) (a6 : Memref sig .tc .vmem S1024x128 .bf16) (h6 : a6.IsWhole)
    (a7 : Memref sig .tc .vmem S1024x1 .f32) (h7 : a7.IsWhole)
    (x0 : Vec F S1024x512 .f32) (w1 : Vec F S512x512 .f32) (w2 gw : Vec F S512x128 .f32) (K : PUnit → sProp 𝕄) :
    iprop(owns (c : Thread nD τ) a1 fullShare x0 ∗ owns (c : Thread nD τ) a2 fullShare w1 ∗ owns (c : Thread nD τ) a3 fullShare w2
        ∗ owns (c : Thread nD τ) a4 fullShare gw
        ∗ (∃ d, owns (c : Thread nD τ) a5 fullShare d) ∗ (∃ d, owns (c : Thread nD τ) a6 fullShare d) ∗ (∃ d, owns (c : Thread nD τ) a7 fullShare d)
        ∗ (iprop(owns (c : Thread nD τ) a1 fullShare x0 ∗ owns (c : Thread nD τ) a2 fullShare w1 ∗ owns (c : Thread nD τ) a3 fullShare w2
            ∗ owns (c : Thread nD τ) a4 fullShare gw
            ∗ owns (c : Thread nD τ) a5 fullShare (xpOut x0 w1 w2) ∗ owns (c : Thread nD τ) a6 fullShare (hOut x0 gw)
            ∗ owns (c : Thread nD τ) a7 fullShare (nrmOut x0 w1 w2)) -∗ K ⟨⟩))
      ⊢ wp frame (wpE (defs₀ (F := F)) Variants.none c none) E (cc0_proj_kernel i a1 h1 a2 h2 a3 h3 a4 h4 a5 h5 a6 h6 a7 h7) K := by
  simp only [cc0_proj_kernel_eq_skeleton]; unfold cc0_proj_kernel_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf1; subst hf2; subst hf3; subst hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (coverP_bf _)
  isplitl [H6]
  · iexists _; isplitr
    swap; · iexact H6
    ipureintro
    exact View.read_writes_eq_canon _ _ _ (coverP_bf _)
  iexists _; isplitr
  swap; · iexact H7
  ipureintro
  exact View.read_writes_eq_canon _ _ _ (coverN _)

/-- The proof data of the first region on core c, at the entry contents V. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => xpOut (blk0 V c 0 t) (blk0 V c 1 t) (blk0 V c 2 t)
    | ⟨5, _⟩ => hOut (blk0 V c 0 t) (blk0 V c 3 t)
    | ⟨6, _⟩ => nrmOut (blk0 V c 0 t) (blk0 V c 1 t) (blk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = blk0 V c 3 t := by dsimp only [dat0]
theorem after0_4 (c : Dev nD) (t : Fin cfg0.N) : (dat0 V c).after 4 t = xpOut (blk0 V c 0 t) (blk0 V c 1 t) (blk0 V c 2 t) := by dsimp only [dat0]
theorem after0_5 (c : Dev nD) (t : Fin cfg0.N) : (dat0 V c).after 5 t = hOut (blk0 V c 0 t) (blk0 V c 3 t) := by dsimp only [dat0]
theorem after0_6 (c : Dev nD) (t : Fin cfg0.N) : (dat0 V c).after 6 t = nrmOut (blk0 V c 0 t) (blk0 V c 1 t) (blk0 V c 2 t) := by dsimp only [dat0]

theorem before0_0 (c : Dev nD) (t : Fin cfg0.N) (d) : (dat0 V c).before 0 t d = blk0 V c 0 t :=
  before0_0_of V (dat0 V c) (A_eq0 V c 0) (after0_0 V c) t d
theorem before0_1 (c : Dev nD) (t : Fin cfg0.N) (d) : (dat0 V c).before 1 t d = blk0 V c 1 t :=
  before0_1_of V (dat0 V c) (A_eq0 V c 1) (after0_1 V c) t d
theorem before0_2 (c : Dev nD) (t : Fin cfg0.N) (d) : (dat0 V c).before 2 t d = blk0 V c 2 t :=
  before0_2_of V (dat0 V c) (A_eq0 V c 2) (after0_2 V c) t d
theorem before0_3 (c : Dev nD) (t : Fin cfg0.N) (d) : (dat0 V c).before 3 t d = blk0 V c 3 t :=
  before0_3_of V (dat0 V c) (A_eq0 V c 3) (after0_3 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (blk0 V c 0 t) (blk0 V c 1 t) (blk0 V c 2 t) (blk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KiRuns1.lean ====
/-
  The second kernel region (the aggregation), part one: what its runs share, and the body's run in each of its
  three cases. The grid is 8 × 8: point (i, j) reads row block i and row block j of the projected features, their
  norms, row block j of the graph-convolution features and the bias. At j = 0 the accumulator is cleared
  (case A); at every point the block product (similarity block) · (feature block) is added to it (cases A, B, C);
  at j = 7 the output block is stored as accumulator · 2⁻¹³ + bias (case C). For any float instance.
-/
import proofs.«130529_j59725815218593_1_alg».proof.Proof.Gen.KernelIdeal.Launch
import proofs.«130529_j59725815218593_1_alg».proof.Proof.Gen.KernelIdeal.Skeleton
import proofs.«130529_j59725815218593_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The first conditional (the column coordinate is 0), from the grid coordinates. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- The second conditional (the column coordinate is 7). -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-- The input windows are never idle; the output window is idle, and not written back, off column 7. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem idleAt1_6 : ∀ t : Fin cfg1.N, ¬cond1_1 (grid1.coords t) → cfg1.idle 6 (grid1.coords t) = true := by decide +kernel
theorem noFlush1_6 : ∀ t : Fin cfg1.N, ¬cond1_1 (grid1.coords t) → (cfg1.win 6).flush t = false := by decide +kernel
theorem liveAt1_6 : ∀ t : Fin cfg1.N, cond1_1 (grid1.coords t) → cfg1.idle 6 (grid1.coords t) = false := by decide +kernel

/-- One staging buffer of the output window and the accumulator, as views through which contents are stated. -/
abbrev VO1 : View sig .tc .vmem S1024x128 .f32 := (Memref.whole cc1_stg6_0 : Memref sig .tc .vmem S1024x128 .f32).view
abbrev scM1 : Memref sig .tc .vmem S1024x128 .f32 := Memref.whole cc1_scratch0
abbrev VS1 : View sig .tc .vmem S1024x128 .f32 := scM1.view
/-- Each window's current staging memref at a point, as the pipeline passes it, and its wholeness. -/
abbrev ms1_0 (t : Fin cfg1.N) : Memref sig .tc .vmem S1024x128 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x128 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x128 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024x128 .f32 := win1_6.stage (cfg1.slots t 6)
abbrev hs1_6 (t : Fin cfg1.N) : (ms1_6 t).IsWhole := hstage1_6 ((cfg1.slots t 6).cast nbuf1_6)

set_option maxHeartbeats 4000000 in
/-- The body in case A, on whole staging memrefs: the pieces its stores leave in the output block and in the
    accumulator (last store first), with the proof that it runs to a continuation holding exactly them. -/
noncomputable def kernelRun1_A (c : Dev nD) (i : grid1.Coords) (arg2 : Memref sig .tc .vmem S1024x128 .bf16) (harg2 : arg2.IsWhole) (arg3 : Memref sig .tc .vmem S1024x1 .f32) (harg3 : arg3.IsWhole) (arg4 : Memref sig .tc .vmem S1024x128 .bf16) (harg4 : arg4.IsWhole) (arg5 : Memref sig .tc .vmem S1x1024 .f32) (harg5 : arg5.IsWhole) (arg6 : Memref sig .tc .vmem S1024x128 .bf16) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : cond1_0 i) (hc1 : ¬cond1_1 i)
    (x0 : Vec F S1024x128 .bf16) (x1 : Vec F S1024x1 .f32) (x2 : Vec F S1024x128 .bf16) (x3 : Vec F S1x1024 .f32) (x4 : Vec F S1024x128 .bf16) (x5 : Vec F S1x128 .f32) :
    Σ' (L6 : List (View.Piece (Elt F) S1024x128 .f32)), { LS : List (View.Piece (Elt F) S1024x128 .f32) //
      ∀ (xi6 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS)) -∗ K ⟨⟩))
          ⊢ wp frame (wpE (defs₀ (F := F)) Variants.none c none) E (cc1_agg_kernel i arg2 harg2 arg3 harg3 arg4 harg4 arg5 harg5 arg6 harg6 arg7 harg7 arg8 harg8 arg9 harg9) K } := by
  refine ⟨[], ?_, fun xi6 E K => ?run⟩
  case run =>
    simp only [cc1_agg_kernel_eq_skeleton]; unfold cc1_agg_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS

set_option maxHeartbeats 4000000 in
/-- The body in case B, on whole staging memrefs: the pieces its stores leave in the output block and in the
    accumulator (last store first), with the proof that it runs to a continuation holding exactly them. -/
noncomputable def kernelRun1_B (c : Dev nD) (i : grid1.Coords) (arg2 : Memref sig .tc .vmem S1024x128 .bf16) (harg2 : arg2.IsWhole) (arg3 : Memref sig .tc .vmem S1024x1 .f32) (harg3 : arg3.IsWhole) (arg4 : Memref sig .tc .vmem S1024x128 .bf16) (harg4 : arg4.IsWhole) (arg5 : Memref sig .tc .vmem S1x1024 .f32) (harg5 : arg5.IsWhole) (arg6 : Memref sig .tc .vmem S1024x128 .bf16) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : ¬cond1_1 i)
    (x0 : Vec F S1024x128 .bf16) (x1 : Vec F S1024x1 .f32) (x2 : Vec F S1024x128 .bf16) (x3 : Vec F S1x1024 .f32) (x4 : Vec F S1024x128 .bf16) (x5 : Vec F S1x128 .f32) (xs : Vec F S1024x128 .f32) :
    Σ' (L6 : List (View.Piece (Elt F) S1024x128 .f32)), { LS : List (View.Piece (Elt F) S1024x128 .f32) //
      ∀ (xi6 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS)) -∗ K ⟨⟩))
          ⊢ wp frame (wpE (defs₀ (F := F)) Variants.none c none) E (cc1_agg_kernel i arg2 harg2 arg3 harg3 arg4 harg4 arg5 harg5 arg6 harg6 arg7 harg7 arg8 harg8 arg9 harg9) K } := by
  refine ⟨[], ?_, fun xi6 E K => ?run⟩
  case run =>
    simp only [cc1_agg_kernel_eq_skeleton]; unfold cc1_agg_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS

set_option maxHeartbeats 4000000 in
/-- The body in case C, on whole staging memrefs: the pieces its stores leave in the output block and in the
    accumulator (last store first), with the proof that it runs to a continuation holding exactly them. -/
noncomputable def kernelRun1_C (c : Dev nD) (i : grid1.Coords) (arg2 : Memref sig .tc .vmem S1024x128 .bf16) (harg2 : arg2.IsWhole) (arg3 : Memref sig .tc .vmem S1024x1 .f32) (harg3 : arg3.IsWhole) (arg4 : Memref sig .tc .vmem S1024x128 .bf16) (harg4 : arg4.IsWhole) (arg5 : Memref sig .tc .vmem S1x1024 .f32) (harg5 : arg5.IsWhole) (arg6 : Memref sig .tc .vmem S1024x128 .bf16) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : cond1_1 i)
    (x0 : Vec F S1024x128 .bf16) (x1 : Vec F S1024x1 .f32) (x2 : Vec F S1024x128 .bf16) (x3 : Vec F S1x1024 .f32) (x4 : Vec F S1024x128 .bf16) (x5 : Vec F S1x128 .f32) (xs : Vec F S1024x128 .f32) :
    Σ' (L6 : List (View.Piece (Elt F) S1024x128 .f32)), { LS : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS)) -∗ K ⟨⟩))
          ⊢ wp frame (wpE (defs₀ (F := F)) Variants.none c none) E (cc1_agg_kernel i arg2 harg2 arg3 harg3 arg4 harg4 arg5 harg5 arg6 harg6 arg7 harg7 arg8 harg8 arg9 harg9) K } := by
  refine ⟨?_, ?_, fun E K => ?run⟩
  case run =>
    simp only [cc1_agg_kernel_eq_skeleton]; unfold cc1_agg_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS

end Cert.KernelIdeal.Hand

end
-- ==== Proof.KiRegion1.lean ====
/-
  The second kernel region (the aggregation), part two: what the accumulator and the output block hold after each
  grid point, by recursion on the point; the region's invariant (the accumulator at what the point before left);
  the proof data; and the body obligation at every point, by cases on the column coordinate.
-/
import proofs.«130529_j59725815218593_1_alg».proof.Proof.Gen.KernelIdeal.Launch
import proofs.«130529_j59725815218593_1_alg».proof.Proof.Gen.KernelIdeal.Skeleton
import proofs.«130529_j59725815218593_1_alg».proof.Proof.Gen.KernelIdeal.Points
import proofs.«130529_j59725815218593_1_alg».proof.Proof.KiRuns1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- What case A leaves in the accumulator: its pieces read back (they cover the buffer). -/
theorem scover1_A (c : Dev nD) (i : grid1.Coords) (arg2 : Memref sig .tc .vmem S1024x128 .bf16) (harg2 : arg2.IsWhole) (arg3 : Memref sig .tc .vmem S1024x1 .f32) (harg3 : arg3.IsWhole) (arg4 : Memref sig .tc .vmem S1024x128 .bf16) (harg4 : arg4.IsWhole) (arg5 : Memref sig .tc .vmem S1x1024 .f32) (harg5 : arg5.IsWhole) (arg6 : Memref sig .tc .vmem S1024x128 .bf16) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : cond1_0 i) (hc1 : ¬cond1_1 i)
    (x0 : Vec F S1024x128 .bf16) (x1 : Vec F S1024x1 .f32) (x2 : Vec F S1024x128 .bf16) (x3 : Vec F S1x1024 .f32) (x4 : Vec F S1024x128 .bf16) (x5 : Vec F S1x128 .f32) (y : S1024x128.Idx) :
    ∃ pc ∈ (kernelRun1_A c i arg2 harg2 arg3 harg3 arg4 harg4 arg5 harg5 arg6 harg6 arg7 harg7 arg8 harg8 arg9 harg9 hc0 hc1 x0 x1 x2 x3 x4 x5).2.1, y ∈ pc.1.set :=
  View.cover_of_tiledL (kernelRun1_A c i arg2 harg2 arg3 harg3 arg4 harg4 arg5 harg5 arg6 harg6 arg7 harg7 arg8 harg8 arg9 harg9 hc0 hc1 x0 x1 x2 x3 x4 x5).2.1 S1024x128.size (by sl_kernel_rfl) y
def sout1_A (c : Dev nD) (i : grid1.Coords) (arg2 : Memref sig .tc .vmem S1024x128 .bf16) (harg2 : arg2.IsWhole) (arg3 : Memref sig .tc .vmem S1024x1 .f32) (harg3 : arg3.IsWhole) (arg4 : Memref sig .tc .vmem S1024x128 .bf16) (harg4 : arg4.IsWhole) (arg5 : Memref sig .tc .vmem S1x1024 .f32) (harg5 : arg5.IsWhole) (arg6 : Memref sig .tc .vmem S1024x128 .bf16) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : cond1_0 i) (hc1 : ¬cond1_1 i)
    (x0 : Vec F S1024x128 .bf16) (x1 : Vec F S1024x1 .f32) (x2 : Vec F S1024x128 .bf16) (x3 : Vec F S1x1024 .f32) (x4 : Vec F S1024x128 .bf16) (x5 : Vec F S1x128 .f32) : Vec F S1024x128 .f32 :=
  VS1.read (Elt F) (VS1.writes (Elt F) VS1.junk (kernelRun1_A c i arg2 harg2 arg3 harg3 arg4 harg4 arg5 harg5 arg6 harg6 arg7 harg7 arg8 harg8 arg9 harg9 hc0 hc1 x0 x1 x2 x3 x4 x5).2.1)
/-- What case B leaves in the accumulator: its pieces read back (they cover the buffer). -/
theorem scover1_B (c : Dev nD) (i : grid1.Coords) (arg2 : Memref sig .tc .vmem S1024x128 .bf16) (harg2 : arg2.IsWhole) (arg3 : Memref sig .tc .vmem S1024x1 .f32) (harg3 : arg3.IsWhole) (arg4 : Memref sig .tc .vmem S1024x128 .bf16) (harg4 : arg4.IsWhole) (arg5 : Memref sig .tc .vmem S1x1024 .f32) (harg5 : arg5.IsWhole) (arg6 : Memref sig .tc .vmem S1024x128 .bf16) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : ¬cond1_1 i)
    (x0 : Vec F S1024x128 .bf16) (x1 : Vec F S1024x1 .f32) (x2 : Vec F S1024x128 .bf16) (x3 : Vec F S1x1024 .f32) (x4 : Vec F S1024x128 .bf16) (x5 : Vec F S1x128 .f32) (xs : Vec F S1024x128 .f32) (y : S1024x128.Idx) :
    ∃ pc ∈ (kernelRun1_B c i arg2 harg2 arg3 harg3 arg4 harg4 arg5 harg5 arg6 harg6 arg7 harg7 arg8 harg8 arg9 harg9 hc0 hc1 x0 x1 x2 x3 x4 x5 xs).2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 x4 x5 xs).2.1 S1024x128.size (by sl_kernel_rfl) y
def sout1_B (c : Dev nD) (i : grid1.Coords) (arg2 : Memref sig .tc .vmem S1024x128 .bf16) (harg2 : arg2.IsWhole) (arg3 : Memref sig .tc .vmem S1024x1 .f32) (harg3 : arg3.IsWhole) (arg4 : Memref sig .tc .vmem S1024x128 .bf16) (harg4 : arg4.IsWhole) (arg5 : Memref sig .tc .vmem S1x1024 .f32) (harg5 : arg5.IsWhole) (arg6 : Memref sig .tc .vmem S1024x128 .bf16) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : ¬cond1_1 i)
    (x0 : Vec F S1024x128 .bf16) (x1 : Vec F S1024x1 .f32) (x2 : Vec F S1024x128 .bf16) (x3 : Vec F S1x1024 .f32) (x4 : Vec F S1024x128 .bf16) (x5 : Vec F S1x128 .f32) (xs : Vec F S1024x128 .f32) : Vec F S1024x128 .f32 :=
  VS1.read (Elt F) (VS1.writes (Elt F) VS1.junk (kernelRun1_B c i arg2 harg2 arg3 harg3 arg4 harg4 arg5 harg5 arg6 harg6 arg7 harg7 arg8 harg8 arg9 harg9 hc0 hc1 x0 x1 x2 x3 x4 x5 xs).2.1)
/-- What case C leaves in the accumulator: its pieces read back (they cover the buffer). -/
theorem scover1_C (c : Dev nD) (i : grid1.Coords) (arg2 : Memref sig .tc .vmem S1024x128 .bf16) (harg2 : arg2.IsWhole) (arg3 : Memref sig .tc .vmem S1024x1 .f32) (harg3 : arg3.IsWhole) (arg4 : Memref sig .tc .vmem S1024x128 .bf16) (harg4 : arg4.IsWhole) (arg5 : Memref sig .tc .vmem S1x1024 .f32) (harg5 : arg5.IsWhole) (arg6 : Memref sig .tc .vmem S1024x128 .bf16) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : cond1_1 i)
    (x0 : Vec F S1024x128 .bf16) (x1 : Vec F S1024x1 .f32) (x2 : Vec F S1024x128 .bf16) (x3 : Vec F S1x1024 .f32) (x4 : Vec F S1024x128 .bf16) (x5 : Vec F S1x128 .f32) (xs : Vec F S1024x128 .f32) (y : S1024x128.Idx) :
    ∃ pc ∈ (kernelRun1_C c i arg2 harg2 arg3 harg3 arg4 harg4 arg5 harg5 arg6 harg6 arg7 harg7 arg8 harg8 arg9 harg9 hc0 hc1 x0 x1 x2 x3 x4 x5 xs).2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 x4 x5 xs).2.1 S1024x128.size (by sl_kernel_rfl) y
def sout1_C (c : Dev nD) (i : grid1.Coords) (arg2 : Memref sig .tc .vmem S1024x128 .bf16) (harg2 : arg2.IsWhole) (arg3 : Memref sig .tc .vmem S1024x1 .f32) (harg3 : arg3.IsWhole) (arg4 : Memref sig .tc .vmem S1024x128 .bf16) (harg4 : arg4.IsWhole) (arg5 : Memref sig .tc .vmem S1x1024 .f32) (harg5 : arg5.IsWhole) (arg6 : Memref sig .tc .vmem S1024x128 .bf16) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : cond1_1 i)
    (x0 : Vec F S1024x128 .bf16) (x1 : Vec F S1024x1 .f32) (x2 : Vec F S1024x128 .bf16) (x3 : Vec F S1x1024 .f32) (x4 : Vec F S1024x128 .bf16) (x5 : Vec F S1x128 .f32) (xs : Vec F S1024x128 .f32) : Vec F S1024x128 .f32 :=
  VS1.read (Elt F) (VS1.writes (Elt F) VS1.junk (kernelRun1_C c i arg2 harg2 arg3 harg3 arg4 harg4 arg5 harg5 arg6 harg6 arg7 harg7 arg8 harg8 arg9 harg9 hc0 hc1 x0 x1 x2 x3 x4 x5 xs).2.1)
/-- Case C's pieces for the output block cover it, and what they leave there. -/
theorem cover1_C (c : Dev nD) (i : grid1.Coords) (arg2 : Memref sig .tc .vmem S1024x128 .bf16) (harg2 : arg2.IsWhole) (arg3 : Memref sig .tc .vmem S1024x1 .f32) (harg3 : arg3.IsWhole) (arg4 : Memref sig .tc .vmem S1024x128 .bf16) (harg4 : arg4.IsWhole) (arg5 : Memref sig .tc .vmem S1x1024 .f32) (harg5 : arg5.IsWhole) (arg6 : Memref sig .tc .vmem S1024x128 .bf16) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : cond1_1 i)
    (x0 : Vec F S1024x128 .bf16) (x1 : Vec F S1024x1 .f32) (x2 : Vec F S1024x128 .bf16) (x3 : Vec F S1x1024 .f32) (x4 : Vec F S1024x128 .bf16) (x5 : Vec F S1x128 .f32) (xs : Vec F S1024x128 .f32) (y : S1024x128.Idx) :
    ∃ pc ∈ (kernelRun1_C c i arg2 harg2 arg3 harg3 arg4 harg4 arg5 harg5 arg6 harg6 arg7 harg7 arg8 harg8 arg9 harg9 hc0 hc1 x0 x1 x2 x3 x4 x5 xs).1, y ∈ pc.1.set :=
  View.cover_of_tiledL (kernelRun1_C c i arg2 harg2 arg3 harg3 arg4 harg4 arg5 harg5 arg6 harg6 arg7 harg7 arg8 harg8 arg9 harg9 hc0 hc1 x0 x1 x2 x3 x4 x5 xs).1 S1024x128.size (by sl_kernel_rfl) y
def out1_C (c : Dev nD) (i : grid1.Coords) (arg2 : Memref sig .tc .vmem S1024x128 .bf16) (harg2 : arg2.IsWhole) (arg3 : Memref sig .tc .vmem S1024x1 .f32) (harg3 : arg3.IsWhole) (arg4 : Memref sig .tc .vmem S1024x128 .bf16) (harg4 : arg4.IsWhole) (arg5 : Memref sig .tc .vmem S1x1024 .f32) (harg5 : arg5.IsWhole) (arg6 : Memref sig .tc .vmem S1024x128 .bf16) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : cond1_1 i)
    (x0 : Vec F S1024x128 .bf16) (x1 : Vec F S1024x1 .f32) (x2 : Vec F S1024x128 .bf16) (x3 : Vec F S1x1024 .f32) (x4 : Vec F S1024x128 .bf16) (x5 : Vec F S1x128 .f32) (xs : Vec F S1024x128 .f32) : Vec F S1024x128 .f32 :=
  VO1.read (Elt F) (VO1.writes (Elt F) VO1.junk (kernelRun1_C c i arg2 harg2 arg3 harg3 arg4 harg4 arg5 harg5 arg6 harg6 arg7 harg7 arg8 harg8 arg9 harg9 hc0 hc1 x0 x1 x2 x3 x4 x5 xs).1)

section Region1

variable (V : (c : Dev nD) → (b : Ref sig .tc) → Buf (Elt F) ((c : Thread nD τ).loc b))

/-- Window w's block at grid point t, read off the array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = blk1 V c 4 t) (t : Fin cfg1.N) (d) : dat.before 4 t d = blk1 V c 4 t :=
  (dat.before_in_eq_fetched 4 rfl (fun _ => rfl) (fun _ _ _ => rfl) (fun t => by rw [hafter]; unfold Dat.blockOf blk1; rw [hA]; try rfl) t d).trans
    (by unfold Dat.fetched Dat.blockOf blk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = blk1 V c 5 t) (t : Fin cfg1.N) (d) : dat.before 5 t d = blk1 V c 5 t :=
  (dat.before_in_eq_fetched 5 rfl (fun _ => rfl) (fun _ _ _ => rfl) (fun t => by rw [hafter]; unfold Dat.blockOf blk1; rw [hA]; try rfl) t d).trans
    (by unfold Dat.fetched Dat.blockOf blk1; rw [hA]; try rfl)

/-- The three cases at a grid point, on the point's staging memrefs and input blocks. -/
def accA (c : Dev nD) (t : Fin cfg1.N) (h0 : t.val % 8 = 0) (h1 : ¬t.val % 8 = 7) : Vec F S1024x128 .f32 :=
  sout1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) ((hcond1_0 t).mpr h0) (fun h => h1 ((hcond1_1 t).mp h)) (blk1 V c 0 t) (blk1 V c 1 t) (blk1 V c 2 t) (blk1 V c 3 t) (blk1 V c 4 t) (blk1 V c 5 t)
def accB (c : Dev nD) (t : Fin cfg1.N) (h0 : ¬t.val % 8 = 0) (h1 : ¬t.val % 8 = 7) (xs : Vec F S1024x128 .f32) : Vec F S1024x128 .f32 :=
  sout1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) (fun h => h0 ((hcond1_0 t).mp h)) (fun h => h1 ((hcond1_1 t).mp h)) (blk1 V c 0 t) (blk1 V c 1 t) (blk1 V c 2 t) (blk1 V c 3 t) (blk1 V c 4 t) (blk1 V c 5 t) xs
def accC (c : Dev nD) (t : Fin cfg1.N) (h0 : ¬t.val % 8 = 0) (h1 : t.val % 8 = 7) (xs : Vec F S1024x128 .f32) : Vec F S1024x128 .f32 :=
  sout1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) (fun h => h0 ((hcond1_0 t).mp h)) ((hcond1_1 t).mpr h1) (blk1 V c 0 t) (blk1 V c 1 t) (blk1 V c 2 t) (blk1 V c 3 t) (blk1 V c 4 t) (blk1 V c 5 t) xs
def outC (c : Dev nD) (t : Fin cfg1.N) (h0 : ¬t.val % 8 = 0) (h1 : t.val % 8 = 7) (xs : Vec F S1024x128 .f32) : Vec F S1024x128 .f32 :=
  out1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) (fun h => h0 ((hcond1_0 t).mp h)) ((hcond1_1 t).mpr h1) (blk1 V c 0 t) (blk1 V c 1 t) (blk1 V c 2 t) (blk1 V c 3 t) (blk1 V c 4 t) (blk1 V c 5 t) xs

/-- THE ACCUMULATION: what the accumulator holds after the body at position n — cleared and refilled at column 0,
    otherwise what the point before left plus this point's block product. -/
def accAt (c : Dev nD) : (n : ℕ) → n < cfg1.N → Vec F S1024x128 .f32
  | 0, hn => accA V c ⟨0, hn⟩ (Nat.zero_mod _) (by show ¬(0 % 8 = 7); decide)
  | n + 1, hn =>
    if h0 : (n + 1) % 8 = 0 then accA V c ⟨n + 1, hn⟩ h0 (by show ¬((n + 1) % 8 = 7); omega)
    else if h1 : (n + 1) % 8 = 7 then accC V c ⟨n + 1, hn⟩ h0 h1 (accAt c n (Nat.lt_of_succ_lt hn))
    else accB V c ⟨n + 1, hn⟩ h0 h1 (accAt c n (Nat.lt_of_succ_lt hn))

theorem accAt_A (c : Dev nD) (t : Fin cfg1.N) (h0 : t.val % 8 = 0) (h1 : ¬t.val % 8 = 7) :
    accAt V c t.val t.isLt = accA V c t h0 h1 := by
  obtain ⟨n, hn⟩ := t
  cases n with
  | zero => exact rfl
  | succ n => exact (dif_pos h0).trans rfl
theorem accAt_B (c : Dev nD) (t : Fin cfg1.N) (h0 : ¬t.val % 8 = 0) (h1 : ¬t.val % 8 = 7) :
    accAt V c t.val t.isLt = accB V c t h0 h1 (accAt V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)
theorem accAt_C (c : Dev nD) (t : Fin cfg1.N) (h0 : ¬t.val % 8 = 0) (h1 : t.val % 8 = 7) :
    accAt V c t.val t.isLt = accC V c t h0 h1 (accAt V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-- What the output block holds after the body at point t: at column 7 the stored block; elsewhere the window is
    idle and not written back, and nothing consults this value. -/
def outAt (c : Dev nD) (t : Fin cfg1.N) : Vec F S1024x128 .f32 :=
  if h1 : t.val % 8 = 7 then outC V c t (by omega) h1 (accAt V c (t.val - 1) (Nat.lt_of_le_of_lt (Nat.sub_le _ _) t.isLt))
  else VO1.read (Elt F) VO1.junk

/-- The scoped buffers of the core that belong to the other region, each at some contents, and the generator register. -/
def restI (c : Dev nD) : sProp 𝕄 :=
  iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f)) ∗ (∃ r, prngReg c r))

theorem PhiA1_open (c : Dev nD) : (Pipeline.ΦA spec1 c : sProp 𝕄) ⊢ iprop((∃ d, owns (c : Thread nD τ) scM1 fullShare d) ∗ restI c) := by
  unfold Pipeline.ΦA restI; rw [scopedRest1_eq]; simp only [scM1, owns_whole]
  iintro ⟨⟨H1, H2, H3, H4, H5, H6, H7, H8, H9, H10, H11, HS⟩, Hg⟩
  isplitl [HS]; · iexact HS
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  iexact Hg
theorem PhiA1_close (c : Dev nD) : iprop((∃ d, owns (c : Thread nD τ) scM1 fullShare d) ∗ restI c) ⊢ (Pipeline.ΦA spec1 c : sProp 𝕄) := by
  unfold Pipeline.ΦA restI; rw [scopedRest1_eq]; simp only [scM1, owns_whole]
  iintro ⟨HS, ⟨H1, H2, H3, H4, H5, H6, H7, H8, H9, H10, H11⟩, Hg⟩
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact HS
  iexact Hg

/-- The region invariant before position n: before the first point the launch's (the accumulator at anything);
    afterwards the accumulator at what the point before left, beside the untouched rest. -/
def PhiS (c : Dev nD) : (n : ℕ) → n ≤ cfg1.N → sProp 𝕄
  | 0, _ => Pipeline.ΦA spec1 c
  | n + 1, hn => iprop(owns (c : Thread nD τ) scM1 fullShare (accAt V c n hn) ∗ restI c)

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(owns (c : Thread nD τ) scM1 fullShare (accAt V c n hn) ∗ restI c) := rfl
theorem PhiS_pos (c : Dev nD) (n : ℕ) (h : n ≤ cfg1.N) (hz : n ≠ 0) :
    PhiS V c n h = iprop(owns (c : Thread nD τ) scM1 fullShare (accAt V c (n - 1) (by omega)) ∗ restI c) := by
  cases n with
  | zero => exact absurd rfl hz
  | succ n => rfl

/-- Before any point the invariant yields the accumulator at SOME contents beside the rest. -/
theorem PhiS_some (c : Dev nD) (n : ℕ) (h : n ≤ cfg1.N) :
    PhiS V c n h ⊢ iprop((∃ d, owns (c : Thread nD τ) scM1 fullShare d) ∗ restI c) := by
  cases n with
  | zero => exact PhiA1_open c
  | succ n =>
    rw [PhiS_succ]
    iintro ⟨HS, HR⟩
    isplitl [HS]; · iexists _; iexact HS
    iexact HR

/-- The proof data of the second region on core c, at the entry contents V. The two windows that read the
    projected features hold half a share of that array each. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => outAt V c t
  Φ t := PhiS V c t.val (Nat.le_of_lt_succ t.isLt)
  q w := match w with
    | ⟨0, _⟩ => fullShare.left
    | ⟨1, _⟩ => fullShare
    | ⟨2, _⟩ => fullShare.right
    | ⟨3, _⟩ => fullShare
    | ⟨4, _⟩ => fullShare
    | ⟨5, _⟩ => fullShare
    | ⟨6, _⟩ => fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = blk1 V c 4 t := by dsimp only [dat1]
theorem after1_5 (c : Dev nD) (t : Fin cfg1.N) : (dat1 V c).after 5 t = blk1 V c 5 t := by dsimp only [dat1]
theorem after1_6 (c : Dev nD) (t : Fin cfg1.N) : (dat1 V c).after 6 t = outAt V c t := by dsimp only [dat1]
theorem before1_0 (c : Dev nD) (t : Fin cfg1.N) (d) : (dat1 V c).before 0 t d = blk1 V c 0 t :=
  before1_0_of V (dat1 V c) (A_eq1 V c 0) (after1_0 V c) t d
theorem before1_1 (c : Dev nD) (t : Fin cfg1.N) (d) : (dat1 V c).before 1 t d = blk1 V c 1 t :=
  before1_1_of V (dat1 V c) (A_eq1 V c 1) (after1_1 V c) t d
theorem before1_2 (c : Dev nD) (t : Fin cfg1.N) (d) : (dat1 V c).before 2 t d = blk1 V c 2 t :=
  before1_2_of V (dat1 V c) (A_eq1 V c 2) (after1_2 V c) t d
theorem before1_3 (c : Dev nD) (t : Fin cfg1.N) (d) : (dat1 V c).before 3 t d = blk1 V c 3 t :=
  before1_3_of V (dat1 V c) (A_eq1 V c 3) (after1_3 V c) t d
theorem before1_4 (c : Dev nD) (t : Fin cfg1.N) (d) : (dat1 V c).before 4 t d = blk1 V c 4 t :=
  before1_4_of V (dat1 V c) (A_eq1 V c 4) (after1_4 V c) t d
theorem before1_5 (c : Dev nD) (t : Fin cfg1.N) (d) : (dat1 V c).before 5 t d = blk1 V c 5 t :=
  before1_5_of V (dat1 V c) (A_eq1 V c 5) (after1_5 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 8000000 in
/-- The body at any point: the inputs' memrefs hold their blocks; the column coordinate says which case the point is
    in; the invariant hands the body the accumulator at what the point before left (at anything at column 0, where the
    body clears it) and takes it back at this point's contents; nothing is owed throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  by_cases h0 : t.val % 8 = 0
  · have h1 : ¬t.val % 8 = 7 := by omega
    rw [Dat.leavesExact_idle (dat1 V c) 6 t (idleAt1_6 t (fun h => h1 ((hcond1_1 t).mp h))) (noFlush1_6 t (fun h => h1 ((hcond1_1 t).mp h)))]
    rw [accAt_A V c t h0 h1]
    unfold accA sout1_A; (try dsimp only)
    rw [PhiS_castSucc V c t]
    iintro ⟨HΦ, Ho, ⟨%d0, H0⟩, ⟨%d1, H1⟩, ⟨%d2, H2⟩, ⟨%d3, H3⟩, ⟨%d4, H4⟩, ⟨%d5, H5⟩, ⟨%d6, H6⟩⟩
    ihave HΦ' := (PhiS_some V c _ _) $$ [HΦ]
    · iexact HΦ
    icases HΦ' with ⟨HS, HR⟩
    iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) ((hcond1_0 t).mpr h0) (fun h => h1 ((hcond1_1 t).mp h)) (blk1 V c 0 t) (blk1 V c 1 t) (blk1 V c 2 t) (blk1 V c 3 t) (blk1 V c 4 t) (blk1 V c 5 t)).2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexact HS
    iintro ⟨H0, H1, H2, H3, H4, H5, H6, ⟨%es, HS⟩⟩
    isplitl [HS HR]
    · isplitl [HS]
      · unfold owns; iexists _; isplitr
        swap; · iexact HS
        ipureintro; exact View.read_writes_of_cover _ _ _ _ _ (scover1_A c _ _ _ _ _ _ _ _ _ _ _ _ _ _ _ _ _ _ _ _ _ _ _ _ _)
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · have h0' : t.val ≠ 0 := fun e => h0 (by rw [e])
    by_cases h1 : t.val % 8 = 7
    ·
      rw [show (dat1 V c).leavesExact 6 t = owns (c : Thread nD τ) (ms1_6 t) fullShare ((dat1 V c).after 6 t) from by
        unfold Dat.leavesExact; rw [liveAt1_6 t ((hcond1_1 t).mpr h1)], after1_6]
      unfold outAt; rw [dif_pos h1]
      rw [accAt_C V c t h0 h1]
      unfold accC outC sout1_C out1_C; (try dsimp only)
      rw [PhiS_castSucc V c t, PhiS_pos V c _ _ h0']
      iintro ⟨⟨HS, HR⟩, Ho, ⟨%d0, H0⟩, ⟨%d1, H1⟩, ⟨%d2, H2⟩, ⟨%d3, H3⟩, ⟨%d4, H4⟩, ⟨%d5, H5⟩, ⟨%d6, H6⟩⟩
      iapply ((kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) (fun h => h0 ((hcond1_0 t).mp h)) ((hcond1_1 t).mpr h1) (blk1 V c 0 t) (blk1 V c 1 t) (blk1 V c 2 t) (blk1 V c 3 t) (blk1 V c 4 t) (blk1 V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, ⟨%e6, H6⟩, ⟨%es, HS⟩⟩
      isplitl [HS HR]
      · isplitl [HS]
        · unfold owns; iexists _; isplitr
          swap; · iexact HS
          ipureintro; exact View.read_writes_of_cover _ _ _ _ _ (scover1_C c _ _ _ _ _ _ _ _ _ _ _ _ _ _ _ _ _ _ _ _ _ _ _ _ _ _)
        iexact HR
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover1_C c _ _ _ _ _ _ _ _ _ _ _ _ _ _ _ _ _ _ _ _ _ _ _ _ _ _)
    ·
      rw [Dat.leavesExact_idle (dat1 V c) 6 t (idleAt1_6 t (fun h => h1 ((hcond1_1 t).mp h))) (noFlush1_6 t (fun h => h1 ((hcond1_1 t).mp h)))]
      rw [accAt_B V c t h0 h1]
      unfold accB sout1_B; (try dsimp only)
      rw [PhiS_castSucc V c t, PhiS_pos V c _ _ h0']
      iintro ⟨⟨HS, HR⟩, Ho, ⟨%d0, H0⟩, ⟨%d1, H1⟩, ⟨%d2, H2⟩, ⟨%d3, H3⟩, ⟨%d4, H4⟩, ⟨%d5, H5⟩, ⟨%d6, H6⟩⟩
      iapply ((kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) (fun h => h0 ((hcond1_0 t).mp h)) (fun h => h1 ((hcond1_1 t).mp h)) (blk1 V c 0 t) (blk1 V c 1 t) (blk1 V c 2 t) (blk1 V c 3 t) (blk1 V c 4 t) (blk1 V c 5 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, ⟨%es, HS⟩⟩
      isplitl [HS HR]
      · isplitl [HS]
        · unfold owns; iexists _; isplitr
          swap; · iexact HS
          ipureintro; exact View.read_writes_of_cover _ _ _ _ _ (scover1_B c _ _ _ _ _ _ _ _ _ _ _ _ _ _ _ _ _ _ _ _ _ _ _ _ _ _)
        iexact HR
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point; after the last point the invariant
    gives it back, the accumulator's contents forgotten. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl]
  exact (PhiS_some V c _ _).trans (PhiA1_close c)

end Region1

end Cert.KernelIdeal.Hand

end
-- ==== Proof.KiShared1.lean ====
/-
  The second kernel region (the aggregation) reads the array of projected features through two of its seven
  windows, once for the rows of the similarity block and once for its columns. The pipeline's accounting holds
  every window's array at a share of its own, so at the region's entry the full ownership of that one buffer is
  dealt into the left and the right half of the full share, one half per window, and at the exit the two halves
  are put together again. The other five buffers (the column of norms, the row of norms, the graph-convolution
  features, the bias row and the result) stand behind one window each and pass at the full share; the result's
  window is the output and holds the full share by definition. Stated for any float instance, any core, any
  valuation of the buffers and any proof data whose input shares are the ones named.
-/
import proofs.«130529_j59725815218593_1_alg».proof.Proof.Gen.KernelIdeal.Launch
import proofs.«130529_j59725815218593_1_alg».proof.Proof.Gen.KernelIdeal.Skeleton
import proofs.«130529_j59725815218593_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Shared1

variable (c : Dev nD) (dat : Dat τ (Elt F) Unit ℕ (UR sig nD τ) ℕ cfg1 c)
  (V : (b : Ref sig .tc) → Buf (Elt F) ((c : Thread nD τ).loc b))
  (F' : (w : Fin cfg1.W) → Buf (Elt F) ((cfg1.win w).arr.view.loc (c : Thread nD τ)))

/-- The six distinct buffers behind the seven windows' arrays, one by one, each whole at the full share. -/
theorem arrBufs1_eq : (Pipeline.arrBufs spec1 c V : sProp 𝕄)
    = iprop((((c : Thread nD τ).loc main_v0_0) ↦{fullShare} V main_v0_0) ∗ (((c : Thread nD τ).loc main_v0_2) ↦{fullShare} V main_v0_2) ∗ (((c : Thread nD τ).loc main_v1) ↦{fullShare} V main_v1) ∗ (((c : Thread nD τ).loc main_v0_1) ↦{fullShare} V main_v0_1) ∗ (((c : Thread nD τ).loc main_v2) ↦{fullShare} V main_v2) ∗ (((c : Thread nD τ).loc main_v3) ↦{fullShare} V main_v3)) := by
  unfold Pipeline.arrBufs
  exact bigSep_eq_bigSepL_of_eq [main_v0_0, main_v0_2, main_v1, main_v0_1, main_v2, main_v3] (by decide) (by decide) _

/-- One window's array at the contents the valuation gives its buffer: the whole buffer's points-to at the window's share. -/
theorem arr1_pt (hF : ∀ w, F' w = V (Pipeline.arrRef spec1 w)) (w : Fin cfg1.W) :
    (((cfg1.win w).arr.view.loc (c : Thread nD τ)) ↦[(cfg1.win w).arr.view.set]{dat.share w} F' w : sProp 𝕄)
      = (((c : Thread nD τ).loc (Pipeline.arrRef spec1 w)) ↦{dat.share w} V (Pipeline.arrRef spec1 w)) := by
  rw [(arr_whole1 w).set_eq_univ, hF w]

/-- An input window's share is the proof data's. -/
theorem share1_in (w : Fin cfg1.W) (h : (cfg1.win w).isOut = false) : dat.share w = dat.q w := by
  unfold Pipeline.Dat.share
  rw [h]
  rfl

/-- The output window's share is the full one. -/
theorem share1_out : dat.share 6 = fullShare := by
  unfold Pipeline.Dat.share
  rw [show (cfg1.win 6).isOut = true from rfl]
  rfl

/-- The seven windows' arrays, one by one: the two windows on the projected features hold the two halves of that
    buffer's share, every other window its buffer at the full share. -/
theorem arrays1_eq (hq0 : dat.q 0 = fullShare.left) (hq2 : dat.q 2 = fullShare.right) (hq1 : dat.q 1 = fullShare)
    (hq3 : dat.q 3 = fullShare) (hq4 : dat.q 4 = fullShare) (hq5 : dat.q 5 = fullShare)
    (hF : ∀ w, F' w = V (Pipeline.arrRef spec1 w)) :
    dat.arrays F' = iprop((((c : Thread nD τ).loc main_v0_0) ↦{fullShare.left} V main_v0_0) ∗ (((c : Thread nD τ).loc main_v0_2) ↦{fullShare} V main_v0_2) ∗ (((c : Thread nD τ).loc main_v0_0) ↦{fullShare.right} V main_v0_0) ∗ (((c : Thread nD τ).loc main_v1) ↦{fullShare} V main_v1) ∗ (((c : Thread nD τ).loc main_v0_1) ↦{fullShare} V main_v0_1) ∗ (((c : Thread nD τ).loc main_v2) ↦{fullShare} V main_v2) ∗ (((c : Thread nD τ).loc main_v3) ↦{fullShare} V main_v3)) := by
  unfold Pipeline.Dat.arrays
  rw [bigSep_W1, arr1_pt c dat V F' hF 0, arr1_pt c dat V F' hF 1, arr1_pt c dat V F' hF 2, arr1_pt c dat V F' hF 3,
    arr1_pt c dat V F' hF 4, arr1_pt c dat V F' hF 5, arr1_pt c dat V F' hF 6,
    share1_in c dat 0 rfl, share1_in c dat 1 rfl, share1_in c dat 2 rfl, share1_in c dat 3 rfl, share1_in c dat 4 rfl,
    share1_in c dat 5 rfl, share1_out c dat, hq0, hq1, hq2, hq3, hq4, hq5]

/-- Entry: the full points-to of the projected features is dealt into its two halves, one per window that reads it. -/
theorem arrays_of_arrBufs1 (hq0 : dat.q 0 = fullShare.left) (hq2 : dat.q 2 = fullShare.right) (hq1 : dat.q 1 = fullShare)
    (hq3 : dat.q 3 = fullShare) (hq4 : dat.q 4 = fullShare) (hq5 : dat.q 5 = fullShare)
    (hF : ∀ w, F' w = V (Pipeline.arrRef spec1 w)) :
    (Pipeline.arrBufs spec1 c V : sProp 𝕄) ⊢ dat.arrays F' := by
  rw [arrBufs1_eq, arrays1_eq c dat V F' hq0 hq2 hq1 hq3 hq4 hq5 hF]
  iintro ⟨H00, H02, H1, H01, H2, H3⟩
  ihave H00 := (pointsTo_share (PosShare.mem_left_op_right fullShare)).1 $$ H00
  icases H00 with ⟨HL, HR⟩
  isplitl [HL]; · iexact HL
  isplitl [H02]; · iexact H02
  isplitl [HR]; · iexact HR
  isplitl [H1]; · iexact H1
  isplitl [H01]; · iexact H01
  isplitl [H2]; · iexact H2
  iexact H3

/-- Exit: the two halves are gathered into the full points-to again. -/
theorem arrBufs_of_arrays1 (hq0 : dat.q 0 = fullShare.left) (hq2 : dat.q 2 = fullShare.right) (hq1 : dat.q 1 = fullShare)
    (hq3 : dat.q 3 = fullShare) (hq4 : dat.q 4 = fullShare) (hq5 : dat.q 5 = fullShare)
    (hF : ∀ w, F' w = V (Pipeline.arrRef spec1 w)) :
    dat.arrays F' ⊢ (Pipeline.arrBufs spec1 c V : sProp 𝕄) := by
  rw [arrBufs1_eq, arrays1_eq c dat V F' hq0 hq2 hq1 hq3 hq4 hq5 hF]
  iintro ⟨HL, H02, HR, H1, H01, H2, H3⟩
  ihave H00 := (pointsTo_share (PosShare.mem_left_op_right fullShare)).2 $$ [HL HR]
  · isplitl [HL] <;> iassumption
  isplitl [H00]; · iexact H00
  isplitl [H02]; · iexact H02
  isplitl [H1]; · iexact H1
  isplitl [H01]; · iexact H01
  isplitl [H2]; · iexact H2
  iexact H3

end Shared1

end Cert.KernelIdeal.Hand

end
-- ==== Proof.KiRun.lean ====
/-
  The whole run of the program: the projector region, the two host reshapes, the aggregation region. Between two
  items every unscoped buffer of the core is held at a named valuation: the launch memory; then the first region's
  three output arrays at what its write-backs leave; then the reshapes' results; then the second region's output
  array at what its write-backs leave. Every weakly fair execution terminates with every unscoped buffer at the
  last valuation; the argument arrays are never written, so they end as launched. The second region reads the
  projected features through two windows, which hold half a share of that array each. For any float instance.
-/
import proofs.«130529_j59725815218593_1_alg».proof.Proof.Gen.KernelIdeal.Launch
import proofs.«130529_j59725815218593_1_alg».proof.Proof.Gen.KernelIdeal.Skeleton
import proofs.«130529_j59725815218593_1_alg».proof.Proof.Gen.KernelIdeal.Points
import proofs.«130529_j59725815218593_1_alg».proof.Proof.KiRegion0
import proofs.«130529_j59725815218593_1_alg».proof.Proof.KiRegion1
import proofs.«130529_j59725815218593_1_alg».proof.Proof.KiShared1
import proofs.«130529_j59725815218593_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Run

variable (m : (ℓ : Loc nD τ sig) → Buf (Elt F) ℓ) (ρ : Dev nD → PrngReg)

/-- Core c's buffers at launch. -/
abbrev W0 : Dev nD → Valuation τ sig (Elt F) := fun c b => (s₀ m ρ).mem ((c : Dev nD), b)
abbrev U0 : (c : Dev nD) → (b : Ref sig .tc) → Buf (Elt F) ((c : Thread nD τ).loc b) := fun c b => W0 m ρ c b
/-- After the first region: its arrays at what the pipeline leaves, every other buffer as entered. -/
def W1 (c : Dev nD) : Valuation τ sig (Elt F) :=
  Pipeline.withArrays spec0 c (W0 m ρ c) fun w => (dat0 (U0 m ρ) c).arrAt w cfg0.N
theorem W1_arr (c : Dev nD) (w : Fin cfg0.W) :
    W1 m ρ c (Proc.devRef .tc (Pipeline.arrRef spec0 w)) = (dat0 (U0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev U1 : (c : Dev nD) → (b : Ref sig .tc) → Buf (Elt F) ((c : Thread nD τ).loc b) := fun c b => W1 m ρ c b
theorem hF0 (c : Dev nD) (w : Fin cfg0.W) : (dat0 (U0 m ρ) c).arrAt w cfg0.N = U1 m ρ c (Pipeline.arrRef spec0 w) :=
  (W1_arr m ρ c w).symm
theorem hrest0 (c : Dev nD) : ∀ b, b ∉ Finset.univ.image (Pipeline.arrRef spec0) → U1 m ρ c b = U0 m ρ c b :=
  fun b hb => W1_of_ne m ρ c b fun w e => hb (Finset.mem_image.mpr ⟨w, Finset.mem_univ _, e⟩)
/-- After the two reshapes. -/
abbrev W2 : Dev nD → Valuation τ sig (Elt F) := fun c => StableHlo.after hostOps1 (W1 m ρ c)
abbrev U2 : (c : Dev nD) → (b : Ref sig .tc) → Buf (Elt F) ((c : Thread nD τ).loc b) := fun c b => W2 m ρ c b
/-- After the second region: its output array at what the pipeline leaves, every other buffer as entered. -/
def W3 (c : Dev nD) : Valuation τ sig (Elt F) :=
  Function.update (W2 m ρ c) (Proc.devRef .tc main_v3) ((dat1 (U2 m ρ) c).arrAt 6 cfg1.N)
abbrev U3 : (c : Dev nD) → (b : Ref sig .tc) → Buf (Elt F) ((c : Thread nD τ).loc b) := fun c b => W3 m ρ c b
theorem W3_v3 (c : Dev nD) : W3 m ρ c (Proc.devRef .tc main_v3) = (dat1 (U2 m ρ) c).arrAt 6 cfg1.N := by
  unfold W3; exact Function.update_self ..
theorem W3_of_ne (c : Dev nD) (b : Ref sig .tc) (hb : b ≠ main_v3) :
    W3 m ρ c (Proc.devRef .tc b) = W2 m ρ c (Proc.devRef .tc b) := by
  unfold W3; exact Function.update_of_ne (StableHlo.devRef_ne_of_ne hb) _ _
theorem hF1 (c : Dev nD) (w : Fin cfg1.W) : (dat1 (U2 m ρ) c).arrAt w cfg1.N = U3 m ρ c (Pipeline.arrRef spec1 w) := by
  match w with
  | ⟨0, _⟩ => exact (((dat1 (U2 m ρ) c).arrAt_in 0 rfl _).trans (A_eq1 (U2 m ρ) c 0)).trans (W3_of_ne m ρ c _ (by decide)).symm
  | ⟨1, _⟩ => exact (((dat1 (U2 m ρ) c).arrAt_in 1 rfl _).trans (A_eq1 (U2 m ρ) c 1)).trans (W3_of_ne m ρ c _ (by decide)).symm
  | ⟨2, _⟩ => exact (((dat1 (U2 m ρ) c).arrAt_in 2 rfl _).trans (A_eq1 (U2 m ρ) c 2)).trans (W3_of_ne m ρ c _ (by decide)).symm
  | ⟨3, _⟩ => exact (((dat1 (U2 m ρ) c).arrAt_in 3 rfl _).trans (A_eq1 (U2 m ρ) c 3)).trans (W3_of_ne m ρ c _ (by decide)).symm
  | ⟨4, _⟩ => exact (((dat1 (U2 m ρ) c).arrAt_in 4 rfl _).trans (A_eq1 (U2 m ρ) c 4)).trans (W3_of_ne m ρ c _ (by decide)).symm
  | ⟨5, _⟩ => exact (((dat1 (U2 m ρ) c).arrAt_in 5 rfl _).trans (A_eq1 (U2 m ρ) c 5)).trans (W3_of_ne m ρ c _ (by decide)).symm
  | ⟨6, _⟩ => exact (W3_v3 m ρ c).symm
theorem hrest1 (c : Dev nD) : ∀ b, b ∉ Finset.univ.image (Pipeline.arrRef spec1) → U3 m ρ c b = U2 m ρ c b :=
  fun b hb => W3_of_ne m ρ c b fun e => hb (Finset.mem_image.mpr ⟨6, Finset.mem_univ _, e.symm⟩)

/-- No item writes an argument array: the last valuation has it as launched. -/
theorem hostOps1_keeps (c : Dev nD) (b : Ref sig .tc) (h : b ∉ hostOps1_W) (Vv : Valuation τ sig (Elt F)) :
    StableHlo.after hostOps1 Vv (Proc.devRef .tc b) = Vv (Proc.devRef .tc b) :=
  StableHlo.after_of_writes_sub hostOps1 _ hostOps1_writes h
theorem W3_main_arg0 (c : Dev nD) : W3 m ρ c (Proc.devRef .tc main_arg0) = m ((c : Thread nD τ).loc main_arg0) :=
  (W3_of_ne m ρ c main_arg0 (by decide)).trans <| (hostOps1_keeps c main_arg0 (by decide) _).trans <|
    (W1_arr m ρ c 0).trans <| ((dat0 (U0 m ρ) c).arrAt_in 0 rfl _).trans (A_eq0 (U0 m ρ) c 0)
theorem W3_main_arg1 (c : Dev nD) : W3 m ρ c (Proc.devRef .tc main_arg1) = m ((c : Thread nD τ).loc main_arg1) :=
  (W3_of_ne m ρ c main_arg1 (by decide)).trans <| (hostOps1_keeps c main_arg1 (by decide) _).trans <|
    (W1_arr m ρ c 1).trans <| ((dat0 (U0 m ρ) c).arrAt_in 1 rfl _).trans (A_eq0 (U0 m ρ) c 1)
theorem W3_main_arg2 (c : Dev nD) : W3 m ρ c (Proc.devRef .tc main_arg2) = m ((c : Thread nD τ).loc main_arg2) :=
  (W3_of_ne m ρ c main_arg2 (by decide)).trans <| (hostOps1_keeps c main_arg2 (by decide) _).trans <|
    (W1_arr m ρ c 2).trans <| ((dat0 (U0 m ρ) c).arrAt_in 2 rfl _).trans (A_eq0 (U0 m ρ) c 2)
theorem W3_main_arg3 (c : Dev nD) : W3 m ρ c (Proc.devRef .tc main_arg3) = m ((c : Thread nD τ).loc main_arg3) :=
  (W3_of_ne m ρ c main_arg3 (by decide)).trans <| (hostOps1_keeps c main_arg3 (by decide) _).trans <|
    (W1_arr m ρ c 3).trans <| ((dat0 (U0 m ρ) c).arrAt_in 3 rfl _).trans (A_eq0 (U0 m ρ) c 3)
theorem W3_main_arg4 (c : Dev nD) : W3 m ρ c (Proc.devRef .tc main_arg4) = m ((c : Thread nD τ).loc main_arg4) :=
  (W3_of_ne m ρ c main_arg4 (by decide)).trans <| (hostOps1_keeps c main_arg4 (by decide) _).trans <|
    (W1_of_ne m ρ c main_arg4 (by decide))

/-- The prefetched tables' admissible contents: neither region has a table. -/
abbrev adm' : (p : Fin 2) → (pcfgs (F := F) p).Adm := fun p => (cfgs p).toPCfg_adm
/-- Both regions' proof data, each at its region's entry contents. -/
def pdats : (p : Fin 2) → (c : Dev nD) → Dat τ (Elt F) Unit ℕ (UR sig nD τ) ℕ (Pipeline.pin (pcfgs (F := F)) adm' p) c
  | ⟨0, _⟩ => fun c => dat0 (U0 m ρ) c
  | ⟨1, _⟩ => fun c => dat1 (U2 m ρ) c
abbrev 𝒱₀ : Variants := Variants.none
abbrev L : GSem nD τ sig → Finset Unit := fun _ => ∅
abbrev lv : GSem nD τ sig → Unit → ℕ := fun _ _ => 0
/-- What rides beside the buffers through every item: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

set_option backward.isDefEq.respectTransparency.types false in
/-- The first region as a segment: entered from the launch contents, left at W1. -/
def reg0 : Pipeline.RegionSeg (pcfgs (F := F)) adm' (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (U0 m ρ c)
  hentry c := by
    rw [Pipeline.ownSems0_none]
    have hsplit := Pipeline.arrays_of_unscopedBufs (p := 0) (pcfgs (F := F)) adm' (pdats m ρ) launch0.win launch0.arr_whole c
      ((pdats m ρ 0 c).share_full fun _ => rfl) (U0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m ρ) ((pdats m ρ 0 c).share_full fun _ => rfl)
      (U0 m ρ c) (U1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region as a segment: entered from W2, left at W3. At entry the projected features' full points-to is
    dealt between the two windows that read it; at exit it is gathered again. -/
def reg1 : Pipeline.RegionSeg (pcfgs (F := F)) adm' (pdats m ρ) () defs₀ 𝒱₀ L lv 1 where
  win := winFacts₀1
  block_pos := block_pos1
  stage_whole := stage_whole1
  K := PEmpty
  osem k := k.elim
  ho := Pipeline.OwnSemFacts.none _
  hbody c := (body_obligation1 (U2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U2 m ρ c)
  hentry c := by
    rw [Pipeline.ownSems0_none]
    have hsplit : (unscopedBufs c (U2 m ρ c) : sProp 𝕄)
        ⊢ iprop((pdats m ρ 1 c).arrays ((pdats m ρ 1 c).arrAt · 0) ∗ Pipeline.unscopedRest spec1 c (U2 m ρ c)) := by
      rw [Pipeline.unscopedBufs_split₀ cfgs 1 winFacts₀1.arr_unscoped c (U2 m ρ c)]
      exact sep_mono (arrays_of_arrBufs1 c (dat1 (U2 m ρ) c) (U2 m ρ c) _ rfl rfl rfl rfl rfl rfl (fun w => A_eq1 (U2 m ρ) c w)) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec1 c : sProp 𝕄) from ?_).trans (hin1 (U2 m ρ) c)
    unfold Pipeline.ΦA
    iintro ⟨Hp, -, Hr⟩
    isplitl [Hr]; · iexact Hr
    iexact Hp
  hout c := by
    rw [Pipeline.ownSems0_none]
    refine (hout1 (U2 m ρ) c).trans ?_
    unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N) ∗ Pipeline.unscopedRest spec1 c (U2 m ρ c))
        ⊢ (unscopedBufs c (U3 m ρ c) : sProp 𝕄) := by
      rw [Pipeline.unscopedBufs_split₀ cfgs 1 winFacts₀1.arr_unscoped c (U3 m ρ c)]
      refine sep_mono (arrBufs_of_arrays1 c (dat1 (U2 m ρ) c) (U3 m ρ c) _ rfl rfl rfl rfl rfl rfl (hF1 m ρ c)) (Entails.of_eq ?_)
      unfold Pipeline.unscopedRest
      exact bigSep_congr fun b hb => by rw [hrest1 m ρ c b (Finset.mem_sdiff.mp hb).2]
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program's three items in order. -/
abbrev segs : List (Pipeline.Seg (pcfgs (F := F)) adm' (pdats m ρ) () defs₀ 𝒱₀ L lv) :=
  [ .region (reg0 m ρ),
    .host (hseg hostOps1 hostOps1_sub hostOps1_fresh (W1 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution terminates, nothing faulting, and every
    unscoped buffer of every core ends at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm' (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The frame: every argument array ends as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c)⟩) (run_all m ρ)

/-- The run with the result named: the output array ends at what the second region's write-backs leave. -/
theorem run_result : θ_run defs (onTc (τ := τ) (main (F := F))) ⟨m, fun _ => 0, ρ⟩ (fun r => ∀ c : Dev nD,
      r.2.mem ((c.tc : Thread nD τ).loc main_v3) = (dat1 (U2 m ρ) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v3 (by decide))).trans (W3_v3 m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c)⟩) (run_all m ρ)

end Run

end Cert.KernelIdeal.Hand

end
-- ==== Proof.Spec.lean ====
/-
  The function both programs compute, on the extended reals, index by index.

  For a node feature matrix x (8192 × 512) and weights w1 (512 × 512), w2, gw (512 × 128), gb (128):
    hid  = max (x · w1) 0                      the hidden layer, 8192 × 512
    xp   = hid · w2                            the projected features, 8192 × 128
    hh   = x · gw                              the graph-convolution features, 8192 × 128
    nrm p = √(∑_q xp p q ²)                    the row norms of xp
    sim i j = (∑_q xp i q · xp j q) / max (nrm i · nrm j) ε     the clamped cosine similarity
    G (i, r) = (∑_j sim i j · hh j r) · 2⁻¹³ + gb r
  The literals are kept as the words the two programs print: 0x00000000 (zero), 0x322BCC77 (ε), 0x39000000 (2⁻¹³).
-/
import Idealize.ShloMosaic.PureOps.Ideal
import Idealize.ShloMosaic.Lib.ValueIdx

noncomputable section

namespace Cert.Spec

open Idealize.ShloMosaic Idealize.ShloMosaic.ValueIdx

abbrev SX : Shape := ⟨2, ![8192, 512]⟩
abbrev SW1 : Shape := ⟨2, ![512, 512]⟩
abbrev SW2 : Shape := ⟨2, ![512, 128]⟩
abbrev SB : Shape := ⟨1, ![128]⟩
abbrev SO : Shape := ⟨2, ![8192, 128]⟩

/-- The zero word, the clamp ε and the scale 2⁻¹³ as the programs print them. -/
abbrev zeroW : EReal := Ideal.ofBits .f32 0x00000000#32
abbrev epsW : EReal := Ideal.ofBits .f32 0x322BCC77#32
abbrev invW : EReal := Ideal.ofBits .f32 0x39000000#32

variable (x : SX.Idx → EReal) (w1 : SW1.Idx → EReal) (w2 gw : SW2.Idx → EReal) (gb : SB.Idx → EReal)

/-- The hidden layer: max (x · w1) 0. -/
def hid (p : Fin 8192) (k : Fin 512) : EReal := max (∑ d : Fin 512, x (ix2 p d) * w1 (ix2 d k)) zeroW
/-- The projected features hid · w2. -/
def xp (p : Fin 8192) (q : Fin 128) : EReal := ∑ k : Fin 512, hid x w1 p k * w2 (ix2 k q)
/-- The graph-convolution features x · gw. -/
def hh (p : Fin 8192) (q : Fin 128) : EReal := ∑ d : Fin 512, x (ix2 p d) * gw (ix2 d q)
/-- The row norms of the projected features. -/
def nrm (p : Fin 8192) : EReal := Ideal.sqrt (∑ q : Fin 128, xp x w1 w2 p q * xp x w1 w2 p q)
/-- The clamped cosine similarity of rows i and j. -/
def sim (i j : Fin 8192) : EReal :=
  Ideal.div (∑ q : Fin 128, xp x w1 w2 i q * xp x w1 w2 j q) (max (nrm x w1 w2 i * nrm x w1 w2 j) epsW)
/-- The result: the similarity-weighted aggregate of hh, scaled by 2⁻¹³, plus the bias. -/
def G (o : SO.Idx) : EReal :=
  (∑ j : Fin 8192, sim x w1 w2 (o 0) j * hh x gw j (o 1)) * invW + gb (ix1 (o 1))

end Cert.Spec

end
-- ==== Proof.KiCompose.lean ====
/-
  The idealized kernel's result is the specification.

  Three facts join the two regions. The second region adds up, for every output row, eight column blocks of 1024
  terms each; the rows 1024·J + j, J below 8 and j below 1024, are all 8192 rows, each once, so the double sum is
  the sum over all rows (sums in a commutative monoid may be regrouped freely; no finiteness is needed). The two
  host reshapes between the regions move no value: the row of norms read at (0, j) is the column of norms at
  (j, 0), and the bias row at (0, r) is the bias vector at r, because a reshape keeps row-major positions. And
  the arrays the second region reads are the ones the first region leaves: the projected features, the
  graph-convolution features and the row norms of the specification. With these the second region's result is
  term by term (∑ over all rows j of sim i j · hh j r) · 2⁻¹³ + gb r.
-/
import proofs.«130529_j59725815218593_1_alg».proof.Proof.KiRun
import proofs.«130529_j59725815218593_1_alg».proof.Proof.Spec
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

open scoped BigOperators

namespace Cert.KernelIdeal.HandValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand

/-! ## Eight blocks of 1024 rows are all 8192 rows -/

/-- Row j of row block J. -/
abbrev composeRow (J : Fin 8) (j : Fin 1024) : Fin 8192 := ⟨1024 * J.val + j.val, by omega⟩

/-- A sum over the eight row blocks of the sums over each block's 1024 rows is the sum over all rows. -/
theorem sum_row_blocks {M : Type*} [AddCommMonoid M] (f : Fin 8192 → M) :
    ∑ J : Fin 8, ∑ j : Fin 1024, f (composeRow J j) = ∑ i : Fin 8192, f i := by
  rw [← Fintype.sum_prod_type' (fun (J : Fin 8) (j : Fin 1024) => f (composeRow J j))]
  refine Fintype.sum_equiv ((finProdFinEquiv (m := 8) (n := 1024)).trans (finCongr (by norm_num))) _ _ fun x => ?_
  refine congrArg f (Fin.ext ?_)
  show 1024 * x.1.val + x.2.val = x.2.val + 1024 * x.1.val
  omega

/-! ## The two reshapes between the regions, read at an index -/

/-- The row of norms at (0, j) is the column of norms at (j, 0). -/
theorem reshape_v1_at (Vv : Valuation τ sig (Elt Ideal)) (j : Fin 8192) :
    (StableHlo.after (hostOps1 (F := Ideal)) Vv (Proc.devRef .tc main_v1) : S1x8192.Idx → EReal) (ix2 (0 : Fin 1) j)
      = (Vv (Proc.devRef .tc main_v0_2) : S8192x1.Idx → EReal) (ix2 j (0 : Fin 1)) := by
  have e : StableHlo.after (hostOps1 (F := Ideal)) Vv (Proc.devRef .tc main_v1)
      = fun i => shapeCast S1x8192 (Vv (Proc.devRef .tc main_v0_2) : S8192x1.Idx → EReal) Facts₀.shapeCasts_S8192x1_S1x8192 i := by
    after_results; rfl
  rw [e]
  refine shapeCast_apply _ _ (ix2 (0 : Fin 1) j) (ix2 j (0 : Fin 1)) ?_
  rw [Shape.rowMajor_val_two, Shape.rowMajor_val_two]
  show j.val * 1 + 0 = 0 * 8192 + j.val
  omega

/-- The bias row at (0, r) is the bias vector at r. -/
theorem reshape_v2_at (Vv : Valuation τ sig (Elt Ideal)) (r : Fin 128) :
    (StableHlo.after (hostOps1 (F := Ideal)) Vv (Proc.devRef .tc main_v2) : S1x128.Idx → EReal) (ix2 (0 : Fin 1) r)
      = (Vv (Proc.devRef .tc main_arg4) : S128.Idx → EReal) (ix1 r) := by
  have e : StableHlo.after (hostOps1 (F := Ideal)) Vv (Proc.devRef .tc main_v2)
      = fun i => shapeCast S1x128 (Vv (Proc.devRef .tc main_arg4) : S128.Idx → EReal) Facts₀.shapeCasts_S128_S1x128 i := by
    after_results; rfl
  rw [e]
  refine shapeCast_apply _ _ (ix2 (0 : Fin 1) r) (ix1 r) ?_
  rw [Shape.rowMajor_val_one, Shape.rowMajor_val_two]
  show r.val = 0 * 128 + r.val
  omega

/-! ## The second region's result in terms of the five arrays it reads -/

/-- What the aggregation leaves in the result array, as a function of the projected features, the graph-convolution
    features, the column and the row of norms and the bias row: for every row i and column r, the eight blocks'
    sums of (clamped cosine similarity of rows i and j) · (feature of row j), scaled by 2⁻¹³, plus the bias. -/
abbrev aggOf (XP HH : S8192x128.Idx → EReal) (NR : S8192x1.Idx → EReal) (NRT : S1x8192.Idx → EReal) (GB : S1x128.Idx → EReal) :
    S8192x128.Idx → EReal := fun o =>
  (∑ J : Fin 8, ∑ j : Fin 1024,
      Ideal.div (∑ q : Fin 128, XP (ix2 (o 0) q) * XP (ix2 (composeRow J j) q))
          (max (NR (ix2 (o 0) (0 : Fin 1)) * NRT (ix2 (0 : Fin 1) (composeRow J j))) (Ideal.ofBits .f32 0x322BCC77#32))
        * HH (ix2 (composeRow J j) (o 1)))
    * Ideal.ofBits .f32 0x39000000#32 + GB (ix2 (0 : Fin 1) (o 1))

/-- With the first region's three arrays the specification's xp, hh and nrm, the row of norms the column's
    transpose and the bias row the bias vector, the aggregate is the specification. -/
theorem aggOf_eq_G (x : Cert.Spec.SX.Idx → EReal) (w1 : Cert.Spec.SW1.Idx → EReal) (w2 gw : Cert.Spec.SW2.Idx → EReal)
    (gb : Cert.Spec.SB.Idx → EReal)
    (XP HH : S8192x128.Idx → EReal) (NR : S8192x1.Idx → EReal) (NRT : S1x8192.Idx → EReal) (GB : S1x128.Idx → EReal)
    (hXP : ∀ (i : Fin 8192) (q : Fin 128), XP (ix2 i q) = Cert.Spec.xp x w1 w2 i q)
    (hHH : ∀ (j : Fin 8192) (r : Fin 128), HH (ix2 j r) = Cert.Spec.hh x gw j r)
    (hNR : ∀ i : Fin 8192, NR (ix2 i (0 : Fin 1)) = Cert.Spec.nrm x w1 w2 i)
    (hNRT : ∀ j : Fin 8192, NRT (ix2 (0 : Fin 1) j) = Cert.Spec.nrm x w1 w2 j)
    (hGB : ∀ r : Fin 128, GB (ix2 (0 : Fin 1) r) = gb (ix1 r)) :
    aggOf XP HH NR NRT GB = Cert.Spec.G x w1 w2 gw gb := by
  funext o
  obtain ⟨i, r, rfl⟩ : ∃ (i : Fin 8192) (r : Fin 128), o = ix2 i r := ⟨o 0, o 1, eq_ix2 o⟩
  show (∑ J : Fin 8, ∑ j : Fin 1024,
      Ideal.div (∑ q : Fin 128, XP (ix2 i q) * XP (ix2 (composeRow J j) q))
          (max (NR (ix2 i (0 : Fin 1)) * NRT (ix2 (0 : Fin 1) (composeRow J j))) (Ideal.ofBits .f32 0x322BCC77#32))
        * HH (ix2 (composeRow J j) r))
    * Ideal.ofBits .f32 0x39000000#32 + GB (ix2 (0 : Fin 1) r)
    = (∑ j : Fin 8192, Cert.Spec.sim x w1 w2 i j * Cert.Spec.hh x gw j r) * Cert.Spec.invW + gb (ix1 r)
  rw [← sum_row_blocks (fun j => Cert.Spec.sim x w1 w2 i j * Cert.Spec.hh x gw j r), hGB r]
  refine congrArg (fun s => s * Cert.Spec.invW + gb (ix1 r)) ?_
  refine Finset.sum_congr rfl fun J _ => Finset.sum_congr rfl fun j _ => ?_
  rw [hNR, hNRT, hHH, Finset.sum_congr rfl fun q _ => by rw [hXP i q, hXP (composeRow J j) q]]
  rfl

/-! ## The composition -/

/-- The idealized kernel's result array is the specification of the launch arguments, given what each region's
    write-backs leave in its output arrays. -/
theorem result_G_of
    (h4 : ∀ (V : (c : Dev nD) → (b : Ref sig .tc) → Buf (Elt Ideal) ((c : Thread nD τ).loc b)) (c : Dev nD), (dat0 (F := Ideal) V c).arrAt 4 cfg0.N
      = (fun o : S8192x128.Idx => Cert.Spec.xp (V c main_arg0 : Cert.Spec.SX.Idx → EReal) (V c main_arg1 : Cert.Spec.SW1.Idx → EReal)
          (V c main_arg2 : Cert.Spec.SW2.Idx → EReal) (o 0) (o 1)))
    (h5 : ∀ (V : (c : Dev nD) → (b : Ref sig .tc) → Buf (Elt Ideal) ((c : Thread nD τ).loc b)) (c : Dev nD), (dat0 (F := Ideal) V c).arrAt 5 cfg0.N
      = (fun o : S8192x128.Idx => Cert.Spec.hh (V c main_arg0 : Cert.Spec.SX.Idx → EReal) (V c main_arg3 : Cert.Spec.SW2.Idx → EReal)
          (o 0) (o 1)))
    (h6 : ∀ (V : (c : Dev nD) → (b : Ref sig .tc) → Buf (Elt Ideal) ((c : Thread nD τ).loc b)) (c : Dev nD), (dat0 (F := Ideal) V c).arrAt 6 cfg0.N
      = (fun o : S8192x1.Idx => Cert.Spec.nrm (V c main_arg0 : Cert.Spec.SX.Idx → EReal) (V c main_arg1 : Cert.Spec.SW1.Idx → EReal)
          (V c main_arg2 : Cert.Spec.SW2.Idx → EReal) (o 0)))
    (h1 : ∀ (V : (c : Dev nD) → (b : Ref sig .tc) → Buf (Elt Ideal) ((c : Thread nD τ).loc b)) (c : Dev nD), (dat1 (F := Ideal) V c).arrAt 6 cfg1.N
      = aggOf (V c main_v0_0) (V c main_v0_1) (V c main_v0_2) (V c main_v1) (V c main_v2))
    (m : (ℓ : Loc nD τ sig) → Buf (Elt Ideal) ℓ) (ρ : Dev nD → PrngReg) (c : Dev nD) :
    (dat1 (F := Ideal) (U2 m ρ) c).arrAt 6 cfg1.N
      = Cert.Spec.G (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  -- the first region's three output arrays, as the second region finds them after the reshapes
  have eXP : U2 m ρ c main_v0_0 = _ :=
    (hostOps1_keeps c main_v0_0 (by decide) _).trans ((W1_arr m ρ c 4).trans (h4 (U0 m ρ) c))
  have eHH : U2 m ρ c main_v0_1 = _ :=
    (hostOps1_keeps c main_v0_1 (by decide) _).trans ((W1_arr m ρ c 5).trans (h5 (U0 m ρ) c))
  have eNR : U2 m ρ c main_v0_2 = _ :=
    (hostOps1_keeps c main_v0_2 (by decide) _).trans ((W1_arr m ρ c 6).trans (h6 (U0 m ρ) c))
  have eNR1 : W1 m ρ c (Proc.devRef .tc main_v0_2) = _ := (W1_arr m ρ c 6).trans (h6 (U0 m ρ) c)
  rw [h1 (U2 m ρ) c]
  refine aggOf_eq_G _ _ _ _ _ _ _ _ _ _ (fun i q => ?_) (fun j r => ?_) (fun i => ?_) (fun j => ?_) (fun r => ?_)
  · exact congrFun eXP (ix2 i q)
  · exact congrFun eHH (ix2 j r)
  · exact congrFun eNR (ix2 i (0 : Fin 1))
  · exact (reshape_v1_at (W1 m ρ c) j).trans (congrFun eNR1 (ix2 j (0 : Fin 1)))
  · exact (reshape_v2_at (W1 m ρ c) r).trans (congrFun (W1_of_ne m ρ c main_arg4 (by decide)) (ix1 r))

end Cert.KernelIdeal.HandValue

end
-- ==== Proof.PayValue0.lean ====
/-
  The first kernel's arithmetic at an index, on the extended reals: the projected features, the graph-convolution
  features and the row norms, each as a sum over coordinates.
-/
import proofs.«130529_j59725815218593_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PayValue

open Idealize.ShloMosaic Idealize.ShloMosaic.ValueIdx Cert.KernelIdeal Cert.KernelIdeal.Gen

/-! ## The first kernel's payloads read at an index

At the extended reals every format change is the identity, a matrix product into the zero splat is the sum over the
contracted coordinate, and the lane sum of a row is the sum over the row's 128 coordinates. -/

/-- The product's index maps, coordinate by coordinate: the left operand is read at (row, contracted), the right at
    (contracted, column). -/
theorem mm_x_w1_lhs0 (i : S1024x512.Idx) (q : dot_S1024x512_S512x512_S1024x512_1_0_0_1_n_n.contr.Idx) :
    (dot_S1024x512_S512x512_S1024x512_1_0_0_1_n_n.lhsIdx i q 0).val = (i 0).val := by
  unfold DotDims.lhsIdx
  rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
  rfl
theorem mm_x_w1_lhs1 (i : S1024x512.Idx) (q : dot_S1024x512_S512x512_S1024x512_1_0_0_1_n_n.contr.Idx) :
    (dot_S1024x512_S512x512_S1024x512_1_0_0_1_n_n.lhsIdx i q 1).val = (q ⟨0, by decide⟩).val :=
  dot_S1024x512_S512x512_S1024x512_1_0_0_1_n_n.lhsIdx_val_of_single rfl i q
theorem mm_x_w1_rhs0 (i : S1024x512.Idx) (q : dot_S1024x512_S512x512_S1024x512_1_0_0_1_n_n.contr.Idx) :
    (dot_S1024x512_S512x512_S1024x512_1_0_0_1_n_n.rhsIdx i q 0).val = (q ⟨0, by decide⟩).val :=
  dot_S1024x512_S512x512_S1024x512_1_0_0_1_n_n.rhsIdx_val_of_single rfl i q
theorem mm_x_w1_rhs1 (i : S1024x512.Idx) (q : dot_S1024x512_S512x512_S1024x512_1_0_0_1_n_n.contr.Idx) :
    (dot_S1024x512_S512x512_S1024x512_1_0_0_1_n_n.rhsIdx i q 1).val = (i 1).val := by
  unfold DotDims.rhsIdx
  rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
  rfl
/-- A [1024, 512] × [512, 512] product into the zero splat, read at (p, c): the sum over the 512 contracted coordinates. -/
theorem mm_x_w1 {φ₁ φ₂ : FTy} (a : FVec Ideal S1024x512 φ₁) (b : FVec Ideal S512x512 φ₂) (p : Fin 1024) (c : Fin 512) :
    matmul (F := Ideal) dot_S1024x512_S512x512_S1024x512_1_0_0_1_n_n none a b (constant (F := Ideal) S1024x512 .f32 0x00000000#32) (ix2 p c)
      = ∑ d : Fin 512, a (ix2 p d) * b (ix2 d c) := by
  simp only [matmul]
  rw [Ideal.matmul_constant_zero_apply, ← Equiv.sum_comp (contrEquiv1 dot_S1024x512_S512x512_S1024x512_1_0_0_1_n_n 512 rfl rfl).symm]
  refine Finset.sum_congr rfl fun d _ => ?_
  have hd := contrEquiv1_symm_val dot_S1024x512_S512x512_S1024x512_1_0_0_1_n_n 512 rfl rfl d
  have el : dot_S1024x512_S512x512_S1024x512_1_0_0_1_n_n.lhsIdx (ix2 p c) ((contrEquiv1 dot_S1024x512_S512x512_S1024x512_1_0_0_1_n_n 512 rfl rfl).symm d) = ix2 p d :=
    funext fun ax => Fin.ext (by
      match ax with
      | ⟨0, _⟩ => exact mm_x_w1_lhs0 _ _
      | ⟨1, _⟩ => exact (mm_x_w1_lhs1 _ _).trans hd)
  have er : dot_S1024x512_S512x512_S1024x512_1_0_0_1_n_n.rhsIdx (ix2 p c) ((contrEquiv1 dot_S1024x512_S512x512_S1024x512_1_0_0_1_n_n 512 rfl rfl).symm d) = ix2 d c :=
    funext fun ax => Fin.ext (by
      match ax with
      | ⟨0, _⟩ => exact (mm_x_w1_rhs0 _ _).trans hd
      | ⟨1, _⟩ => exact mm_x_w1_rhs1 _ _)
  rw [el, er]

/-- The product's index maps, coordinate by coordinate: the left operand is read at (row, contracted), the right at
    (contracted, column). -/
theorem mm_h_w2_lhs0 (i : S1024x128.Idx) (q : dot_S1024x512_S512x128_S1024x128_1_0_0_1_n_n.contr.Idx) :
    (dot_S1024x512_S512x128_S1024x128_1_0_0_1_n_n.lhsIdx i q 0).val = (i 0).val := by
  unfold DotDims.lhsIdx
  rw [dif_neg (show ¬(0 : Fin S1024x512.rank) ∈ dot_S1024x512_S512x128_S1024x128_1_0_0_1_n_n.lhsBatch by decide), dif_pos (show (0 : Fin S1024x512.rank) ∈ dot_S1024x512_S512x128_S1024x128_1_0_0_1_n_n.lhsNonContracting by decide)]
  rfl
theorem mm_h_w2_lhs1 (i : S1024x128.Idx) (q : dot_S1024x512_S512x128_S1024x128_1_0_0_1_n_n.contr.Idx) :
    (dot_S1024x512_S512x128_S1024x128_1_0_0_1_n_n.lhsIdx i q 1).val = (q ⟨0, by decide⟩).val :=
  dot_S1024x512_S512x128_S1024x128_1_0_0_1_n_n.lhsIdx_val_of_single rfl i q
theorem mm_h_w2_rhs0 (i : S1024x128.Idx) (q : dot_S1024x512_S512x128_S1024x128_1_0_0_1_n_n.contr.Idx) :
    (dot_S1024x512_S512x128_S1024x128_1_0_0_1_n_n.rhsIdx i q 0).val = (q ⟨0, by decide⟩).val :=
  dot_S1024x512_S512x128_S1024x128_1_0_0_1_n_n.rhsIdx_val_of_single rfl i q
theorem mm_h_w2_rhs1 (i : S1024x128.Idx) (q : dot_S1024x512_S512x128_S1024x128_1_0_0_1_n_n.contr.Idx) :
    (dot_S1024x512_S512x128_S1024x128_1_0_0_1_n_n.rhsIdx i q 1).val = (i 1).val := by
  unfold DotDims.rhsIdx
  rw [dif_neg (show ¬(1 : Fin S512x128.rank) ∈ dot_S1024x512_S512x128_S1024x128_1_0_0_1_n_n.rhsBatch by decide), dif_pos (show (1 : Fin S512x128.rank) ∈ dot_S1024x512_S512x128_S1024x128_1_0_0_1_n_n.rhsNonContracting by decide)]
  rfl
/-- A [1024, 512] × [512, 128] product into the zero splat, read at (p, c): the sum over the 512 contracted coordinates. -/
theorem mm_h_w2 {φ₁ φ₂ : FTy} (a : FVec Ideal S1024x512 φ₁) (b : FVec Ideal S512x128 φ₂) (p : Fin 1024) (c : Fin 128) :
    matmul (F := Ideal) dot_S1024x512_S512x128_S1024x128_1_0_0_1_n_n none a b (constant (F := Ideal) S1024x128 .f32 0x00000000#32) (ix2 p c)
      = ∑ d : Fin 512, a (ix2 p d) * b (ix2 d c) := by
  simp only [matmul]
  rw [Ideal.matmul_constant_zero_apply, ← Equiv.sum_comp (contrEquiv1 dot_S1024x512_S512x128_S1024x128_1_0_0_1_n_n 512 rfl rfl).symm]
  refine Finset.sum_congr rfl fun d _ => ?_
  have hd := contrEquiv1_symm_val dot_S1024x512_S512x128_S1024x128_1_0_0_1_n_n 512 rfl rfl d
  have el : dot_S1024x512_S512x128_S1024x128_1_0_0_1_n_n.lhsIdx (ix2 p c) ((contrEquiv1 dot_S1024x512_S512x128_S1024x128_1_0_0_1_n_n 512 rfl rfl).symm d) = ix2 p d :=
    funext fun ax => Fin.ext (by
      match ax with
      | ⟨0, _⟩ => exact mm_h_w2_lhs0 _ _
      | ⟨1, _⟩ => exact (mm_h_w2_lhs1 _ _).trans hd)
  have er : dot_S1024x512_S512x128_S1024x128_1_0_0_1_n_n.rhsIdx (ix2 p c) ((contrEquiv1 dot_S1024x512_S512x128_S1024x128_1_0_0_1_n_n 512 rfl rfl).symm d) = ix2 d c :=
    funext fun ax => Fin.ext (by
      match ax with
      | ⟨0, _⟩ => exact (mm_h_w2_rhs0 _ _).trans hd
      | ⟨1, _⟩ => exact mm_h_w2_rhs1 _ _)
  rw [el, er]

/-- A vector [a] cast to the column [a, 1] reads, at (i, z), the vector at i: both have row-major position i. -/
theorem shapeCast_a_a1_apply {α : Type} {a : ℕ} (x : (⟨1, ![a]⟩ : Shape).Idx → α)
    (h : (⟨1, ![a]⟩ : Shape).ShapeCasts ⟨2, ![a, 1]⟩) (i : Fin a) (z : Fin 1) :
    shapeCast ⟨2, ![a, 1]⟩ x h (ix2 i z) = x (ix1 i) :=
  shapeCast_apply x h _ _ (by
    have hz : z.val = 0 := by omega
    rw [Shape.rowMajor_val_two, Shape.rowMajor_val_one]
    show i.val = i.val * 1 + z.val
    rw [hz, Nat.mul_one, Nat.add_zero])

/-- The lane sum of a [1024, 128] matrix, read at row p: the sum over the row's 128 coordinates. -/
theorem rowSum_apply (v : FVec Ideal S1024x128 .f32) (hacc : (0x00000000#32 : BitVec 32) = 0x00000000#32) (p : Fin 1024) :
    multiReduction (F := Ideal) .add [1] S1024 v 0x00000000#32 reduces_S1024x128_S1024 (.inl rfl) hacc (ix1 p)
      = ∑ q : Fin 128, v (ix2 p q) := by
  refine (Ideal.multiReduction_add_single v 0x00000000#32 reduces_S1024x128_S1024 (.inl rfl) hacc (ix1 p)).trans ?_
  refine Finset.sum_congr rfl fun q _ => congrArg v (funext fun ax => Fin.ext ?_)
  match ax with
  | ⟨0, _⟩ => rfl
  | ⟨1, _⟩ => rfl

/-- The projected features: the hidden layer max (x · w1) 0 times w2. -/
theorem pay2_apply (x0 : Vec Ideal S1024x512 .f32) (w1 : Vec Ideal S512x512 .f32) (w2 : Vec Ideal S512x128 .f32)
    (p : Fin 1024) (q : Fin 128) :
    k0_pay2 x0 w1 w2 (ix2 p q)
      = ∑ k : Fin 512, max (∑ d : Fin 512, x0 (ix2 p d) * w1 (ix2 d k)) (Ideal.ofBits .f32 0x00000000#32) * w2 (ix2 k q) := by
  unfold k0_pay2 k0_pay1
  refine (mm_h_w2 _ _ p q).trans ?_
  refine Finset.sum_congr rfl fun k _ => ?_
  refine congrArg (fun t => max t (Ideal.ofBits .f32 0x00000000#32) * w2 (ix2 k q)) ?_
  exact mm_x_w1 _ _ p k

/-- The stored projected features are the computed ones: the change of format is the identity. -/
theorem pay4_apply (x0 : Vec Ideal S1024x512 .f32) (w1 : Vec Ideal S512x512 .f32) (w2 : Vec Ideal S512x128 .f32)
    (p : Fin 1024) (q : Fin 128) :
    k0_pay4 x0 w1 w2 (ix2 p q) = k0_pay2 x0 w1 w2 (ix2 p q) := rfl

/-- The graph-convolution features x · gw. -/
theorem pay5_apply (x0 : Vec Ideal S1024x512 .f32) (gw : Vec Ideal S512x128 .f32) (p : Fin 1024) (q : Fin 128) :
    k0_pay5 x0 gw (ix2 p q) = ∑ d : Fin 512, x0 (ix2 p d) * gw (ix2 d q) := by
  unfold k0_pay5 k0_pay1
  exact mm_h_w2 _ _ p q

/-- The row norms: the square root of the row's sum of squares. -/
theorem pay3_apply (x0 : Vec Ideal S1024x512 .f32) (w1 : Vec Ideal S512x512 .f32) (w2 : Vec Ideal S512x128 .f32)
    (p : Fin 1024) (z : Fin 1) :
    k0_pay3 x0 w1 w2 (ix2 p z)
      = Ideal.sqrt (∑ q : Fin 128, k0_pay2 x0 w1 w2 (ix2 p q) * k0_pay2 x0 w1 w2 (ix2 p q)) := by
  unfold k0_pay3
  refine congrArg Ideal.sqrt ?_
  refine (shapeCast_a_a1_apply _ _ p z).trans ?_
  exact rowSum_apply _ rfl p

end Cert.KernelIdeal.PayValue

end
-- ==== Proof.PayValue1.lean ====
/-
  The second kernel's arithmetic at an index, on the extended reals: the zero start, one accumulation step of the
  similarity-weighted aggregate, and the final scale and bias.
-/
import proofs.«130529_j59725815218593_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PayValue

open Idealize.ShloMosaic Idealize.ShloMosaic.ValueIdx Cert.KernelIdeal Cert.KernelIdeal.Gen

/-! ## The second kernel's payloads read at an index

The accumulator starts at zero, each step adds the similarity block times the feature block, and the last step scales
the accumulator by 2⁻¹³ and adds the bias row. -/

/-- The product's index maps, coordinate by coordinate: the left operand is read at (row, contracted), the right at
    (contracted, column). -/
theorem mm_xi_xjT_lhs0 (i : S1024x1024.Idx) (q : dot_S1024x128_S128x1024_S1024x1024_1_0_0_1_n_n.contr.Idx) :
    (dot_S1024x128_S128x1024_S1024x1024_1_0_0_1_n_n.lhsIdx i q 0).val = (i 0).val := by
  unfold DotDims.lhsIdx
  rw [dif_neg (show ¬(0 : Fin S1024x128.rank) ∈ dot_S1024x128_S128x1024_S1024x1024_1_0_0_1_n_n.lhsBatch by decide), dif_pos (show (0 : Fin S1024x128.rank) ∈ dot_S1024x128_S128x1024_S1024x1024_1_0_0_1_n_n.lhsNonContracting by decide)]
  rfl
theorem mm_xi_xjT_lhs1 (i : S1024x1024.Idx) (q : dot_S1024x128_S128x1024_S1024x1024_1_0_0_1_n_n.contr.Idx) :
    (dot_S1024x128_S128x1024_S1024x1024_1_0_0_1_n_n.lhsIdx i q 1).val = (q ⟨0, by decide⟩).val :=
  dot_S1024x128_S128x1024_S1024x1024_1_0_0_1_n_n.lhsIdx_val_of_single rfl i q
theorem mm_xi_xjT_rhs0 (i : S1024x1024.Idx) (q : dot_S1024x128_S128x1024_S1024x1024_1_0_0_1_n_n.contr.Idx) :
    (dot_S1024x128_S128x1024_S1024x1024_1_0_0_1_n_n.rhsIdx i q 0).val = (q ⟨0, by decide⟩).val :=
  dot_S1024x128_S128x1024_S1024x1024_1_0_0_1_n_n.rhsIdx_val_of_single rfl i q
theorem mm_xi_xjT_rhs1 (i : S1024x1024.Idx) (q : dot_S1024x128_S128x1024_S1024x1024_1_0_0_1_n_n.contr.Idx) :
    (dot_S1024x128_S128x1024_S1024x1024_1_0_0_1_n_n.rhsIdx i q 1).val = (i 1).val := by
  unfold DotDims.rhsIdx
  rw [dif_neg (show ¬(1 : Fin S128x1024.rank) ∈ dot_S1024x128_S128x1024_S1024x1024_1_0_0_1_n_n.rhsBatch by decide), dif_pos (show (1 : Fin S128x1024.rank) ∈ dot_S1024x128_S128x1024_S1024x1024_1_0_0_1_n_n.rhsNonContracting by decide)]
  rfl
/-- A [1024, 128] × [128, 1024] product into the zero splat, read at (p, c): the sum over the 128 contracted coordinates. -/
theorem mm_xi_xjT {φ₁ φ₂ : FTy} (a : FVec Ideal S1024x128 φ₁) (b : FVec Ideal S128x1024 φ₂) (p : Fin 1024) (c : Fin 1024) :
    matmul (F := Ideal) dot_S1024x128_S128x1024_S1024x1024_1_0_0_1_n_n none a b (constant (F := Ideal) S1024x1024 .f32 0x00000000#32) (ix2 p c)
      = ∑ d : Fin 128, a (ix2 p d) * b (ix2 d c) := by
  simp only [matmul]
  rw [Ideal.matmul_constant_zero_apply, ← Equiv.sum_comp (contrEquiv1 dot_S1024x128_S128x1024_S1024x1024_1_0_0_1_n_n 128 rfl rfl).symm]
  refine Finset.sum_congr rfl fun d _ => ?_
  have hd := contrEquiv1_symm_val dot_S1024x128_S128x1024_S1024x1024_1_0_0_1_n_n 128 rfl rfl d
  have el : dot_S1024x128_S128x1024_S1024x1024_1_0_0_1_n_n.lhsIdx (ix2 p c) ((contrEquiv1 dot_S1024x128_S128x1024_S1024x1024_1_0_0_1_n_n 128 rfl rfl).symm d) = ix2 p d :=
    funext fun ax => Fin.ext (by
      match ax with
      | ⟨0, _⟩ => exact mm_xi_xjT_lhs0 _ _
      | ⟨1, _⟩ => exact (mm_xi_xjT_lhs1 _ _).trans hd)
  have er : dot_S1024x128_S128x1024_S1024x1024_1_0_0_1_n_n.rhsIdx (ix2 p c) ((contrEquiv1 dot_S1024x128_S128x1024_S1024x1024_1_0_0_1_n_n 128 rfl rfl).symm d) = ix2 d c :=
    funext fun ax => Fin.ext (by
      match ax with
      | ⟨0, _⟩ => exact (mm_xi_xjT_rhs0 _ _).trans hd
      | ⟨1, _⟩ => exact mm_xi_xjT_rhs1 _ _)
  rw [el, er]

/-- The product's index maps, coordinate by coordinate: the left operand is read at (row, contracted), the right at
    (contracted, column). -/
theorem mm_s_h_lhs0 (i : S1024x128.Idx) (q : dot_S1024x1024_S1024x128_S1024x128_1_0_0_1_n_n.contr.Idx) :
    (dot_S1024x1024_S1024x128_S1024x128_1_0_0_1_n_n.lhsIdx i q 0).val = (i 0).val := by
  unfold DotDims.lhsIdx
  rw [dif_neg (show ¬(0 : Fin S1024x1024.rank) ∈ dot_S1024x1024_S1024x128_S1024x128_1_0_0_1_n_n.lhsBatch by decide), dif_pos (show (0 : Fin S1024x1024.rank) ∈ dot_S1024x1024_S1024x128_S1024x128_1_0_0_1_n_n.lhsNonContracting by decide)]
  rfl
theorem mm_s_h_lhs1 (i : S1024x128.Idx) (q : dot_S1024x1024_S1024x128_S1024x128_1_0_0_1_n_n.contr.Idx) :
    (dot_S1024x1024_S1024x128_S1024x128_1_0_0_1_n_n.lhsIdx i q 1).val = (q ⟨0, by decide⟩).val :=
  dot_S1024x1024_S1024x128_S1024x128_1_0_0_1_n_n.lhsIdx_val_of_single rfl i q
theorem mm_s_h_rhs0 (i : S1024x128.Idx) (q : dot_S1024x1024_S1024x128_S1024x128_1_0_0_1_n_n.contr.Idx) :
    (dot_S1024x1024_S1024x128_S1024x128_1_0_0_1_n_n.rhsIdx i q 0).val = (q ⟨0, by decide⟩).val :=
  dot_S1024x1024_S1024x128_S1024x128_1_0_0_1_n_n.rhsIdx_val_of_single rfl i q
theorem mm_s_h_rhs1 (i : S1024x128.Idx) (q : dot_S1024x1024_S1024x128_S1024x128_1_0_0_1_n_n.contr.Idx) :
    (dot_S1024x1024_S1024x128_S1024x128_1_0_0_1_n_n.rhsIdx i q 1).val = (i 1).val := by
  unfold DotDims.rhsIdx
  rw [dif_neg (show ¬(1 : Fin S1024x128.rank) ∈ dot_S1024x1024_S1024x128_S1024x128_1_0_0_1_n_n.rhsBatch by decide), dif_pos (show (1 : Fin S1024x128.rank) ∈ dot_S1024x1024_S1024x128_S1024x128_1_0_0_1_n_n.rhsNonContracting by decide)]
  rfl
/-- A [1024, 1024] × [1024, 128] product into the zero splat, read at (p, c): the sum over the 1024 contracted coordinates. -/
theorem mm_s_h {φ₁ φ₂ : FTy} (a : FVec Ideal S1024x1024 φ₁) (b : FVec Ideal S1024x128 φ₂) (p : Fin 1024) (c : Fin 128) :
    matmul (F := Ideal) dot_S1024x1024_S1024x128_S1024x128_1_0_0_1_n_n none a b (constant (F := Ideal) S1024x128 .f32 0x00000000#32) (ix2 p c)
      = ∑ d : Fin 1024, a (ix2 p d) * b (ix2 d c) := by
  simp only [matmul]
  rw [Ideal.matmul_constant_zero_apply, ← Equiv.sum_comp (contrEquiv1 dot_S1024x1024_S1024x128_S1024x128_1_0_0_1_n_n 1024 rfl rfl).symm]
  refine Finset.sum_congr rfl fun d _ => ?_
  have hd := contrEquiv1_symm_val dot_S1024x1024_S1024x128_S1024x128_1_0_0_1_n_n 1024 rfl rfl d
  have el : dot_S1024x1024_S1024x128_S1024x128_1_0_0_1_n_n.lhsIdx (ix2 p c) ((contrEquiv1 dot_S1024x1024_S1024x128_S1024x128_1_0_0_1_n_n 1024 rfl rfl).symm d) = ix2 p d :=
    funext fun ax => Fin.ext (by
      match ax with
      | ⟨0, _⟩ => exact mm_s_h_lhs0 _ _
      | ⟨1, _⟩ => exact (mm_s_h_lhs1 _ _).trans hd)
  have er : dot_S1024x1024_S1024x128_S1024x128_1_0_0_1_n_n.rhsIdx (ix2 p c) ((contrEquiv1 dot_S1024x1024_S1024x128_S1024x128_1_0_0_1_n_n 1024 rfl rfl).symm d) = ix2 d c :=
    funext fun ax => Fin.ext (by
      match ax with
      | ⟨0, _⟩ => exact (mm_s_h_rhs0 _ _).trans hd
      | ⟨1, _⟩ => exact mm_s_h_rhs1 _ _)
  rw [el, er]

/-- A column [a, 1] broadcast to [a, b] reads, at (p, c), the column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The accumulator's first value is zero. -/
theorem k1_pay1_apply (p : Fin 1024) (r : Fin 128) : k1_pay1 (F := Ideal) (ix2 p r) = 0 := by
  unfold k1_pay1
  rw [shapeCast_self]
  exact Ideal.ofBits_zero_f32

/-- One accumulation step: the accumulator plus the clamped cosine similarities of row p with the block's rows, times
    the block's features. -/
theorem k1_pay2_apply (xi xj : Vec Ideal S1024x128 .bf16) (ni : Vec Ideal S1024x1 .f32) (nj : Vec Ideal S1x1024 .f32)
    (acc : Vec Ideal S1024x128 .f32) (hj : Vec Ideal S1024x128 .bf16) (p : Fin 1024) (r : Fin 128) :
    k1_pay2 xi xj ni nj acc hj (ix2 p r)
      = acc (ix2 p r) + ∑ j : Fin 1024, Ideal.div (∑ q : Fin 128, xi (ix2 p q) * xj (ix2 j q))
          (max (ni (ix2 p 0) * nj (ix2 0 j)) (Ideal.ofBits .f32 0x322BCC77#32)) * hj (ix2 j r) := by
  unfold k1_pay2
  simp only [shapeCast_self]
  refine congrArg (fun t => acc (ix2 p r) + t) ?_
  refine (mm_s_h (φ₁ := .bf16) (φ₂ := .bf16) _ hj p r).trans ?_
  refine Finset.sum_congr rfl fun j _ => ?_
  refine congrArg (fun t => t * hj (ix2 j r)) ?_
  refine congrArg₂ Ideal.div ?_ ?_
  · refine (mm_xi_xjT (φ₁ := .bf16) (φ₂ := .bf16) xi _ p j).trans ?_
    refine Finset.sum_congr rfl fun q _ => ?_
    exact congrArg (fun t => xi (ix2 p q) * t) (transpose_ix2_apply xj _ q j)
  · refine congrArg (fun t => max t (Ideal.ofBits .f32 0x322BCC77#32)) ?_
    exact congrArg₂ (· * ·) (broadcastTo_a1_ab_apply ni _ p j) (broadcastTo_1b_ab_apply nj _ p j)

/-- The last step: the accumulator scaled by 2⁻¹³ plus the bias row. -/
theorem k1_pay3_apply (acc : Vec Ideal S1024x128 .f32) (gb : Vec Ideal S1x128 .f32) (p : Fin 1024) (r : Fin 128) :
    k1_pay3 acc gb (ix2 p r) = acc (ix2 p r) * Ideal.ofBits .f32 0x39000000#32 + gb (ix2 0 r) := by
  unfold k1_pay3
  rw [shapeCast_self]
  exact congrArg (fun t => acc (ix2 p r) * Ideal.ofBits .f32 0x39000000#32 + t) (broadcastTo_1b_ab_apply gb _ p r)

end Cert.KernelIdeal.PayValue

end
-- ==== Proof.PayValue.lean ====
/-
  The two kernels' arithmetic at an index, on the extended reals: the first kernel's projected features, graph-convolution
  features and row norms (PayValue0), and the second kernel's zero start, accumulation step and final scale and bias
  (PayValue1).
-/
import proofs.«130529_j59725815218593_1_alg».proof.Proof.PayValue0
import proofs.«130529_j59725815218593_1_alg».proof.Proof.PayValue1
-- ==== Proof.KiValue0.lean ====
/-
  What the first kernel region leaves in its three output arrays, on the extended reals: the projected features, the
  graph-convolution features and the row norms of every row of x, as the functions of the argument arrays that the
  specification names. Point t of the grid writes rows 1024·t … 1024·t + 1023; the eight blocks cover the arrays.
-/
import proofs.«130529_j59725815218593_1_alg».proof.Proof.KiRegion0
import proofs.«130529_j59725815218593_1_alg».proof.Proof.PayValue
import proofs.«130529_j59725815218593_1_alg».proof.Proof.Spec
import Idealize.ShloMosaic.Lib.Pipeline.Value

set_option maxRecDepth 16384

noncomputable section

open scoped BigOperators

namespace Cert.KernelIdeal.HandValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand Cert.KernelIdeal.PayValue

variable (V : (c : Dev nD) → (b : Ref sig .tc) → Buf (Elt Ideal) ((c : Thread nD τ).loc b))

/-- The whole-buffer rectangles' offsets are zero. -/
theorem hz : (![0, 0] : Fin 2 → Nat) = fun _ => 0 := funext fun a => by fin_cases a <;> rfl

/-- The printed index maps, decided over the grid: at point t the row-block windows (x and the three outputs) are at
    block (t, 0), the weight windows at block (0, 0). -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-! ## The input blocks as parts of the argument arrays -/

/-- Block t of x is rows 1024·t … 1024·t + 1023 of x. -/
theorem blk_x_apply (c : Dev nD) (t : Fin cfg0.N) (p : Fin 1024) (d : Fin 512) (P : Fin 8192) (hP : P.val = t.val * 1024 + p.val) :
    (blk0 V c 0 t : S1024x512.Idx → EReal) (ix2 p d) = (V c main_arg0 : S8192x512.Idx → EReal) (ix2 P d) := by
  obtain ⟨e0, e1, -⟩ := idx_facts0 t
  unfold blk0
  rw [View.read_apply]
  show V c main_arg0 _ = V c main_arg0 _
  congr 1
  funext a
  apply Fin.ext
  match a with
  | ⟨0, _⟩ => show win0_0.index t (0 : Fin 2) * 1024 + 1 * p.val = P.val; rw [e0, hP]; omega
  | ⟨1, _⟩ => show win0_0.index t (1 : Fin 2) * 512 + 1 * d.val = d.val; rw [e1]; omega

/-- The block of w1 is w1. -/
theorem blk_w1_apply (c : Dev nD) (t : Fin cfg0.N) (d : Fin 512) (k : Fin 512) :
    (blk0 V c 1 t : S512x512.Idx → EReal) (ix2 d k) = (V c main_arg1 : S512x512.Idx → EReal) (ix2 d k) := by
  obtain ⟨-, -, e0, e1, -⟩ := idx_facts0 t
  unfold blk0
  rw [View.read_apply]
  show V c main_arg1 _ = V c main_arg1 _
  congr 1
  funext a
  apply Fin.ext
  match a with
  | ⟨0, _⟩ => show win0_1.index t (0 : Fin 2) * 512 + 1 * d.val = d.val; rw [e0]; omega
  | ⟨1, _⟩ => show win0_1.index t (1 : Fin 2) * 512 + 1 * k.val = k.val; rw [e1]; omega

/-- The block of w2 is w2. -/
theorem blk_w2_apply (c : Dev nD) (t : Fin cfg0.N) (k : Fin 512) (q : Fin 128) :
    (blk0 V c 2 t : S512x128.Idx → EReal) (ix2 k q) = (V c main_arg2 : S512x128.Idx → EReal) (ix2 k q) := by
  obtain ⟨-, -, -, -, e0, e1, -⟩ := idx_facts0 t
  unfold blk0
  rw [View.read_apply]
  show V c main_arg2 _ = V c main_arg2 _
  congr 1
  funext a
  apply Fin.ext
  match a with
  | ⟨0, _⟩ => show win0_2.index t (0 : Fin 2) * 512 + 1 * k.val = k.val; rw [e0]; omega
  | ⟨1, _⟩ => show win0_2.index t (1 : Fin 2) * 128 + 1 * q.val = q.val; rw [e1]; omega

/-- The block of gw is gw. -/
theorem blk_gw_apply (c : Dev nD) (t : Fin cfg0.N) (k : Fin 512) (q : Fin 128) :
    (blk0 V c 3 t : S512x128.Idx → EReal) (ix2 k q) = (V c main_arg3 : S512x128.Idx → EReal) (ix2 k q) := by
  obtain ⟨-, -, -, -, -, -, e0, e1, -⟩ := idx_facts0 t
  unfold blk0
  rw [View.read_apply]
  show V c main_arg3 _ = V c main_arg3 _
  congr 1
  funext a
  apply Fin.ext
  match a with
  | ⟨0, _⟩ => show win0_3.index t (0 : Fin 2) * 512 + 1 * k.val = k.val; rw [e0]; omega
  | ⟨1, _⟩ => show win0_3.index t (1 : Fin 2) * 128 + 1 * q.val = q.val; rw [e1]; omega

/-! ## One row of a block's payload is one row of the whole-array function -/

/-- The projected features of block row p are those of array row P, when the block's row p of x is the array's row P
    and the weight blocks are the weights. -/
theorem xp_point (x0 : Vec Ideal S1024x512 .f32) (w1 : Vec Ideal S512x512 .f32) (w2 : Vec Ideal S512x128 .f32)
    (X : Cert.Spec.SX.Idx → EReal) (W1 : Cert.Spec.SW1.Idx → EReal) (W2 : Cert.Spec.SW2.Idx → EReal)
    (p : Fin 1024) (P : Fin 8192) (q : Fin 128)
    (hx : ∀ d : Fin 512, x0 (ix2 p d) = X (ix2 P d)) (hw1 : ∀ (d k : Fin 512), w1 (ix2 d k) = W1 (ix2 d k))
    (hw2 : ∀ (k : Fin 512) (q : Fin 128), w2 (ix2 k q) = W2 (ix2 k q)) :
    k0_pay2 x0 w1 w2 (ix2 p q) = Cert.Spec.xp X W1 W2 P q := by
  rw [pay2_apply]
  unfold Cert.Spec.xp Cert.Spec.hid
  refine Finset.sum_congr rfl fun k _ => ?_
  rw [hw2 k q]
  refine congrArg (fun s => max s (Ideal.ofBits .f32 0x00000000#32) * W2 (ix2 k q)) ?_
  exact Finset.sum_congr rfl fun d _ => by rw [hx d, hw1 d k]

/-- The graph-convolution features of block row p are those of array row P. -/
theorem hh_point (x0 : Vec Ideal S1024x512 .f32) (gw : Vec Ideal S512x128 .f32)
    (X : Cert.Spec.SX.Idx → EReal) (GW : Cert.Spec.SW2.Idx → EReal) (p : Fin 1024) (P : Fin 8192) (q : Fin 128)
    (hx : ∀ d : Fin 512, x0 (ix2 p d) = X (ix2 P d)) (hgw : ∀ (d : Fin 512) (q : Fin 128), gw (ix2 d q) = GW (ix2 d q)) :
    k0_pay5 x0 gw (ix2 p q) = Cert.Spec.hh X GW P q := by
  rw [pay5_apply]
  unfold Cert.Spec.hh
  exact Finset.sum_congr rfl fun d _ => by rw [hx d, hgw d q]

/-- The norm of block row p is the norm of array row P. -/
theorem nrm_point (x0 : Vec Ideal S1024x512 .f32) (w1 : Vec Ideal S512x512 .f32) (w2 : Vec Ideal S512x128 .f32)
    (X : Cert.Spec.SX.Idx → EReal) (W1 : Cert.Spec.SW1.Idx → EReal) (W2 : Cert.Spec.SW2.Idx → EReal)
    (p : Fin 1024) (P : Fin 8192) (z : Fin 1)
    (hx : ∀ d : Fin 512, x0 (ix2 p d) = X (ix2 P d)) (hw1 : ∀ (d k : Fin 512), w1 (ix2 d k) = W1 (ix2 d k))
    (hw2 : ∀ (k : Fin 512) (q : Fin 128), w2 (ix2 k q) = W2 (ix2 k q)) :
    k0_pay3 x0 w1 w2 (ix2 p z) = Cert.Spec.nrm X W1 W2 P := by
  rw [pay3_apply]
  unfold Cert.Spec.nrm
  refine congrArg Ideal.sqrt (Finset.sum_congr rfl fun q _ => ?_)
  rw [xp_point x0 w1 w2 X W1 W2 p P q hx hw1 hw2]

/-! ## The three output arrays as functions of the argument arrays -/

/-- The projected features of every row. -/
def G4 (c : Dev nD) : S8192x128.Idx → EReal := fun o =>
  Cert.Spec.xp (V c main_arg0 : Cert.Spec.SX.Idx → EReal) (V c main_arg1 : Cert.Spec.SW1.Idx → EReal)
    (V c main_arg2 : Cert.Spec.SW2.Idx → EReal) (o 0) (o 1)
/-- The graph-convolution features of every row. -/
def G5 (c : Dev nD) : S8192x128.Idx → EReal := fun o =>
  Cert.Spec.hh (V c main_arg0 : Cert.Spec.SX.Idx → EReal) (V c main_arg3 : Cert.Spec.SW2.Idx → EReal) (o 0) (o 1)
/-- The norm of every row. -/
def G6 (c : Dev nD) : S8192x1.Idx → EReal := fun o =>
  Cert.Spec.nrm (V c main_arg0 : Cert.Spec.SX.Idx → EReal) (V c main_arg1 : Cert.Spec.SW1.Idx → EReal)
    (V c main_arg2 : Cert.Spec.SW2.Idx → EReal) (o 0)

/-- What point t writes back through window 4 is block t of the whole-array function. -/
theorem flushed4_eq (c : Dev nD) (t : Fin cfg0.N) :
    (dat0 (F := Ideal) V c).flushed 4 t = ((cfg0.win 4).blk t).view.read (Elt Ideal) (G4 V c) := by
  show (cfg0.win 4).cut (grid0.coords t) ((dat0 V c).after 4 t) = _
  rw [after0_4]
  unfold xpOut
  rw [View.canon_unit_zero hz]
  simp only [View.ld_unit_zero (S := S1024x512) hz, View.ld_unit_zero (S := S512x512) hz, View.ld_unit_zero (S := S512x128) hz]
  funext j
  obtain ⟨p, q, rfl⟩ : ∃ (p : Fin 1024) (q : Fin 128), j = ix2 p q := ⟨j 0, j 1, eq_ix2 j⟩
  have hN : grid0.N = 8 := N_0
  have ht : t.val < 8 := by have h : t.val < grid0.N := t.isLt; omega
  have e0 : win0_4.index t (0 : Fin 2) = t.val := (idx_facts0 t).2.2.2.2.2.2.2.2.1
  have e1 : win0_4.index t (1 : Fin 2) = 0 := (idx_facts0 t).2.2.2.2.2.2.2.2.2.1
  have hemb : ((cfg0.win 4).blk t).view.emb (ix2 p q)
      = ix2 (⟨t.val * 1024 + p.val, by have := p.isLt; omega⟩ : Fin 8192) q := by
    funext a
    apply Fin.ext
    match a with
    | ⟨0, _⟩ => show win0_4.index t (0 : Fin 2) * 1024 + 1 * p.val = t.val * 1024 + p.val; rw [e0]; omega
    | ⟨1, _⟩ => show win0_4.index t (1 : Fin 2) * 128 + 1 * q.val = q.val; rw [e1]; omega
  show k0_pay4 (blk0 V c 0 t) (blk0 V c 1 t) (blk0 V c 2 t) (ix2 p q) = G4 V c (((cfg0.win 4).blk t).view.emb (ix2 p q))
  rw [hemb, pay4_apply]
  exact xp_point _ _ _ _ _ _ p _ q (fun d => blk_x_apply V c t p d _ rfl) (blk_w1_apply V c t) (blk_w2_apply V c t)

/-- What point t writes back through window 5 is block t of the whole-array function. -/
theorem flushed5_eq (c : Dev nD) (t : Fin cfg0.N) :
    (dat0 (F := Ideal) V c).flushed 5 t = ((cfg0.win 5).blk t).view.read (Elt Ideal) (G5 V c) := by
  show (cfg0.win 5).cut (grid0.coords t) ((dat0 V c).after 5 t) = _
  rw [after0_5]
  unfold hOut
  rw [View.canon_unit_zero hz]
  simp only [View.ld_unit_zero (S := S1024x512) hz, View.ld_unit_zero (S := S512x128) hz]
  funext j
  obtain ⟨p, q, rfl⟩ : ∃ (p : Fin 1024) (q : Fin 128), j = ix2 p q := ⟨j 0, j 1, eq_ix2 j⟩
  have hN : grid0.N = 8 := N_0
  have ht : t.val < 8 := by have h : t.val < grid0.N := t.isLt; omega
  have e0 : win0_5.index t (0 : Fin 2) = t.val := (idx_facts0 t).2.2.2.2.2.2.2.2.2.2.1
  have e1 : win0_5.index t (1 : Fin 2) = 0 := (idx_facts0 t).2.2.2.2.2.2.2.2.2.2.2.1
  have hemb : ((cfg0.win 5).blk t).view.emb (ix2 p q)
      = ix2 (⟨t.val * 1024 + p.val, by have := p.isLt; omega⟩ : Fin 8192) q := by
    funext a
    apply Fin.ext
    match a with
    | ⟨0, _⟩ => show win0_5.index t (0 : Fin 2) * 1024 + 1 * p.val = t.val * 1024 + p.val; rw [e0]; omega
    | ⟨1, _⟩ => show win0_5.index t (1 : Fin 2) * 128 + 1 * q.val = q.val; rw [e1]; omega
  show k0_pay5 (blk0 V c 0 t) (blk0 V c 3 t) (ix2 p q) = G5 V c (((cfg0.win 5).blk t).view.emb (ix2 p q))
  rw [hemb]
  exact hh_point _ _ _ _ p _ q (fun d => blk_x_apply V c t p d _ rfl) (blk_gw_apply V c t)

/-- What point t writes back through window 6 is block t of the whole-array function. -/
theorem flushed6_eq (c : Dev nD) (t : Fin cfg0.N) :
    (dat0 (F := Ideal) V c).flushed 6 t = ((cfg0.win 6).blk t).view.read (Elt Ideal) (G6 V c) := by
  show (cfg0.win 6).cut (grid0.coords t) ((dat0 V c).after 6 t) = _
  rw [after0_6]
  unfold nrmOut
  rw [View.canon_unit_zero hz]
  simp only [View.ld_unit_zero (S := S1024x512) hz, View.ld_unit_zero (S := S512x512) hz, View.ld_unit_zero (S := S512x128) hz]
  funext j
  obtain ⟨p, z, rfl⟩ : ∃ (p : Fin 1024) (z : Fin 1), j = ix2 p z := ⟨j 0, j 1, eq_ix2 j⟩
  have hN : grid0.N = 8 := N_0
  have ht : t.val < 8 := by have h : t.val < grid0.N := t.isLt; omega
  have e0 : win0_6.index t (0 : Fin 2) = t.val := (idx_facts0 t).2.2.2.2.2.2.2.2.2.2.2.2.1
  have e1 : win0_6.index t (1 : Fin 2) = 0 := (idx_facts0 t).2.2.2.2.2.2.2.2.2.2.2.2.2
  have hemb : ((cfg0.win 6).blk t).view.emb (ix2 p z)
      = ix2 (⟨t.val * 1024 + p.val, by have := p.isLt; omega⟩ : Fin 8192) z := by
    funext a
    apply Fin.ext
    match a with
    | ⟨0, _⟩ => show win0_6.index t (0 : Fin 2) * 1024 + 1 * p.val = t.val * 1024 + p.val; rw [e0]; omega
    | ⟨1, _⟩ => show win0_6.index t (1 : Fin 2) * 1 + 1 * z.val = z.val; rw [e1]; omega
  show k0_pay3 (blk0 V c 0 t) (blk0 V c 1 t) (blk0 V c 2 t) (ix2 p z) = G6 V c (((cfg0.win 6).blk t).view.emb (ix2 p z))
  rw [hemb]
  exact nrm_point _ _ _ _ _ _ p _ z (fun d => blk_x_apply V c t p d _ rfl) (blk_w1_apply V c t) (blk_w2_apply V c t)

/-! ## The blocks cover the arrays -/

/-- Every index of the array is in the block of the point its row falls in: row r is in block r / 1024. -/
theorem cover4 (i : S8192x128.Idx) :
    ∃ t : Fin cfg0.N, (cfg0.win 4).flush t = true ∧ i ∈ ((cfg0.win 4).blk t).view.set := by
  have hN : grid0.N = 8 := N_0
  have hi0 : (i 0).val < 8192 := (i 0).isLt
  have hi1 : (i 1).val < 128 := (i 1).isLt
  obtain ⟨t, ht⟩ : ∃ t : Fin cfg0.N, t.val = (i 0).val / 1024 :=
    ⟨⟨(i 0).val / 1024, by show (i 0).val / 1024 < grid0.N; omega⟩, rfl⟩
  have e0 : win0_4.index t (0 : Fin 2) = t.val := (idx_facts0 t).2.2.2.2.2.2.2.2.1
  have e1 : win0_4.index t (1 : Fin 2) = 0 := (idx_facts0 t).2.2.2.2.2.2.2.2.2.1
  refine ⟨t, flush0_4 t, ?_⟩
  show i ∈ ((View.whole main_v0_0).slice (win0_4.rect t)).set
  rw [View.set_slice_whole, Rect.mem_set_unit]
  intro a
  match a with
  | ⟨0, _⟩ =>
    show win0_4.index t (0 : Fin 2) * 1024 ≤ (i 0).val ∧ (i 0).val < win0_4.index t (0 : Fin 2) * 1024 + 1024
    rw [e0, ht]; omega
  | ⟨1, _⟩ =>
    show win0_4.index t (1 : Fin 2) * 128 ≤ (i 1).val ∧ (i 1).val < win0_4.index t (1 : Fin 2) * 128 + 128
    rw [e1]; omega

/-- Every index of the array is in the block of the point its row falls in: row r is in block r / 1024. -/
theorem cover5 (i : S8192x128.Idx) :
    ∃ t : Fin cfg0.N, (cfg0.win 5).flush t = true ∧ i ∈ ((cfg0.win 5).blk t).view.set := by
  have hN : grid0.N = 8 := N_0
  have hi0 : (i 0).val < 8192 := (i 0).isLt
  have hi1 : (i 1).val < 128 := (i 1).isLt
  obtain ⟨t, ht⟩ : ∃ t : Fin cfg0.N, t.val = (i 0).val / 1024 :=
    ⟨⟨(i 0).val / 1024, by show (i 0).val / 1024 < grid0.N; omega⟩, rfl⟩
  have e0 : win0_5.index t (0 : Fin 2) = t.val := (idx_facts0 t).2.2.2.2.2.2.2.2.2.2.1
  have e1 : win0_5.index t (1 : Fin 2) = 0 := (idx_facts0 t).2.2.2.2.2.2.2.2.2.2.2.1
  refine ⟨t, flush0_5 t, ?_⟩
  show i ∈ ((View.whole main_v0_1).slice (win0_5.rect t)).set
  rw [View.set_slice_whole, Rect.mem_set_unit]
  intro a
  match a with
  | ⟨0, _⟩ =>
    show win0_5.index t (0 : Fin 2) * 1024 ≤ (i 0).val ∧ (i 0).val < win0_5.index t (0 : Fin 2) * 1024 + 1024
    rw [e0, ht]; omega
  | ⟨1, _⟩ =>
    show win0_5.index t (1 : Fin 2) * 128 ≤ (i 1).val ∧ (i 1).val < win0_5.index t (1 : Fin 2) * 128 + 128
    rw [e1]; omega

/-- Every index of the array is in the block of the point its row falls in: row r is in block r / 1024. -/
theorem cover6 (i : S8192x1.Idx) :
    ∃ t : Fin cfg0.N, (cfg0.win 6).flush t = true ∧ i ∈ ((cfg0.win 6).blk t).view.set := by
  have hN : grid0.N = 8 := N_0
  have hi0 : (i 0).val < 8192 := (i 0).isLt
  have hi1 : (i 1).val < 1 := (i 1).isLt
  obtain ⟨t, ht⟩ : ∃ t : Fin cfg0.N, t.val = (i 0).val / 1024 :=
    ⟨⟨(i 0).val / 1024, by show (i 0).val / 1024 < grid0.N; omega⟩, rfl⟩
  have e0 : win0_6.index t (0 : Fin 2) = t.val := (idx_facts0 t).2.2.2.2.2.2.2.2.2.2.2.2.1
  have e1 : win0_6.index t (1 : Fin 2) = 0 := (idx_facts0 t).2.2.2.2.2.2.2.2.2.2.2.2.2
  refine ⟨t, flush0_6 t, ?_⟩
  show i ∈ ((View.whole main_v0_2).slice (win0_6.rect t)).set
  rw [View.set_slice_whole, Rect.mem_set_unit]
  intro a
  match a with
  | ⟨0, _⟩ =>
    show win0_6.index t (0 : Fin 2) * 1024 ≤ (i 0).val ∧ (i 0).val < win0_6.index t (0 : Fin 2) * 1024 + 1024
    rw [e0, ht]; omega
  | ⟨1, _⟩ =>
    show win0_6.index t (1 : Fin 2) * 1 ≤ (i 1).val ∧ (i 1).val < win0_6.index t (1 : Fin 2) * 1 + 1
    rw [e1]; omega

/-! ## The arrays after the region -/

/-- After the region the first output array holds the projected features of every row. -/
theorem final0_4 (c : Dev nD) : (dat0 (F := Ideal) V c).arrAt 4 cfg0.N
    = (fun o : S8192x128.Idx => Cert.Spec.xp (V c main_arg0 : Cert.Spec.SX.Idx → EReal) (V c main_arg1 : Cert.Spec.SW1.Idx → EReal)
        (V c main_arg2 : Cert.Spec.SW2.Idx → EReal) (o 0) (o 1)) :=
  (dat0 (F := Ideal) V c).arrAt_eq_of_cover 4 (G4 V c) (fun t _ => flushed4_eq V c t) cover4

/-- After the region the second output array holds the graph-convolution features of every row. -/
theorem final0_5 (c : Dev nD) : (dat0 (F := Ideal) V c).arrAt 5 cfg0.N
    = (fun o : S8192x128.Idx => Cert.Spec.hh (V c main_arg0 : Cert.Spec.SX.Idx → EReal) (V c main_arg3 : Cert.Spec.SW2.Idx → EReal)
        (o 0) (o 1)) :=
  (dat0 (F := Ideal) V c).arrAt_eq_of_cover 5 (G5 V c) (fun t _ => flushed5_eq V c t) cover5

/-- After the region the third output array holds the norm of every row. -/
theorem final0_6 (c : Dev nD) : (dat0 (F := Ideal) V c).arrAt 6 cfg0.N
    = (fun o : S8192x1.Idx => Cert.Spec.nrm (V c main_arg0 : Cert.Spec.SX.Idx → EReal) (V c main_arg1 : Cert.Spec.SW1.Idx → EReal)
        (V c main_arg2 : Cert.Spec.SW2.Idx → EReal) (o 0)) :=
  (dat0 (F := Ideal) V c).arrAt_eq_of_cover 6 (G6 V c) (fun t _ => flushed6_eq V c t) cover6

end Cert.KernelIdeal.HandValue

end
-- ==== Proof.KiValue1a.lean ====
/-
  The second kernel region (the aggregation): what each case of the body leaves, as the body's arithmetic.

  The body stores whole buffers only. At column 0 it first stores the zero block into the accumulator and then, as at
  every point, stores (accumulator + similarity block · feature block); what it loads back between the two stores is
  the zero block itself. At column 7 it also stores (accumulator · 2⁻¹³ + bias) into the output block, the
  accumulator read back being what it has just stored. So the accumulator after the body is the accumulation step
  applied to the zero block (column 0) or to what the accumulator held (other columns), and the output block at
  column 7 is the final scale and bias applied to that. For any float instance.
-/
import proofs.«130529_j59725815218593_1_alg».proof.Proof.KiRegion1
import Idealize.ShloMosaic.Lib.Pipeline.Value
import Idealize.ShloMosaic.Lib.Tactic

set_option maxRecDepth 16384

noncomputable section

namespace Cert.KernelIdeal.HandValue

open Idealize.ShloMosaic Idealize.ShloMosaic.TcCoe Idealize.ShloMosaic.Tactic
open Idealize.SL Idealize.SL.Sem
open Cert.KernelIdeal Cert.KernelIdeal.Gen Cert.KernelIdeal.Hand

variable {F : FTy → Type} [FloatOps F]

/-- The zero offsets of a whole-buffer load or store, however they are spelt. -/
theorem off_zero : (![0, 0] : Fin 2 → Nat) = fun _ => 0 := funext fun a => by fin_cases a <;> rfl

/-- Column 0: the accumulator is cleared, read back as the zero block, and one accumulation step is stored. -/
theorem sout1_A_eq (c : Dev nD) (i : grid1.Coords) (arg2 : Memref sig .tc .vmem S1024x128 .bf16) (harg2 : arg2.IsWhole) (arg3 : Memref sig .tc .vmem S1024x1 .f32) (harg3 : arg3.IsWhole) (arg4 : Memref sig .tc .vmem S1024x128 .bf16) (harg4 : arg4.IsWhole) (arg5 : Memref sig .tc .vmem S1x1024 .f32) (harg5 : arg5.IsWhole) (arg6 : Memref sig .tc .vmem S1024x128 .bf16) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : cond1_0 i) (hc1 : ¬cond1_1 i)
    (x0 : Vec F S1024x128 .bf16) (x1 : Vec F S1024x1 .f32) (x2 : Vec F S1024x128 .bf16) (x3 : Vec F S1x1024 .f32) (x4 : Vec F S1024x128 .bf16) (x5 : Vec F S1x128 .f32) :
    sout1_A c i arg2 harg2 arg3 harg3 arg4 harg4 arg5 harg5 arg6 harg6 arg7 harg7 arg8 harg8 arg9 harg9 hc0 hc1 x0 x1 x2 x3 x4 x5 = k1_pay2 x0 x2 x1 x3 k1_pay1 x4 := by
  unfold sout1_A
  rw [View.read_writes_eq_canon _ _ _ (scover1_A c i arg2 harg2 arg3 harg3 arg4 harg4 arg5 harg5 arg6 harg6 arg7 harg7 arg8 harg8 arg9 harg9 hc0 hc1 x0 x1 x2 x3 x4 x5)]
  unfold kernelRun1_A
  dsimp only
  sl_unfold_words
  rw [View.canon_cons_unit_zero (S := S1024x128) off_zero, View.readCov_unit_zero (S := S1024x128) _ off_zero]
  simp only [View.readAt_eq_ld, harg2.read_unread, harg3.read_unread, harg4.read_unread, harg5.read_unread, harg6.read_unread,
    View.ld_unit_zero (S := S1024x128) off_zero, View.ld_unit_zero (S := S1024x1) off_zero, View.ld_unit_zero (S := S1x1024) off_zero]

/-- Columns 1 to 6: one accumulation step on what the accumulator held. -/
theorem sout1_B_eq (c : Dev nD) (i : grid1.Coords) (arg2 : Memref sig .tc .vmem S1024x128 .bf16) (harg2 : arg2.IsWhole) (arg3 : Memref sig .tc .vmem S1024x1 .f32) (harg3 : arg3.IsWhole) (arg4 : Memref sig .tc .vmem S1024x128 .bf16) (harg4 : arg4.IsWhole) (arg5 : Memref sig .tc .vmem S1x1024 .f32) (harg5 : arg5.IsWhole) (arg6 : Memref sig .tc .vmem S1024x128 .bf16) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : ¬cond1_1 i)
    (x0 : Vec F S1024x128 .bf16) (x1 : Vec F S1024x1 .f32) (x2 : Vec F S1024x128 .bf16) (x3 : Vec F S1x1024 .f32) (x4 : Vec F S1024x128 .bf16) (x5 : Vec F S1x128 .f32) (xs : Vec F S1024x128 .f32) :
    sout1_B c i arg2 harg2 arg3 harg3 arg4 harg4 arg5 harg5 arg6 harg6 arg7 harg7 arg8 harg8 arg9 harg9 hc0 hc1 x0 x1 x2 x3 x4 x5 xs = k1_pay2 x0 x2 x1 x3 xs x4 := by
  unfold sout1_B
  rw [View.read_writes_eq_canon _ _ _ (scover1_B c i arg2 harg2 arg3 harg3 arg4 harg4 arg5 harg5 arg6 harg6 arg7 harg7 arg8 harg8 arg9 harg9 hc0 hc1 x0 x1 x2 x3 x4 x5 xs)]
  unfold kernelRun1_B
  dsimp only
  rw [View.canon_unit_zero off_zero]
  simp only [View.readAt_eq_ld, harg2.read_unread, harg3.read_unread, harg4.read_unread, harg5.read_unread, harg6.read_unread, harg9.read_unread,
    View.ld_unit_zero (S := S1024x128) off_zero, View.ld_unit_zero (S := S1024x1) off_zero, View.ld_unit_zero (S := S1x1024) off_zero]

/-- Column 7, the accumulator: one accumulation step on what it held. -/
theorem sout1_C_eq (c : Dev nD) (i : grid1.Coords) (arg2 : Memref sig .tc .vmem S1024x128 .bf16) (harg2 : arg2.IsWhole) (arg3 : Memref sig .tc .vmem S1024x1 .f32) (harg3 : arg3.IsWhole) (arg4 : Memref sig .tc .vmem S1024x128 .bf16) (harg4 : arg4.IsWhole) (arg5 : Memref sig .tc .vmem S1x1024 .f32) (harg5 : arg5.IsWhole) (arg6 : Memref sig .tc .vmem S1024x128 .bf16) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : cond1_1 i)
    (x0 : Vec F S1024x128 .bf16) (x1 : Vec F S1024x1 .f32) (x2 : Vec F S1024x128 .bf16) (x3 : Vec F S1x1024 .f32) (x4 : Vec F S1024x128 .bf16) (x5 : Vec F S1x128 .f32) (xs : Vec F S1024x128 .f32) :
    sout1_C c i arg2 harg2 arg3 harg3 arg4 harg4 arg5 harg5 arg6 harg6 arg7 harg7 arg8 harg8 arg9 harg9 hc0 hc1 x0 x1 x2 x3 x4 x5 xs = k1_pay2 x0 x2 x1 x3 xs x4 := by
  unfold sout1_C
  rw [View.read_writes_eq_canon _ _ _ (scover1_C c i arg2 harg2 arg3 harg3 arg4 harg4 arg5 harg5 arg6 harg6 arg7 harg7 arg8 harg8 arg9 harg9 hc0 hc1 x0 x1 x2 x3 x4 x5 xs)]
  unfold kernelRun1_C
  dsimp only
  sl_unfold_words
  rw [View.canon_unit_zero off_zero]
  simp only [View.readAt_eq_ld, harg2.read_unread, harg3.read_unread, harg4.read_unread, harg5.read_unread, harg6.read_unread, harg9.read_unread,
    View.ld_unit_zero (S := S1024x128) off_zero, View.ld_unit_zero (S := S1024x1) off_zero, View.ld_unit_zero (S := S1x1024) off_zero]

/-- Column 7, the output block: the accumulator just stored, scaled by 2⁻¹³, plus the bias row. -/
theorem out1_C_eq (c : Dev nD) (i : grid1.Coords) (arg2 : Memref sig .tc .vmem S1024x128 .bf16) (harg2 : arg2.IsWhole) (arg3 : Memref sig .tc .vmem S1024x1 .f32) (harg3 : arg3.IsWhole) (arg4 : Memref sig .tc .vmem S1024x128 .bf16) (harg4 : arg4.IsWhole) (arg5 : Memref sig .tc .vmem S1x1024 .f32) (harg5 : arg5.IsWhole) (arg6 : Memref sig .tc .vmem S1024x128 .bf16) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : cond1_1 i)
    (x0 : Vec F S1024x128 .bf16) (x1 : Vec F S1024x1 .f32) (x2 : Vec F S1024x128 .bf16) (x3 : Vec F S1x1024 .f32) (x4 : Vec F S1024x128 .bf16) (x5 : Vec F S1x128 .f32) (xs : Vec F S1024x128 .f32) :
    out1_C c i arg2 harg2 arg3 harg3 arg4 harg4 arg5 harg5 arg6 harg6 arg7 harg7 arg8 harg8 arg9 harg9 hc0 hc1 x0 x1 x2 x3 x4 x5 xs = k1_pay3 (k1_pay2 x0 x2 x1 x3 xs x4) x5 := by
  unfold out1_C
  rw [View.read_writes_eq_canon _ _ _ (cover1_C c i arg2 harg2 arg3 harg3 arg4 harg4 arg5 harg5 arg6 harg6 arg7 harg7 arg8 harg8 arg9 harg9 hc0 hc1 x0 x1 x2 x3 x4 x5 xs)]
  unfold kernelRun1_C
  dsimp only
  sl_unfold_words
  rw [View.canon_unit_zero off_zero, View.readCov_unit_zero (S := S1024x128) _ off_zero]
  simp only [View.readAt_eq_ld, harg2.read_unread, harg3.read_unread, harg4.read_unread, harg5.read_unread, harg6.read_unread, harg7.read_unread, harg9.read_unread,
    View.ld_unit_zero (S := S1024x128) off_zero, View.ld_unit_zero (S := S1024x1) off_zero, View.ld_unit_zero (S := S1x1024) off_zero, View.ld_unit_zero (S := S1x128) off_zero]

end Cert.KernelIdeal.HandValue

end
-- ==== Proof.KiValue1b.lean ====
/-
  The second kernel region (the aggregation): the accumulator and the output block after each grid point, as the
  body's arithmetic on that point's input blocks.

  At a point of column 0 the accumulator becomes one accumulation step applied to the zero block; at every other point
  one accumulation step applied to what the point before left. At a point of column 7 the output block is the final
  scale and bias applied to the accumulator the point has just stored. For any float instance.
-/
import proofs.«130529_j59725815218593_1_alg».proof.Proof.KiValue1a

set_option maxRecDepth 16384

noncomputable section

namespace Cert.KernelIdeal.HandValue

open Idealize.ShloMosaic Idealize.ShloMosaic.TcCoe Idealize.ShloMosaic.Tactic
open Idealize.SL Idealize.SL.Sem
open Cert.KernelIdeal Cert.KernelIdeal.Gen Cert.KernelIdeal.Hand

variable {F : FTy → Type} [FloatOps F]
variable (V : (c : Dev nD) → (b : Ref sig .tc) → Buf (Elt F) ((c : Thread nD τ).loc b))

/-- One accumulation step on a point's blocks: the row block and the column block of the projected features, their
    norms, and the column block of the graph-convolution features. -/
def stepAt (c : Dev nD) (t : Fin cfg1.N) (acc : Vec F S1024x128 .f32) : Vec F S1024x128 .f32 :=
  k1_pay2 (blk1 V c 0 t) (blk1 V c 2 t) (blk1 V c 1 t) (blk1 V c 3 t) acc (blk1 V c 4 t)

theorem accA_eq (c : Dev nD) (t : Fin cfg1.N) (h0 : t.val % 8 = 0) (h1 : ¬t.val % 8 = 7) :
    accA V c t h0 h1 = stepAt V c t k1_pay1 :=
  sout1_A_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) ((hcond1_0 t).mpr h0) (fun h => h1 ((hcond1_1 t).mp h)) (blk1 V c 0 t) (blk1 V c 1 t) (blk1 V c 2 t) (blk1 V c 3 t) (blk1 V c 4 t) (blk1 V c 5 t)
theorem accB_eq (c : Dev nD) (t : Fin cfg1.N) (h0 : ¬t.val % 8 = 0) (h1 : ¬t.val % 8 = 7) (xs : Vec F S1024x128 .f32) :
    accB V c t h0 h1 xs = stepAt V c t xs :=
  sout1_B_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) (fun h => h0 ((hcond1_0 t).mp h)) (fun h => h1 ((hcond1_1 t).mp h)) (blk1 V c 0 t) (blk1 V c 1 t) (blk1 V c 2 t) (blk1 V c 3 t) (blk1 V c 4 t) (blk1 V c 5 t) xs
theorem accC_eq (c : Dev nD) (t : Fin cfg1.N) (h0 : ¬t.val % 8 = 0) (h1 : t.val % 8 = 7) (xs : Vec F S1024x128 .f32) :
    accC V c t h0 h1 xs = stepAt V c t xs :=
  sout1_C_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) (fun h => h0 ((hcond1_0 t).mp h)) ((hcond1_1 t).mpr h1) (blk1 V c 0 t) (blk1 V c 1 t) (blk1 V c 2 t) (blk1 V c 3 t) (blk1 V c 4 t) (blk1 V c 5 t) xs
theorem outC_eq (c : Dev nD) (t : Fin cfg1.N) (h0 : ¬t.val % 8 = 0) (h1 : t.val % 8 = 7) (xs : Vec F S1024x128 .f32) :
    outC V c t h0 h1 xs = k1_pay3 (stepAt V c t xs) (blk1 V c 5 t) :=
  out1_C_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) (fun h => h0 ((hcond1_0 t).mp h)) ((hcond1_1 t).mpr h1) (blk1 V c 0 t) (blk1 V c 1 t) (blk1 V c 2 t) (blk1 V c 3 t) (blk1 V c 4 t) (blk1 V c 5 t) xs

/-- At column 0 the accumulator is one step from the zero block. -/
theorem accAt_col0 (c : Dev nD) (t : Fin cfg1.N) (h0 : t.val % 8 = 0) :
    accAt V c t.val t.isLt = stepAt V c t k1_pay1 :=
  (accAt_A V c t h0 (by omega)).trans (accA_eq V c t h0 (by omega))

/-- At every other column it is one step from what the point before left. -/
theorem accAt_next (c : Dev nD) (t : Fin cfg1.N) (h0 : ¬t.val % 8 = 0) :
    accAt V c t.val t.isLt = stepAt V c t (accAt V c (t.val - 1) (Nat.lt_of_le_of_lt (Nat.sub_le _ _) t.isLt)) := by
  by_cases h1 : t.val % 8 = 7
  · exact (accAt_C V c t h0 h1).trans (accC_eq V c t h0 h1 _)
  · exact (accAt_B V c t h0 h1).trans (accB_eq V c t h0 h1 _)

/-- At column 7 the output block is the accumulator the point has just stored, scaled by 2⁻¹³, plus the bias row. -/
theorem outAt_col7 (c : Dev nD) (t : Fin cfg1.N) (h1 : t.val % 8 = 7) :
    outAt V c t = k1_pay3 (accAt V c t.val t.isLt) (blk1 V c 5 t) := by
  have h0 : ¬t.val % 8 = 0 := by omega
  unfold outAt
  rw [dif_pos h1, outC_eq V c t h0 h1, accAt_next V c t h0]

end Cert.KernelIdeal.HandValue

end
-- ==== Proof.KiValue1Blocks.lean ====
/-
  The block-level facts of the second kernel region, on the extended reals: where each window's block sits in its
  array at every grid point, one accumulation step and the last step at an index written against the arrays, and
  the cover of the output array by the blocks written back at the last column of each row block.
-/
import proofs.«130529_j59725815218593_1_alg».proof.Proof.KiRegion1
import proofs.«130529_j59725815218593_1_alg».proof.Proof.PayValue
import Idealize.ShloMosaic.Lib.Pipeline.Value
import Idealize.ShloMosaic.Lib.ValueIdx

set_option maxRecDepth 16384

noncomputable section

open scoped BigOperators

namespace Cert.KernelIdeal.HandValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand Cert.KernelIdeal.PayValue

variable (V : (c : Dev nD) → (b : Ref sig .tc) → Buf (Elt Ideal) ((c : Thread nD τ).loc b))

/-- The printed index maps of the second region, decided over its 64 grid points: at point t (row block t / 8, column
    block t % 8) the windows over the row block (the projected features, their norms, the output) are at block
    (t / 8, 0); the windows over the column block (the projected features again, the graph-convolution features) at
    block (t % 8, 0); the window over the row of norms at block (0, t % 8); the bias at block (0, 0). -/
theorem idx_facts1 : ∀ t : Fin cfg1.N,
    win1_0.index t (0 : Fin 2) = t.val / 8 ∧ win1_0.index t (1 : Fin 2) = 0
    ∧ win1_1.index t (0 : Fin 2) = t.val / 8 ∧ win1_1.index t (1 : Fin 2) = 0
    ∧ win1_2.index t (0 : Fin 2) = t.val % 8 ∧ win1_2.index t (1 : Fin 2) = 0
    ∧ win1_3.index t (0 : Fin 2) = 0 ∧ win1_3.index t (1 : Fin 2) = t.val % 8
    ∧ win1_4.index t (0 : Fin 2) = t.val % 8 ∧ win1_4.index t (1 : Fin 2) = 0
    ∧ win1_5.index t (0 : Fin 2) = 0 ∧ win1_5.index t (1 : Fin 2) = 0
    ∧ win1_6.index t (0 : Fin 2) = t.val / 8 ∧ win1_6.index t (1 : Fin 2) = 0 :=
  (by decide +kernel : ∀ t : Fin grid1.N, _)

/-! ## The input blocks as parts of the arrays the region finds -/

/-- The row block of the projected features at point t is rows 1024·(t / 8) … of the array. -/
theorem blk1_0_apply (c : Dev nD) (t : Fin cfg1.N) (p : Fin 1024) (q : Fin 128) (P : Fin 8192)
    (hP : P.val = (t.val / 8) * 1024 + p.val) :
    (blk1 V c 0 t : S1024x128.Idx → EReal) (ix2 p q) = (V c main_v0_0 : S8192x128.Idx → EReal) (ix2 P q) := by
  have e0 : win1_0.index t (0 : Fin 2) = t.val / 8 := (idx_facts1 t).1
  have e1 : win1_0.index t (1 : Fin 2) = 0 := (idx_facts1 t).2.1
  unfold blk1
  rw [View.read_apply]
  show V c main_v0_0 _ = V c main_v0_0 _
  congr 1
  funext a
  apply Fin.ext
  match a with
  | ⟨0, _⟩ => show win1_0.index t (0 : Fin 2) * 1024 + 1 * p.val = P.val; rw [e0, hP]; omega
  | ⟨1, _⟩ => show win1_0.index t (1 : Fin 2) * 128 + 1 * q.val = q.val; rw [e1]; omega

/-- The row block of the norms at point t is rows 1024·(t / 8) … of the column of norms. -/
theorem blk1_1_apply (c : Dev nD) (t : Fin cfg1.N) (p : Fin 1024) (P : Fin 8192)
    (hP : P.val = (t.val / 8) * 1024 + p.val) :
    (blk1 V c 1 t : S1024x1.Idx → EReal) (ix2 p 0) = (V c main_v0_2 : S8192x1.Idx → EReal) (ix2 P 0) := by
  have e0 : win1_1.index t (0 : Fin 2) = t.val / 8 := (idx_facts1 t).2.2.1
  have e1 : win1_1.index t (1 : Fin 2) = 0 := (idx_facts1 t).2.2.2.1
  unfold blk1
  rw [View.read_apply]
  show V c main_v0_2 _ = V c main_v0_2 _
  congr 1
  funext a
  apply Fin.ext
  match a with
  | ⟨0, _⟩ => show win1_1.index t (0 : Fin 2) * 1024 + 1 * p.val = P.val; rw [e0, hP]; omega
  | ⟨1, _⟩ => show win1_1.index t (1 : Fin 2) * 1 + 1 * (0 : Fin 1).val = (0 : Fin 1).val; rw [e1]; omega

/-- The column block of the projected features at point t is rows 1024·(t % 8) … of the array. -/
theorem blk1_2_apply (c : Dev nD) (t : Fin cfg1.N) (j : Fin 1024) (q : Fin 128) (Jj : Fin 8192)
    (hJ : Jj.val = (t.val % 8) * 1024 + j.val) :
    (blk1 V c 2 t : S1024x128.Idx → EReal) (ix2 j q) = (V c main_v0_0 : S8192x128.Idx → EReal) (ix2 Jj q) := by
  have e0 : win1_2.index t (0 : Fin 2) = t.val % 8 := (idx_facts1 t).2.2.2.2.1
  have e1 : win1_2.index t (1 : Fin 2) = 0 := (idx_facts1 t).2.2.2.2.2.1
  unfold blk1
  rw [View.read_apply]
  show V c main_v0_0 _ = V c main_v0_0 _
  congr 1
  funext a
  apply Fin.ext
  match a with
  | ⟨0, _⟩ => show win1_2.index t (0 : Fin 2) * 1024 + 1 * j.val = Jj.val; rw [e0, hJ]; omega
  | ⟨1, _⟩ => show win1_2.index t (1 : Fin 2) * 128 + 1 * q.val = q.val; rw [e1]; omega

/-- The column block of the row of norms at point t is entries 1024·(t % 8) … of the row. -/
theorem blk1_3_apply (c : Dev nD) (t : Fin cfg1.N) (j : Fin 1024) (Jj : Fin 8192)
    (hJ : Jj.val = (t.val % 8) * 1024 + j.val) :
    (blk1 V c 3 t : S1x1024.Idx → EReal) (ix2 0 j) = (V c main_v1 : S1x8192.Idx → EReal) (ix2 0 Jj) := by
  have e0 : win1_3.index t (0 : Fin 2) = 0 := (idx_facts1 t).2.2.2.2.2.2.1
  have e1 : win1_3.index t (1 : Fin 2) = t.val % 8 := (idx_facts1 t).2.2.2.2.2.2.2.1
  unfold blk1
  rw [View.read_apply]
  show V c main_v1 _ = V c main_v1 _
  congr 1
  funext a
  apply Fin.ext
  match a with
  | ⟨0, _⟩ => show win1_3.index t (0 : Fin 2) * 1 + 1 * (0 : Fin 1).val = (0 : Fin 1).val; rw [e0]; omega
  | ⟨1, _⟩ => show win1_3.index t (1 : Fin 2) * 1024 + 1 * j.val = Jj.val; rw [e1, hJ]; omega

/-- The column block of the graph-convolution features at point t is rows 1024·(t % 8) … of the array. -/
theorem blk1_4_apply (c : Dev nD) (t : Fin cfg1.N) (j : Fin 1024) (r : Fin 128) (Jj : Fin 8192)
    (hJ : Jj.val = (t.val % 8) * 1024 + j.val) :
    (blk1 V c 4 t : S1024x128.Idx → EReal) (ix2 j r) = (V c main_v0_1 : S8192x128.Idx → EReal) (ix2 Jj r) := by
  have e0 : win1_4.index t (0 : Fin 2) = t.val % 8 := (idx_facts1 t).2.2.2.2.2.2.2.2.1
  have e1 : win1_4.index t (1 : Fin 2) = 0 := (idx_facts1 t).2.2.2.2.2.2.2.2.2.1
  unfold blk1
  rw [View.read_apply]
  show V c main_v0_1 _ = V c main_v0_1 _
  congr 1
  funext a
  apply Fin.ext
  match a with
  | ⟨0, _⟩ => show win1_4.index t (0 : Fin 2) * 1024 + 1 * j.val = Jj.val; rw [e0, hJ]; omega
  | ⟨1, _⟩ => show win1_4.index t (1 : Fin 2) * 128 + 1 * r.val = r.val; rw [e1]; omega

/-- The block of the bias row is the bias row. -/
theorem blk1_5_apply (c : Dev nD) (t : Fin cfg1.N) (r : Fin 128) :
    (blk1 V c 5 t : S1x128.Idx → EReal) (ix2 0 r) = (V c main_v2 : S1x128.Idx → EReal) (ix2 0 r) := by
  have e0 : win1_5.index t (0 : Fin 2) = 0 := (idx_facts1 t).2.2.2.2.2.2.2.2.2.2.1
  have e1 : win1_5.index t (1 : Fin 2) = 0 := (idx_facts1 t).2.2.2.2.2.2.2.2.2.2.2.1
  unfold blk1
  rw [View.read_apply]
  show V c main_v2 _ = V c main_v2 _
  congr 1
  funext a
  apply Fin.ext
  match a with
  | ⟨0, _⟩ => show win1_5.index t (0 : Fin 2) * 1 + 1 * (0 : Fin 1).val = (0 : Fin 1).val; rw [e0]; omega
  | ⟨1, _⟩ => show win1_5.index t (1 : Fin 2) * 128 + 1 * r.val = r.val; rw [e1]; omega

/-! ## One accumulation step at an index, against the arrays -/

/-- Row j of row block J of an array of 8 × 1024 rows. -/
def rowOf (J : Fin 8) (j : Fin 1024) : Fin 8192 := ⟨1024 * J.val + j.val, by have := J.isLt; have := j.isLt; omega⟩

theorem rowOf_val (J : Fin 8) (j : Fin 1024) : (rowOf J j).val = 1024 * J.val + j.val := rfl

/-- The contribution of row j to the aggregate of row i at feature r: the clamped cosine similarity of the projected
    features of rows i and j, times the graph-convolution feature r of row j. -/
def term (XP : S8192x128.Idx → EReal) (NR : S8192x1.Idx → EReal) (NRT : S1x8192.Idx → EReal) (HH : S8192x128.Idx → EReal)
    (i j : Fin 8192) (r : Fin 128) : EReal :=
  Ideal.div (∑ q : Fin 128, XP (ix2 i q) * XP (ix2 j q))
    (max (NR (ix2 i 0) * NRT (ix2 0 j)) (Ideal.ofBits .f32 0x322BCC77#32)) * HH (ix2 j r)

/-- One accumulation step over blocks that are row block I and column block K of the arrays: the accumulator plus the
    contributions of the 1024 rows of block K to row p of block I. -/
theorem step_point (xi xj : Vec Ideal S1024x128 .bf16) (ni : Vec Ideal S1024x1 .f32) (njT : Vec Ideal S1x1024 .f32)
    (acc : Vec Ideal S1024x128 .f32) (hj : Vec Ideal S1024x128 .bf16)
    (XP : S8192x128.Idx → EReal) (NR : S8192x1.Idx → EReal) (NRT : S1x8192.Idx → EReal) (HH : S8192x128.Idx → EReal)
    (I K : Fin 8) (p : Fin 1024) (r : Fin 128)
    (hxi : ∀ q : Fin 128, xi (ix2 p q) = XP (ix2 (rowOf I p) q))
    (hni : ni (ix2 p 0) = NR (ix2 (rowOf I p) 0))
    (hxj : ∀ (j : Fin 1024) (q : Fin 128), xj (ix2 j q) = XP (ix2 (rowOf K j) q))
    (hnj : ∀ j : Fin 1024, njT (ix2 0 j) = NRT (ix2 0 (rowOf K j)))
    (hhj : ∀ j : Fin 1024, hj (ix2 j r) = HH (ix2 (rowOf K j) r)) :
    k1_pay2 xi xj ni njT acc hj (ix2 p r)
      = acc (ix2 p r) + ∑ j : Fin 1024, term XP NR NRT HH (rowOf I p) (rowOf K j) r := by
  rw [k1_pay2_apply]
  refine congrArg (fun s => acc (ix2 p r) + s) (Finset.sum_congr rfl fun j _ => ?_)
  unfold term
  rw [hni, hnj j, hhj j]
  refine congrArg (fun s => Ideal.div s (max (NR (ix2 (rowOf I p) 0) * NRT (ix2 0 (rowOf K j))) (Ideal.ofBits .f32 0x322BCC77#32))
    * HH (ix2 (rowOf K j) r)) ?_
  exact Finset.sum_congr rfl fun q _ => by rw [hxi q, hxj j q]

/-- The last step over a bias block that is the bias row: the accumulator scaled by 2⁻¹³ plus the bias. -/
theorem last_point (acc : Vec Ideal S1024x128 .f32) (gb : Vec Ideal S1x128 .f32) (GB : S1x128.Idx → EReal)
    (p : Fin 1024) (r : Fin 128) (hgb : gb (ix2 0 r) = GB (ix2 0 r)) :
    k1_pay3 acc gb (ix2 p r) = acc (ix2 p r) * Ideal.ofBits .f32 0x39000000#32 + GB (ix2 0 r) := by
  rw [k1_pay3_apply, hgb]

/-! ## The same at a grid point, on the point's blocks -/

/-- The row block and the column block of grid point t. -/
def rowBlk (t : Fin cfg1.N) : Fin 8 := ⟨t.val / 8, by have h : t.val < grid1.N := t.isLt; have hN : grid1.N = 64 := N_1; omega⟩
def colBlk (t : Fin cfg1.N) : Fin 8 := ⟨t.val % 8, by omega⟩

theorem rowBlk_val (t : Fin cfg1.N) : (rowBlk t).val = t.val / 8 := rfl
theorem colBlk_val (t : Fin cfg1.N) : (colBlk t).val = t.val % 8 := rfl

/-- The contribution of row j to row i at feature r, over the arrays the region finds. -/
abbrev termAt (c : Dev nD) (i j : Fin 8192) (r : Fin 128) : EReal :=
  term (V c main_v0_0 : S8192x128.Idx → EReal) (V c main_v0_2 : S8192x1.Idx → EReal) (V c main_v1 : S1x8192.Idx → EReal)
    (V c main_v0_1 : S8192x128.Idx → EReal) i j r

/-- One accumulation step at grid point t, on the point's input blocks. -/
theorem step_at (c : Dev nD) (t : Fin cfg1.N) (acc : Vec Ideal S1024x128 .f32) (p : Fin 1024) (r : Fin 128) :
    k1_pay2 (blk1 V c 0 t) (blk1 V c 2 t) (blk1 V c 1 t) (blk1 V c 3 t) acc (blk1 V c 4 t) (ix2 p r)
      = acc (ix2 p r) + ∑ j : Fin 1024, termAt V c (rowOf (rowBlk t) p) (rowOf (colBlk t) j) r :=
  step_point _ _ _ _ acc _ _ _ _ _ (rowBlk t) (colBlk t) p r
    (fun q => blk1_0_apply V c t p q _ (by rw [rowOf_val, rowBlk_val]; omega))
    (blk1_1_apply V c t p _ (by rw [rowOf_val, rowBlk_val]; omega))
    (fun j q => blk1_2_apply V c t j q _ (by rw [rowOf_val, colBlk_val]; omega))
    (fun j => blk1_3_apply V c t j _ (by rw [rowOf_val, colBlk_val]; omega))
    (fun j => blk1_4_apply V c t j r _ (by rw [rowOf_val, colBlk_val]; omega))

/-- The last step at grid point t, on the point's bias block. -/
theorem last_at (c : Dev nD) (t : Fin cfg1.N) (acc : Vec Ideal S1024x128 .f32) (p : Fin 1024) (r : Fin 128) :
    k1_pay3 acc (blk1 V c 5 t) (ix2 p r)
      = acc (ix2 p r) * Ideal.ofBits .f32 0x39000000#32 + (V c main_v2 : S1x128.Idx → EReal) (ix2 0 r) :=
  last_point acc _ _ p r (blk1_5_apply V c t r)

/-! ## The output blocks cover the output array -/

/-- The output window's block at point t, embedded in the array: row p of the block is row 1024·(t / 8) + p. -/
theorem emb1_6 (t : Fin cfg1.N) (p : Fin 1024) (r : Fin 128) :
    ((cfg1.win 6).blk t).view.emb (ix2 p r) = ix2 (rowOf (rowBlk t) p) r := by
  have e0 : win1_6.index t (0 : Fin 2) = t.val / 8 := (idx_facts1 t).2.2.2.2.2.2.2.2.2.2.2.2.1
  have e1 : win1_6.index t (1 : Fin 2) = 0 := (idx_facts1 t).2.2.2.2.2.2.2.2.2.2.2.2.2
  funext a
  apply Fin.ext
  match a with
  | ⟨0, _⟩ => show win1_6.index t (0 : Fin 2) * 1024 + 1 * p.val = 1024 * (t.val / 8) + p.val; rw [e0]; omega
  | ⟨1, _⟩ => show win1_6.index t (1 : Fin 2) * 128 + 1 * r.val = r.val; rw [e1]; omega

/-- Every index of the output array is in the block written back at the last column of its row block: row i is in the
    block of point 8·(i / 1024) + 7. -/
theorem cover1_6 (i : S8192x128.Idx) :
    ∃ t : Fin cfg1.N, t.val = 8 * ((i 0).val / 1024) + 7 ∧ (cfg1.win 6).flush t = true
      ∧ i ∈ ((cfg1.win 6).blk t).view.set := by
  have hN : grid1.N = 64 := N_1
  have hi0 : (i 0).val < 8192 := (i 0).isLt
  have hi1 : (i 1).val < 128 := (i 1).isLt
  obtain ⟨t, ht⟩ : ∃ t : Fin cfg1.N, t.val = 8 * ((i 0).val / 1024) + 7 :=
    ⟨⟨8 * ((i 0).val / 1024) + 7, by show 8 * ((i 0).val / 1024) + 7 < grid1.N; omega⟩, rfl⟩
  have e0 : win1_6.index t (0 : Fin 2) = t.val / 8 := (idx_facts1 t).2.2.2.2.2.2.2.2.2.2.2.2.1
  have e1 : win1_6.index t (1 : Fin 2) = 0 := (idx_facts1 t).2.2.2.2.2.2.2.2.2.2.2.2.2
  refine ⟨t, ht, (flush1_6 t).mpr (by omega), ?_⟩
  show i ∈ ((View.whole main_v3).slice (win1_6.rect t)).set
  rw [View.set_slice_whole, Rect.mem_set_unit]
  intro a
  match a with
  | ⟨0, _⟩ =>
    show win1_6.index t (0 : Fin 2) * 1024 ≤ (i 0).val ∧ (i 0).val < win1_6.index t (0 : Fin 2) * 1024 + 1024
    rw [e0, ht]; omega
  | ⟨1, _⟩ =>
    show win1_6.index t (1 : Fin 2) * 128 ≤ (i 1).val ∧ (i 1).val < win1_6.index t (1 : Fin 2) * 128 + 128
    rw [e1]; omega

end Cert.KernelIdeal.HandValue

end
-- ==== Proof.KiValue1.lean ====
/-
  The second kernel region (the aggregation), on the extended reals: what the accumulator holds after every grid point,
  and the output array after the region.

  Point t is in row block t / 8 and column block t % 8. The accumulator starts each row block from the zero block
  (0 + x = x) and every point adds the contributions of the 1024 rows of its column block, so after the point of
  column k the entry (p, r) is the sum over the column blocks 0 … k of those contributions to row p of the row block:
  by induction on the point. After column 7 it is the sum over all 8192 rows, grouped by column block. The point of
  column 7 is the only one of its row block that writes the output block back, as that sum scaled by 2⁻¹³ plus the bias;
  row i of the output is covered by the point 8 · (i / 1024) + 7, so the array ends holding that function of the arrays
  the region found.
-/
import proofs.«130529_j59725815218593_1_alg».proof.Proof.KiValue1b
import proofs.«130529_j59725815218593_1_alg».proof.Proof.KiValue1Blocks
import Idealize.ShloMosaic.Lib.Pipeline.Value
import Idealize.ShloMosaic.Lib.ValueIdx

set_option maxRecDepth 16384

noncomputable section

open scoped BigOperators

namespace Cert.KernelIdeal.HandValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand Cert.KernelIdeal.PayValue

variable (V : (c : Dev nD) → (b : Ref sig .tc) → Buf (Elt Ideal) ((c : Thread nD τ).loc b))

/-- One accumulation step at a grid point, at an index: the accumulator plus the contributions of the rows of the
    point's column block to row p of the point's row block. -/
theorem stepAt_apply (c : Dev nD) (t : Fin cfg1.N) (acc : Vec Ideal S1024x128 .f32) (p : Fin 1024) (r : Fin 128) :
    stepAt V c t acc (ix2 p r)
      = acc (ix2 p r) + ∑ j : Fin 1024, termAt V c (rowOf (rowBlk t) p) (rowOf (colBlk t) j) r :=
  step_at V c t acc p r

/-- Column block J's contributions to entry (p, r) of row block I's aggregate; zero past the last column block. -/
def colSum (c : Dev nD) (I : Fin 8) (p : Fin 1024) (r : Fin 128) (J : ℕ) : EReal :=
  if h : J < 8 then ∑ j : Fin 1024, termAt V c (rowOf I p) (rowOf ⟨J, h⟩ j) r else 0

theorem colSum_lt (c : Dev nD) (I : Fin 8) (p : Fin 1024) (r : Fin 128) (J : ℕ) (h : J < 8) :
    colSum V c I p r J = ∑ j : Fin 1024, termAt V c (rowOf I p) (rowOf ⟨J, h⟩ j) r := dif_pos h

/-- THE ACCUMULATION, by induction on the point: after position n, in row block I = n / 8, entry (p, r) of the
    accumulator is the sum of the contributions of the column blocks 0 … n % 8. -/
theorem accAt_apply (c : Dev nD) : ∀ (n : ℕ) (hn : n < cfg1.N) (I : Fin 8) (hI : n / 8 = I.val) (p : Fin 1024) (r : Fin 128),
    (accAt V c n hn : S1024x128.Idx → EReal) (ix2 p r) = ∑ J ∈ Finset.range (n % 8 + 1), colSum V c I p r J := by
  intro n
  induction n with
  | zero =>
    intro hn I hI p r
    have e : accAt V c 0 hn = stepAt V c ⟨0, hn⟩ (k1_pay1 (F := Ideal)) := accAt_col0 V c ⟨0, hn⟩ rfl
    have hR : rowBlk ⟨0, hn⟩ = I := Fin.ext hI
    have hC : colBlk ⟨0, hn⟩ = ⟨0, by decide⟩ := Fin.ext rfl
    rw [e, stepAt_apply V c ⟨0, hn⟩ (k1_pay1 (F := Ideal)) p r, k1_pay1_apply, zero_add, hR, hC]
    show _ = ∑ J ∈ Finset.range 1, colSum V c I p r J
    rw [Finset.sum_range_one, colSum_lt V c I p r 0 (by decide)]
  | succ n ih =>
    intro hn I hI p r
    have hR : rowBlk ⟨n + 1, hn⟩ = I := Fin.ext hI
    by_cases h0 : (n + 1) % 8 = 0
    · have e : accAt V c (n + 1) hn = stepAt V c ⟨n + 1, hn⟩ (k1_pay1 (F := Ideal)) := accAt_col0 V c ⟨n + 1, hn⟩ h0
      have hC : colBlk ⟨n + 1, hn⟩ = ⟨0, by decide⟩ := Fin.ext h0
      rw [e, stepAt_apply V c ⟨n + 1, hn⟩ (k1_pay1 (F := Ideal)) p r, k1_pay1_apply, zero_add, hR, hC, h0]
      show _ = ∑ J ∈ Finset.range 1, colSum V c I p r J
      rw [Finset.sum_range_one, colSum_lt V c I p r 0 (by decide)]
    · have hk : (n + 1) % 8 = n % 8 + 1 := by omega
      have hlt : n % 8 + 1 < 8 := by omega
      have e : accAt V c (n + 1) hn = stepAt V c ⟨n + 1, hn⟩ (accAt V c n (Nat.lt_of_succ_lt hn)) := accAt_next V c ⟨n + 1, hn⟩ h0
      have hC : colBlk ⟨n + 1, hn⟩ = ⟨n % 8 + 1, hlt⟩ := Fin.ext hk
      rw [e, stepAt_apply V c ⟨n + 1, hn⟩ (accAt V c n (Nat.lt_of_succ_lt hn)) p r, hR, hC,
        ih (Nat.lt_of_succ_lt hn) I (by omega) p r, hk,
        Finset.sum_range_succ (fun J => colSum V c I p r J) (n % 8 + 1), colSum_lt V c I p r (n % 8 + 1) hlt]

/-- After a point of column 7 the accumulator holds the whole aggregate of its row block: the contributions of all
    8 × 1024 rows. -/
theorem accAt_col7_apply (c : Dev nD) (t : Fin cfg1.N) (h7 : t.val % 8 = 7) (p : Fin 1024) (r : Fin 128) :
    (accAt V c t.val t.isLt : S1024x128.Idx → EReal) (ix2 p r)
      = ∑ J : Fin 8, ∑ j : Fin 1024, termAt V c (rowOf (rowBlk t) p) (rowOf J j) r := by
  rw [accAt_apply V c t.val t.isLt (rowBlk t) rfl p r, h7]
  show ∑ J ∈ Finset.range 8, colSum V c (rowBlk t) p r J = _
  rw [Finset.sum_range]
  exact Finset.sum_congr rfl fun J _ => colSum_lt V c (rowBlk t) p r J.val J.isLt

/-- The output array as one function of the arrays the region finds: the aggregate of every row over all rows, scaled
    by 2⁻¹³, plus the bias. -/
def aggOut (c : Dev nD) : S8192x128.Idx → EReal := fun o =>
  (∑ J : Fin 8, ∑ j : Fin 1024, termAt V c (o 0) (rowOf J j) (o 1)) * Ideal.ofBits .f32 0x39000000#32
    + (V c main_v2 : S1x128.Idx → EReal) (ix2 0 (o 1))

/-- What a point of column 7 writes back is its block of that function. -/
theorem flushed1_6_eq (c : Dev nD) (t : Fin cfg1.N) (hf : (cfg1.win 6).flush t = true) :
    (dat1 (F := Ideal) V c).flushed 6 t = ((cfg1.win 6).blk t).view.read (Elt Ideal) (aggOut V c) := by
  have h7 : t.val % 8 = 7 := (flush1_6 t).mp hf
  show (cfg1.win 6).cut (grid1.coords t) ((dat1 V c).after 6 t) = _
  rw [after1_6, outAt_col7 V c t h7]
  funext y
  obtain ⟨p, r, rfl⟩ : ∃ (p : Fin 1024) (r : Fin 128), y = ix2 p r := ⟨y 0, y 1, eq_ix2 y⟩
  show k1_pay3 (accAt V c t.val t.isLt) (blk1 V c 5 t) (ix2 p r) = aggOut V c (((cfg1.win 6).blk t).view.emb (ix2 p r))
  rw [emb1_6 t p r, last_at V c t (accAt V c t.val t.isLt) p r, accAt_col7_apply V c t h7 p r]
  rfl

/-- After the region the output array holds, at (i, r), the aggregate of row i over all 8192 rows, scaled by 2⁻¹³,
    plus the bias at r. -/
theorem final1_6 (c : Dev nD) : (dat1 (F := Ideal) V c).arrAt 6 cfg1.N
    = fun o : S8192x128.Idx => (∑ J : Fin 8, ∑ j : Fin 1024, termAt V c (o 0) (rowOf J j) (o 1)) * Ideal.ofBits .f32 0x39000000#32
        + (V c main_v2 : S1x128.Idx → EReal) (ix2 0 (o 1)) :=
  (dat1 (F := Ideal) V c).arrAt_eq_of_cover 6 (aggOut V c) (flushed1_6_eq V c)
    fun i => let ⟨t, _, hf, hi⟩ := cover1_6 i; ⟨t, hf, hi⟩

end Cert.KernelIdeal.HandValue

end
-- ==== Proof.KiResult.lean ====
/-
  The idealized kernel's result array is the specification's function of the argument arrays: the second region's
  output, read off its write-backs, over the first region's three output arrays and the two host reshapes.
-/
import proofs.«130529_j59725815218593_1_alg».proof.Proof.KiCompose
import proofs.«130529_j59725815218593_1_alg».proof.Proof.KiValue0
import proofs.«130529_j59725815218593_1_alg».proof.Proof.KiValue1

noncomputable section

namespace Cert.KernelIdeal.HandValue

open Idealize.ShloMosaic Idealize.ShloMosaic.TcCoe Idealize.SL.Sem
open Cert.KernelIdeal Cert.KernelIdeal.Gen Cert.KernelIdeal.Hand

theorem result_G (m : (ℓ : Loc nD τ sig) → Buf (Elt Ideal) ℓ) (ρ : Dev nD → PrngReg) (c : Dev nD) :
    (dat1 (F := Ideal) (U2 m ρ) c).arrAt 6 cfg1.N
      = Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) :=
  result_G_of final0_4 final0_5 final0_6 (fun V c => (final1_6 V c).trans rfl) m ρ c

end Cert.KernelIdeal.HandValue

end
-- ==== Proof.RefValue.lean ====
/-
  The reference program read index by index on the extended reals.

  Its twenty-eight operations are read one at a time, each at an index written by coordinates, and each is
  identified with the corresponding piece of the specification: the first product and its positive part are
  the hidden layer, the second product the projected features, the row sums of their squares under the
  square root the row norms, the product of the projected features with their own transpose the matrix of
  inner products of the rows, the two broadcasts of the norm column and its transpose the outer product of
  the norms, the clamped quotient the cosine similarity, and the last product with x · gw, scaled and shifted
  by the bias row, the result. No law of arithmetic is used beyond 0 + a = a for the sums' initial value: the
  two sides are the same expression, term by term. The 8192 × 8192 intermediate arrays are only ever read at
  one index.
-/
import proofs.«130529_j59725815218593_1_alg».proof.Proof.Gen.ReferenceIdeal.Read
import proofs.«130529_j59725815218593_1_alg».proof.Proof.Spec

noncomputable section

namespace Cert.ReferenceIdeal.RefValue

open Idealize.ShloMosaic Idealize.ShloMosaic.ValueIdx
open Cert.ReferenceIdeal Cert.ReferenceIdeal.Gen Cert.ReferenceIdeal.Read

/-- Two rank-2 indices with the same two coordinates are equal. -/
local macro "idx_cases2" : tactic =>
  `(tactic| (funext a; match a with | ⟨0, _⟩ => rfl | ⟨1, _⟩ => rfl))
/-- Two rank-1 indices with the same coordinate are equal. -/
local macro "idx_cases1" : tactic =>
  `(tactic| (funext a; match a with | ⟨0, _⟩ => rfl))

variable (x : FVec Ideal S8192x512 .f32) (w1 : FVec Ideal S512x512 .f32) (w2 gw : FVec Ideal S512x128 .f32)
  (gb : FVec Ideal S128 .f32)

/-! ## The hidden layer and the projected features -/

/-- x · w1 at (p, k). -/
theorem v0_at (p : Fin 8192) (k : Fin 512) :
    val_main_v0 (F := Ideal) x w1 (ix2 p k) = ∑ d : Fin 512, x (ix2 p d) * w1 (ix2 d k) := by
  rw [val_main_v0_apply]
  refine Finset.sum_congr rfl fun d _ => ?_
  rw [show lidx_main_v0 (ix2 p k) d = ix2 p d by idx_cases2, show ridx_main_v0 (ix2 p k) d = ix2 d k by idx_cases2]

/-- Its positive part is the hidden layer. -/
theorem v1_at (p : Fin 8192) (k : Fin 512) :
    val_main_v1 (F := Ideal) x w1 (ix2 p k) = Cert.Spec.hid x w1 p k := by
  rw [val_main_v1_apply, v0_at, val_main_call0_v0_apply, val_main_call0_cst_apply]
  rfl

/-- hid · w2 at (p, q): the projected features. -/
theorem v2_at (p : Fin 8192) (q : Fin 128) :
    val_main_v2 (F := Ideal) x w1 w2 (ix2 p q) = Cert.Spec.xp x w1 w2 p q := by
  rw [val_main_v2_apply]
  unfold Cert.Spec.xp
  refine Finset.sum_congr rfl fun k _ => ?_
  rw [show lidx_main_v2 (ix2 p q) k = ix2 p k by idx_cases2, show ridx_main_v2 (ix2 p q) k = ix2 k q by idx_cases2, v1_at]

/-! ## The row norms -/

/-- The squares of the projected features. -/
theorem v3_at (p : Fin 8192) (q : Fin 128) :
    val_main_v3 (F := Ideal) x w1 w2 (ix2 p q) = Cert.Spec.xp x w1 w2 p q * Cert.Spec.xp x w1 w2 p q := by
  rw [val_main_v3_apply, v2_at]
  rfl

/-- Their row sums: the initial value is zero. -/
theorem v4_at (p : Fin 8192) :
    val_main_v4 (F := Ideal) x w1 w2 (ix1 p) = ∑ q : Fin 128, Cert.Spec.xp x w1 w2 p q * Cert.Spec.xp x w1 w2 p q := by
  rw [val_main_v4_apply, val_main_cst_apply, Ideal.ofBits_def, Ideal.ofBits_zero_f32, zero_add]
  refine Finset.sum_congr rfl fun q _ => ?_
  rw [show idx_main_v4 (ix1 p) q = ix2 p q by idx_cases2, v3_at]

/-- The row sums as a column. -/
theorem v5_at (p : Fin 8192) (u : Fin 1) :
    val_main_v5 (F := Ideal) x w1 w2 (ix2 p u) = ∑ q : Fin 128, Cert.Spec.xp x w1 w2 p q * Cert.Spec.xp x w1 w2 p q := by
  rw [val_main_v5_apply, show idx_main_v5 (ix2 p u) = ix1 p by idx_cases1, v4_at]

/-- The column of row norms. -/
theorem v6_at (p : Fin 8192) (u : Fin 1) :
    val_main_v6 (F := Ideal) x w1 w2 (ix2 p u) = Cert.Spec.nrm x w1 w2 p := by
  rw [val_main_v6_apply, v5_at]
  rfl

/-! ## The inner products of the rows -/

/-- The transposed projected features. -/
theorem v7_at (q : Fin 128) (j : Fin 8192) :
    val_main_v7 (F := Ideal) x w1 w2 (ix2 q j) = Cert.Spec.xp x w1 w2 j q := by
  rw [val_main_v7_apply, show idx_main_v7 (ix2 q j) = ix2 j q by idx_cases2, v2_at]

/-- xp · xpᵀ at (i, j): the inner product of rows i and j. -/
theorem v8_at (i j : Fin 8192) :
    val_main_v8 (F := Ideal) x w1 w2 (ix2 i j) = ∑ q : Fin 128, Cert.Spec.xp x w1 w2 i q * Cert.Spec.xp x w1 w2 j q := by
  rw [val_main_v8_apply]
  refine Finset.sum_congr rfl fun q _ => ?_
  rw [show lidx_main_v8 (ix2 i j) q = ix2 i q by idx_cases2, show ridx_main_v8 (ix2 i j) q = ix2 q j by idx_cases2,
    v2_at, v7_at]

/-! ## The outer product of the norms, clamped -/

/-- The row of row norms. -/
theorem v9_at (u : Fin 1) (j : Fin 8192) :
    val_main_v9 (F := Ideal) x w1 w2 (ix2 u j) = Cert.Spec.nrm x w1 w2 j := by
  rw [val_main_v9_apply, show idx_main_v9 (ix2 u j) = ix2 j u by idx_cases2, v6_at]

/-- The norm column spread along the rows. -/
theorem v10_at (i j : Fin 8192) :
    val_main_v10 (F := Ideal) x w1 w2 (ix2 i j) = Cert.Spec.nrm x w1 w2 i := by
  rw [val_main_v10_apply, show idx_main_v10 (ix2 i j) = ix2 i (⟨0, Nat.one_pos⟩ : Fin 1) by idx_cases2, v6_at]

/-- The norm row spread along the columns. -/
theorem v11_at (i j : Fin 8192) :
    val_main_v11 (F := Ideal) x w1 w2 (ix2 i j) = Cert.Spec.nrm x w1 w2 j := by
  rw [val_main_v11_apply, show idx_main_v11 (ix2 i j) = ix2 (⟨0, Nat.one_pos⟩ : Fin 1) j by idx_cases2, v9_at]

/-- The product of the two norms, clamped below by ε. -/
theorem v14_at (i j : Fin 8192) :
    val_main_v14 (F := Ideal) x w1 w2 (ix2 i j)
      = max (Cert.Spec.nrm x w1 w2 i * Cert.Spec.nrm x w1 w2 j) Cert.Spec.epsW := by
  rw [val_main_v14_apply, val_main_v12_apply, v10_at, v11_at, val_main_v13_apply, val_main_cst_0_apply]
  rfl

/-- The clamped cosine similarity. -/
theorem v15_at (i j : Fin 8192) :
    val_main_v15 (F := Ideal) x w1 w2 (ix2 i j) = Cert.Spec.sim x w1 w2 i j := by
  rw [val_main_v15_apply, v8_at, v14_at]
  rfl

/-! ## The aggregate, the scale and the bias -/

/-- x · gw at (j, r). -/
theorem v16_at (j : Fin 8192) (r : Fin 128) :
    val_main_v16 (F := Ideal) x gw (ix2 j r) = Cert.Spec.hh x gw j r := by
  rw [val_main_v16_apply]
  unfold Cert.Spec.hh
  refine Finset.sum_congr rfl fun d _ => ?_
  rw [show lidx_main_v16 (ix2 j r) d = ix2 j d by idx_cases2, show ridx_main_v16 (ix2 j r) d = ix2 d r by idx_cases2]

/-- sim · hh at (i, r). -/
theorem v17_at (i : Fin 8192) (r : Fin 128) :
    val_main_v17 (F := Ideal) x w1 w2 gw (ix2 i r)
      = ∑ j : Fin 8192, Cert.Spec.sim x w1 w2 i j * Cert.Spec.hh x gw j r := by
  rw [val_main_v17_apply]
  refine Finset.sum_congr rfl fun j _ => ?_
  rw [show lidx_main_v17 (ix2 i r) j = ix2 i j by idx_cases2, show ridx_main_v17 (ix2 i r) j = ix2 j r by idx_cases2,
    v15_at, v16_at]

/-- The bias row spread along the rows. -/
theorem v21_at (i : Fin 8192) (r : Fin 128) :
    val_main_v21 (F := Ideal) gb (ix2 i r) = gb (ix1 r) := by
  rw [val_main_v21_apply, val_main_v20_apply]
  exact congrArg gb (by idx_cases1)

/-- The last stage at (i, r) is the specification there. -/
theorem v22_at (i : Fin 8192) (r : Fin 128) :
    val_main_v22 (F := Ideal) x w1 w2 gw gb (ix2 i r) = Cert.Spec.G x w1 w2 gw gb (ix2 i r) := by
  rw [val_main_v22_apply, val_main_v19_apply, v17_at, val_main_v18_apply, val_main_cst_1_apply, v21_at]
  rfl

/-- The reference's last stage is the specification. -/
theorem result_eq : val_main_v22 (F := Ideal) x w1 w2 gw gb = Cert.Spec.G x w1 w2 gw gb := by
  funext o
  obtain ⟨i, r, rfl⟩ : ∃ (i : Fin 8192) (r : Fin 128), o = ix2 i r := ⟨o 0, o 1, eq_ix2 o⟩
  exact v22_at x w1 w2 gw gb i r

end Cert.ReferenceIdeal.RefValue

end
-- ==== Proof.RefValueRun.lean ====
/-
  The reference program's run, stated with the specification: every weakly fair execution terminates with the
  result array equal to Cert.Spec.G of the five argument arrays as the run found them, and the arguments
  unchanged. The run itself is the generated one; its result term is the last stage of the operation-by-operation
  reading, and that stage is the specification (RefValue.result_eq).
-/
import proofs.«130529_j59725815218593_1_alg».proof.Proof.RefValue

noncomputable section

namespace Cert.ReferenceIdeal.RefValue

open Idealize.ShloMosaic Idealize.SL.Sem

/-- The reference ends with its result array at the specification of its arguments, the arguments unchanged. -/
theorem run_G (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v22) = Cert.Spec.G (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)) :=
  (θ_run Cert.ReferenceIdeal.defs _ _).mono
    (fun _ h c => ⟨(h c).1.trans ((Cert.ReferenceIdeal.Read.val_main_v22_eq _ _ _ _ _).trans (result_eq _ _ _ _ _)), (h c).2⟩)
    (Cert.ReferenceIdeal.Value.run (F := Ideal) m' ρ')

end Cert.ReferenceIdeal.RefValue

end
-- ==== Proof.RefValueFrame.lean ====
/-
  The reference program's frame: it runs to the end without a fault and leaves its five argument arrays as it
  found them. This is the generated run with the clause about the result array dropped.
-/
import proofs.«130529_j59725815218593_1_alg».proof.Defs
import proofs.«130529_j59725815218593_1_alg».proof.Proof.Gen.ReferenceIdeal.Run
import proofs.«130529_j59725815218593_1_alg».proof.Proof.Gen.Pre_finite_inputs

noncomputable section

namespace Cert.ReferenceIdeal.RefValue

open Idealize.ShloMosaic Idealize.SL.Sem

/-- The reference terminates, faults nowhere, and its arguments end unchanged. -/
theorem frame_ri : Cert.frame_ReferenceIdeal := fun m ρ _ =>
  (θ_run Cert.ReferenceIdeal.defs _ _).mono (fun _ h c => (h c).2) (Cert.ReferenceIdeal.Value.run (F := Ideal) m ρ)

end Cert.ReferenceIdeal.RefValue

end
-- ==== Proof.lean ====
/-
  The certificate of a graph-convolution kernel against its jnp reference, on the extended reals.

  Both programs compute, for node features x (8192 × 512) and weights w1, w2, gw, gb,
    G (i, r) = (∑_j sim i j · hh j r) · 2⁻¹³ + gb r,
  where xp = max (x · w1) 0 · w2 are the projected features, hh = x · gw the graph-convolution features and
  sim i j = (xp i · xp j) / max (‖xp i‖ · ‖xp j‖) ε the clamped cosine similarity (Proof/Spec.lean).
  The kernel computes xp, hh and the norms in a first region, row block by row block, and the aggregate in a second
  region over an 8 × 8 grid of (row block, column block) pairs, adding one block product per point into an accumulator
  that it clears at column 0 and scales, biases and stores at column 7; the reference computes the 8192 × 8192
  similarity matrix whole. The two agree because a sum over 8192 columns is the sum over 8 blocks of 1024 columns
  (associativity and commutativity of + on the extended reals; nothing is distributed, so finiteness is not used).
  The frames: each region's body is run once per case of its conditionals; the second region reads the projected
  features through two windows that hold half a share of the array each (Proof/K*Run.lean).
-/
import proofs.«130529_j59725815218593_1_alg».proof.Defs
import proofs.«130529_j59725815218593_1_alg».proof.Proof.Gen.Kernel
import proofs.«130529_j59725815218593_1_alg».proof.Proof.Gen.KernelIdeal
import proofs.«130529_j59725815218593_1_alg».proof.Proof.Gen.ReferenceIdeal
import proofs.«130529_j59725815218593_1_alg».proof.Proof.Gen.Pre_finite_inputs
import proofs.«130529_j59725815218593_1_alg».proof.Proof.KbRun
import proofs.«130529_j59725815218593_1_alg».proof.Proof.KiRun
import proofs.«130529_j59725815218593_1_alg».proof.Proof.KiResult
import proofs.«130529_j59725815218593_1_alg».proof.Proof.RefValueRun
import proofs.«130529_j59725815218593_1_alg».proof.Proof.RefValueFrame
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Hand.frame_all m ρ
/-- So does the idealized kernel. -/
theorem frame_ki : Cert.frame_KernelIdeal := fun m ρ _ => Cert.KernelIdeal.Hand.frame_all m ρ

/-- Both idealized programs end with the specification's function of the (agreeing) arguments. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · exact (θ_run Cert.KernelIdeal.defs _ _).mono
      (fun _ h c => ⟨(h c).1.trans (Cert.KernelIdeal.HandValue.result_G m ρ c), (h c).2⟩)
      (Cert.KernelIdeal.Hand.run_result (F := Ideal) m ρ)
  · exact (θ_run Cert.ReferenceIdeal.defs _ _).mono
      (fun _ h c => ⟨by rw [(h c).1, (hagree c).1, (hagree c).2.1, (hagree c).2.2.1, (hagree c).2.2.2.1, (hagree c).2.2.2.2], (h c).2⟩)
      (Cert.ReferenceIdeal.RefValue.run_G m' ρ')

theorem claim : Cert.Claim := ⟨Cert.Kernel.Gen.facts, Cert.KernelIdeal.Gen.facts, Cert.ReferenceIdeal.Gen.facts, Cert.Pre_finite_inputs.Gen.facts,
  frame_k, frame_ki, Cert.ReferenceIdeal.RefValue.frame_ri, trivial, algebraic⟩

end Cert.Proof

end
